-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x4096 : Shape := ⟨3, ![16, 4096, 4096]⟩
abbrev S16x2x64x64 : Shape := ⟨4, ![16, 2, 64, 64]⟩
abbrev S16x1x64x64 : Shape := ⟨4, ![16, 1, 64, 64]⟩
abbrev S_ : Shape := ⟨0, ![]⟩

class Facts : Prop where
  bcast_S_S16x4096x4096 : S_.BroadcastsInDim S16x4096x4096 (![] : Fin 0 → Fin S16x4096x4096.rank)
  reducesTo_S16x4096x4096_S_d0_1_2 : S16x4096x4096.ReducesTo [0, 1, 2] S_
  h_S_ : 0 < S_.numel
  bcast_S_S16x2x64x64 : S_.BroadcastsInDim S16x2x64x64 (![] : Fin 0 → Fin S16x2x64x64.rank)
  reducesTo_S16x2x64x64_S_d0_1_2_3 : S16x2x64x64.ReducesTo [0, 1, 2, 3] S_
  bcast_S_S16x1x64x64 : S_.BroadcastsInDim S16x1x64x64 (![] : Fin 0 → Fin S16x1x64x64.rank)
  reducesTo_S16x1x64x64_S_d0_1_2_3 : S16x1x64x64.ReducesTo [0, 1, 2, 3] S_

variable [Facts]

def fn {F : FTy → Type} [FloatOps F] (main_arg0 : FVec F S16x4096x4096 .f32) (main_arg1 : FVec F S16x2x64x64 .f32) (main_arg2 : FVec F S16x1x64x64 .f32) : IVec S_ 1 :=
  let main_v0 : FVec F S16x4096x4096 .f32 := Host.absf main_arg0
  let main_cst : FVec F S_ .f32 := constant S_ .f32 0x7F800000#32
  let main_v1 : FVec F S16x4096x4096 .f32 := broadcastInDim S16x4096x4096 ![] bcast_S_S16x4096x4096 main_cst
  let main_v2 : IVec S16x4096x4096 1 := cmpf .olt main_v0 main_v1
  let main_c : IVec S_ 1 := constantI S_ 1 1#1
  let main_v3 : IVec S_ 1 := (fun x v => Host.reduce IntOp.andi x v reducesTo_S16x4096x4096_S_d0_1_2 h_S_) main_v2 main_c
  let main_v4 : FVec F S16x2x64x64 .f32 := Host.absf main_arg1
  let main_cst_0 : FVec F S_ .f32 := constant S_ .f32 0x7F800000#32
  let main_v5 : FVec F S16x2x64x64 .f32 := broadcastInDim S16x2x64x64 ![] bcast_S_S16x2x64x64 main_cst_0
  let main_v6 : IVec S16x2x64x64 1 := cmpf .olt main_v4 main_v5
  let main_c_1 : IVec S_ 1 := constantI S_ 1 1#1
  let main_v7 : IVec S_ 1 := (fun x v => Host.reduce IntOp.andi x v reducesTo_S16x2x64x64_S_d0_1_2_3 h_S_) main_v6 main_c_1
  let main_v8 : IVec S_ 1 := andi main_v3 main_v7
  let main_v9 : FVec F S16x1x64x64 .f32 := Host.absf main_arg2
  let main_cst_2 : FVec F S_ .f32 := constant S_ .f32 0x7F800000#32
  let main_v10 : FVec F S16x1x64x64 .f32 := broadcastInDim S16x1x64x64 ![] bcast_S_S16x1x64x64 main_cst_2
  let main_v11 : IVec S16x1x64x64 1 := cmpf .olt main_v9 main_v10
  let main_c_3 : IVec S_ 1 := constantI S_ 1 1#1
  let main_v12 : IVec S_ 1 := (fun x v => Host.reduce IntOp.andi x v reducesTo_S16x1x64x64_S_d0_1_2_3 h_S_) main_v11 main_c_3
  let main_v13 : IVec S_ 1 := andi main_v8 main_v12
  main_v13
-- ==== Kernel.lean ====
abbrev S16x4096x4096 : Shape := ⟨3, ![16, 4096, 4096]⟩
abbrev S16x2x64x64 : Shape := ⟨4, ![16, 2, 64, 64]⟩
abbrev S16x1x64x64 : Shape := ⟨4, ![16, 1, 64, 64]⟩
abbrev S16x64x64 : Shape := ⟨3, ![16, 64, 64]⟩
abbrev S_ : Shape := ⟨0, ![]⟩
abbrev S16x64x64x1 : Shape := ⟨4, ![16, 64, 64, 1]⟩
abbrev S16x64x64x4 : Shape := ⟨4, ![16, 64, 64, 4]⟩
abbrev S16x4096x4 : Shape := ⟨3, ![16, 4096, 4]⟩
abbrev S16x4096x1 : Shape := ⟨3, ![16, 4096, 1]⟩
abbrev S16x8x128 : Shape := ⟨3, ![16, 8, 128]⟩
abbrev S1x256x4096 : Shape := ⟨3, ![1, 256, 4096]⟩
abbrev S1x256x4 : Shape := ⟨3, ![1, 256, 4]⟩
abbrev S1x256x1 : Shape := ⟨3, ![1, 256, 1]⟩
abbrev S1x8x128 : Shape := ⟨3, ![1, 8, 128]⟩
abbrev S8x128 : Shape := ⟨2, ![8, 128]⟩
abbrev S256x4096 : Shape := ⟨2, ![256, 4096]⟩
abbrev S256x4 : Shape := ⟨2, ![256, 4]⟩
abbrev S256x1 : Shape := ⟨2, ![256, 1]⟩
abbrev S1x1 : Shape := ⟨2, ![1, 1]⟩
abbrev S256 : Shape := ⟨1, ![256]⟩
abbrev S1 : Shape := ⟨1, ![1]⟩
abbrev S16x1x1 : Shape := ⟨3, ![16, 1, 1]⟩
abbrev S16 : Shape := ⟨1, ![16]⟩

abbrev nBuf : Space → Nat
  | .hbm => 180
  | .vmem => 11
  | .smem => 0
  | _ => 0

abbrev hbmTy0_0 (i : Nat) : BufTy := match i % 128 with
  | 0 => ⟨S16x4096x4096, .f32⟩
  | 1 => ⟨S16x2x64x64, .f32⟩
  | 2 => ⟨S16x1x64x64, .f32⟩
  | 3 => ⟨S16x1x64x64, .f32⟩
  | 4 => ⟨S16x64x64, .f32⟩
  | 5 => ⟨S_, .f32⟩
  | 6 => ⟨S16x64x64, .f32⟩
  | 7 => ⟨S16x64x64, .f32⟩
  | 8 => ⟨S_, .f32⟩
  | 9 => ⟨S16x64x64, .f32⟩
  | 10 => ⟨S16x64x64, .f32⟩
  | 11 => ⟨S_, .f32⟩
  | 12 => ⟨S16x64x64, .f32⟩
  | 13 => ⟨S16x64x64, .f32⟩
  | 14 => ⟨S16x1x64x64, .f32⟩
  | 15 => ⟨S16x64x64, .f32⟩
  | 16 => ⟨S_, .f32⟩
  | 17 => ⟨S16x64x64, .f32⟩
  | 18 => ⟨S16x64x64, .f32⟩
  | 19 => ⟨S_, .f32⟩
  | 20 => ⟨S16x64x64, .f32⟩
  | 21 => ⟨S16x64x64, .f32⟩
  | 22 => ⟨S_, .f32⟩
  | 23 => ⟨S16x64x64, .f32⟩
  | 24 => ⟨S16x64x64, .f32⟩
  | 25 => ⟨S16x64x64, .f32⟩
  | 26 => ⟨S16x64x64, .f32⟩
  | 27 => ⟨S_, .f32⟩
  | 28 => ⟨S16x64x64, .f32⟩
  | 29 => ⟨S16x64x64, .f32⟩
  | 30 => ⟨S16x64x64, .f32⟩
  | 31 => ⟨S_, .f32⟩
  | 32 => ⟨S16x64x64, .f32⟩
  | 33 => ⟨S16x64x64, .f32⟩
  | 34 => ⟨S16x64x64, .f32⟩
  | 35 => ⟨S16x64x64, .f32⟩
  | 36 => ⟨S_, .f32⟩
  | 37 => ⟨S16x64x64, .f32⟩
  | 38 => ⟨S16x64x64, .f32⟩
  | 39 => ⟨S16x64x64, .f32⟩
  | 40 => ⟨S16x64x64, .f32⟩
  | 41 => ⟨S16x64x64, .f32⟩
  | 42 => ⟨S16x64x64, .f32⟩
  | 43 => ⟨S_, .f32⟩
  | 44 => ⟨S16x64x64, .f32⟩
  | 45 => ⟨S16x64x64, .f32⟩
  | 46 => ⟨S16x64x64, .f32⟩
  | 47 => ⟨S16x64x64, .f32⟩
  | 48 => ⟨S16x64x64, .f32⟩
  | 49 => ⟨S16x64x64, .f32⟩
  | 50 => ⟨S16x64x64, .f32⟩
  | 51 => ⟨S_, .f32⟩
  | 52 => ⟨S16x64x64, .f32⟩
  | 53 => ⟨S16x64x64, .f32⟩
  | 54 => ⟨S_, .f32⟩
  | 55 => ⟨S_, .f32⟩
  | 56 => ⟨S_, .f32⟩
  | 57 => ⟨S16x64x64, .f32⟩
  | 58 => ⟨S16x64x64, .f32⟩
  | 59 => ⟨S_, .f32⟩
  | 60 => ⟨S16x64x64, .f32⟩
  | 61 => ⟨S16x64x64, .f32⟩
  | 62 => ⟨S_, .f32⟩
  | 63 => ⟨S16x64x64, .f32⟩
  | 64 => ⟨S16x64x64, .f32⟩
  | 65 => ⟨S_, .f32⟩
  | 66 => ⟨S_, .f32⟩
  | 67 => ⟨S_, .f32⟩
  | 68 => ⟨S16x64x64, .f32⟩
  | 69 => ⟨S16x64x64, .f32⟩
  | 70 => ⟨S_, .f32⟩
  | 71 => ⟨S16x64x64, .f32⟩
  | 72 => ⟨S16x64x64, .f32⟩
  | 73 => ⟨S_, .f32⟩
  | 74 => ⟨S16x64x64, .f32⟩
  | 75 => ⟨S16x64x64, .f32⟩
  | 76 => ⟨S16x64x64, .f32⟩
  | 77 => ⟨S16x64x64, .i32⟩
  | 78 => ⟨S_, .f32⟩
  | 79 => ⟨S16x64x64, .f32⟩
  | 80 => ⟨S16x64x64, .f32⟩
  | 81 => ⟨S_, .f32⟩
  | 82 => ⟨S_, .f32⟩
  | 83 => ⟨S_, .f32⟩
  | 84 => ⟨S16x64x64, .f32⟩
  | 85 => ⟨S16x64x64, .f32⟩
  | 86 => ⟨S_, .f32⟩
  | 87 => ⟨S16x64x64, .f32⟩
  | 88 => ⟨S16x64x64, .f32⟩
  | 89 => ⟨S_, .f32⟩
  | 90 => ⟨S16x64x64, .f32⟩
  | 91 => ⟨S16x64x64, .f32⟩
  | 92 => ⟨S_, .f32⟩
  | 93 => ⟨S_, .f32⟩
  | 94 => ⟨S_, .f32⟩
  | 95 => ⟨S16x64x64, .f32⟩
  | 96 => ⟨S16x64x64, .f32⟩
  | 97 => ⟨S_, .f32⟩
  | 98 => ⟨S16x64x64, .f32⟩
  | 99 => ⟨S16x64x64, .f32⟩
  | 100 => ⟨S_, .f32⟩
  | 101 => ⟨S16x64x64, .f32⟩
  | 102 => ⟨S16x64x64, .f32⟩
  | 103 => ⟨S16x64x64, .f32⟩
  | 104 => ⟨S16x64x64, .i32⟩
  | 105 => ⟨S_, .f32⟩
  | 106 => ⟨S16x64x64, .f32⟩
  | 107 => ⟨S16x64x64, .f32⟩
  | 108 => ⟨S_, .f32⟩
  | 109 => ⟨S_, .f32⟩
  | 110 => ⟨S_, .f32⟩
  | 111 => ⟨S16x64x64, .f32⟩
  | 112 => ⟨S16x64x64, .f32⟩
  | 113 => ⟨S_, .f32⟩
  | 114 => ⟨S16x64x64, .f32⟩
  | 115 => ⟨S16x64x64, .f32⟩
  | 116 => ⟨S_, .f32⟩
  | 117 => ⟨S16x64x64, .f32⟩
  | 118 => ⟨S16x64x64, .f32⟩
  | 119 => ⟨S_, .f32⟩
  | 120 => ⟨S_, .f32⟩
  | 121 => ⟨S_, .f32⟩
  | 122 => ⟨S16x64x64, .f32⟩
  | 123 => ⟨S16x64x64, .f32⟩
  | 124 => ⟨S_, .f32⟩
  | 125 => ⟨S16x64x64, .f32⟩
  | 126 => ⟨S16x64x64, .f32⟩
  | 127 => ⟨S_, .f32⟩
  | _ => ⟨S16x4096x4096, .f32⟩

abbrev hbmTy0_1 (i : Nat) : BufTy := match i % 128 with
  | 0 => ⟨S16x64x64, .f32⟩
  | 1 => ⟨S16x64x64, .f32⟩
  | 2 => ⟨S16x64x64, .f32⟩
  | 3 => ⟨S16x64x64, .i32⟩
  | 4 => ⟨S_, .f32⟩
  | 5 => ⟨S16x64x64, .f32⟩
  | 6 => ⟨S16x64x64, .f32⟩
  | 7 => ⟨S_, .f32⟩
  | 8 => ⟨S_, .f32⟩
  | 9 => ⟨S_, .f32⟩
  | 10 => ⟨S16x64x64, .f32⟩
  | 11 => ⟨S16x64x64, .f32⟩
  | 12 => ⟨S_, .f32⟩
  | 13 => ⟨S16x64x64, .f32⟩
  | 14 => ⟨S16x64x64, .f32⟩
  | 15 => ⟨S_, .f32⟩
  | 16 => ⟨S16x64x64, .f32⟩
  | 17 => ⟨S16x64x64, .f32⟩
  | 18 => ⟨S_, .f32⟩
  | 19 => ⟨S_, .f32⟩
  | 20 => ⟨S_, .f32⟩
  | 21 => ⟨S16x64x64, .f32⟩
  | 22 => ⟨S16x64x64, .f32⟩
  | 23 => ⟨S_, .f32⟩
  | 24 => ⟨S16x64x64, .f32⟩
  | 25 => ⟨S16x64x64, .f32⟩
  | 26 => ⟨S_, .f32⟩
  | 27 => ⟨S16x64x64, .f32⟩
  | 28 => ⟨S16x64x64, .f32⟩
  | 29 => ⟨S16x64x64, .f32⟩
  | 30 => ⟨S16x64x64, .i32⟩
  | 31 => ⟨S16x64x64x1, .f32⟩
  | 32 => ⟨S16x64x64x1, .f32⟩
  | 33 => ⟨S16x64x64x1, .f32⟩
  | 34 => ⟨S16x64x64x1, .f32⟩
  | 35 => ⟨S16x64x64x4, .f32⟩
  | 36 => ⟨S16x4096x4, .f32⟩
  | 37 => ⟨S16x64x64x1, .i32⟩
  | 38 => ⟨S16x64x64x1, .i32⟩
  | 39 => ⟨S16x64x64x1, .i32⟩
  | 40 => ⟨S16x64x64x1, .i32⟩
  | 41 => ⟨S16x64x64x4, .i32⟩
  | 42 => ⟨S16x4096x4, .i32⟩
  | 43 => ⟨S16x64x64, .f32⟩
  | 44 => ⟨S16x4096x1, .f32⟩
  | 45 => ⟨S16x8x128, .f32⟩
  | 46 => ⟨S16x1x1, .f32⟩
  | 47 => ⟨S16, .f32⟩
  | 48 => ⟨S_, .f32⟩
  | 49 => ⟨S_, .f32⟩
  | 50 => ⟨S_, .f32⟩
  | 51 => ⟨S_, .f32⟩
  | _ => ⟨S16x4096x4096, .f32⟩

abbrev hbmTy (i : Nat) : BufTy := match i / 128 with
  | 0 => hbmTy0_0 i
  | 1 => hbmTy0_1 i
  | _ => ⟨S16x4096x4096, .f32⟩

abbrev bufTy : (tb : Table) → Fin (tcTables nBuf tb) → BufTy
  | .hbm, ⟨i, _⟩ => hbmTy i
  | .local _ .vmem, ⟨0, _⟩ => ⟨S1x256x4096, .f32⟩
  | .local _ .vmem, ⟨1, _⟩ => ⟨S1x256x4096, .f32⟩
  | .local _ .vmem, ⟨2, _⟩ => ⟨S1x256x4, .i32⟩
  | .local _ .vmem, ⟨3, _⟩ => ⟨S1x256x4, .i32⟩
  | .local _ .vmem, ⟨4, _⟩ => ⟨S1x256x4, .f32⟩
  | .local _ .vmem, ⟨5, _⟩ => ⟨S1x256x4, .f32⟩
  | .local _ .vmem, ⟨6, _⟩ => ⟨S1x256x1, .f32⟩
  | .local _ .vmem, ⟨7, _⟩ => ⟨S1x256x1, .f32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | _, _ => ⟨S16x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_cst_11 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_cst_14 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_16 : Ref sig .tc := ⟨.hbm, 78, rfl⟩
abbrev main_v48 : Ref sig .tc := ⟨.hbm, 79, rfl⟩
abbrev main_v49 : Ref sig .tc := ⟨.hbm, 80, rfl⟩
abbrev main_cst_17 : Ref sig .tc := ⟨.hbm, 81, rfl⟩
abbrev main_cst_18 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v50 : Ref sig .tc := ⟨.hbm, 88, rfl⟩
abbrev main_cst_19 : Ref sig .tc := ⟨.hbm, 89, rfl⟩
abbrev main_v51 : Ref sig .tc := ⟨.hbm, 90, rfl⟩
abbrev main_v52 : Ref sig .tc := ⟨.hbm, 91, rfl⟩
abbrev main_cst_20 : Ref sig .tc := ⟨.hbm, 92, rfl⟩
abbrev main_cst_21 : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v53 : Ref sig .tc := ⟨.hbm, 99, rfl⟩
abbrev main_cst_22 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_23 : Ref sig .tc := ⟨.hbm, 105, rfl⟩
abbrev main_v58 : Ref sig .tc := ⟨.hbm, 106, rfl⟩
abbrev main_v59 : Ref sig .tc := ⟨.hbm, 107, rfl⟩
abbrev main_cst_24 : Ref sig .tc := ⟨.hbm, 108, rfl⟩
abbrev main_cst_25 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_v60 : Ref sig .tc := ⟨.hbm, 115, rfl⟩
abbrev main_cst_26 : Ref sig .tc := ⟨.hbm, 116, rfl⟩
abbrev main_v61 : Ref sig .tc := ⟨.hbm, 117, rfl⟩
abbrev main_v62 : Ref sig .tc := ⟨.hbm, 118, rfl⟩
abbrev main_cst_27 : Ref sig .tc := ⟨.hbm, 119, rfl⟩
abbrev main_cst_28 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_v63 : Ref sig .tc := ⟨.hbm, 126, rfl⟩
abbrev main_cst_29 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_cst_30 : Ref sig .tc := ⟨.hbm, 132, rfl⟩
abbrev main_v68 : Ref sig .tc := ⟨.hbm, 133, rfl⟩
abbrev main_v69 : Ref sig .tc := ⟨.hbm, 134, rfl⟩
abbrev main_cst_31 : Ref sig .tc := ⟨.hbm, 135, rfl⟩
abbrev main_cst_32 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_v70 : Ref sig .tc := ⟨.hbm, 142, rfl⟩
abbrev main_cst_33 : Ref sig .tc := ⟨.hbm, 143, rfl⟩
abbrev main_v71 : Ref sig .tc := ⟨.hbm, 144, rfl⟩
abbrev main_v72 : Ref sig .tc := ⟨.hbm, 145, rfl⟩
abbrev main_cst_34 : Ref sig .tc := ⟨.hbm, 146, rfl⟩
abbrev main_cst_35 : Ref sig .tc := ⟨.hbm, 147, rfl⟩
abbrev main_call7_v0 : Ref sig .tc := ⟨.hbm, 148, rfl⟩
abbrev main_call7_v1 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_v73 : Ref sig .tc := ⟨.hbm, 153, rfl⟩
abbrev main_cst_36 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_cst_37 : Ref sig .tc := ⟨.hbm, 176, rfl⟩
abbrev main_v95 : Ref sig .tc := ⟨.hbm, 177, rfl⟩
abbrev main_cst_38 : Ref sig .tc := ⟨.hbm, 178, rfl⟩
abbrev main_v96 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v80 : BitVec 1 := Scalar.cmpi .eq arg1 c15_i32
  let v81 : BitVec 32 := Scalar.extui v80
  let c0_i32_28 : BitVec 32 := 0#32
  let v82 : BitVec 1 := Scalar.cmpi .ne v81 c0_i32_28
  v82

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S16x2x64x64_S16x1x64x64_0_0_0_0 : S16x2x64x64.Slices ![0, 0, 0, 0] S16x1x64x64
  shapeCasts_S16x1x64x64_S16x64x64 : S16x1x64x64.ShapeCasts S16x64x64
  bcast_S_S16x64x64 : S_.BroadcastsInDim S16x64x64 (![] : Fin 0 → Fin S16x64x64.rank)
  slices_S16x2x64x64_S16x1x64x64_0_1_0_0 : S16x2x64x64.Slices ![0, 1, 0, 0] S16x1x64x64
  bcast_S16x64x64_S16x64x64x1_0_1_2 : S16x64x64.BroadcastsInDim S16x64x64x1 (![0, 1, 2] : Fin 3 → Fin S16x64x64x1.rank)
  concatenates_S16x64x64x1_S16x64x64x1_S16x64x64x1_S16x64x64x1_S16x64x64x4_d3 : Shape.Concatenates [S16x64x64x1, S16x64x64x1, S16x64x64x1, S16x64x64x1] S16x64x64x4 3
  shapeCasts_S16x64x64x4_S16x4096x4 : S16x64x64x4.ShapeCasts S16x4096x4
  shapeCasts_S16x64x64_S16x4096x1 : S16x64x64.ShapeCasts S16x4096x1
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  iota_S256x4096_d1_w32 : S256x4096.Iotas .tc 32 [1]
  slices_S256x4_o0_0_S256x1 : S256x4.Slices ![0, 0] S256x1
  broadcasts_S256x1_S256x4096 : S256x1.Broadcasts S256x4096
  reduces_S256x4096_S256 : S256x4096.Reduces [1] S256
  shapeCasts_S256_S256x1 : S256.ShapeCasts S256x1
  reduces_S256x1_S1 : S256x1.Reduces [0] S1
  shapeCasts_S1_S1x1 : S1.ShapeCasts S1x1
  slices_S256x4_o0_1_S256x1 : S256x4.Slices ![0, 1] S256x1
  slices_S256x4_o0_2_S256x1 : S256x4.Slices ![0, 2] S256x1
  slices_S256x4_o0_3_S256x1 : S256x4.Slices ![0, 3] S256x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x4096x4096.size a
  hwx0_0 : ∀ i : grid0.Coords, EltTy.bits .f32 = 32 ∨ (Rect.block (s := S16x4096x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4.size a ≤ S16x4096x4.size a
  hwx0_1 : ∀ i : grid0.Coords, EltTy.bits .i32 = 32 ∨ (Rect.block (s := S16x4096x4) S1x256x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4.size a ≤ S16x4096x4.size a
  hwx0_2 : ∀ i : grid0.Coords, EltTy.bits .f32 = 32 ∨ (Rect.block (s := S16x4096x4) S1x256x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S16x4096x1.size a
  hwx0_3 : ∀ i : grid0.Coords, EltTy.bits .f32 = 32 ∨ (Rect.block (s := S16x4096x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)

variable [Facts₀]

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v89) S1x256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v83) S1x256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v91) S1x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v92) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x4096x4096 : Shape := ⟨3, ![16, 4096, 4096]⟩
abbrev S16x2x64x64 : Shape := ⟨4, ![16, 2, 64, 64]⟩
abbrev S16x1x64x64 : Shape := ⟨4, ![16, 1, 64, 64]⟩
abbrev S16x64x64 : Shape := ⟨3, ![16, 64, 64]⟩
abbrev S_ : Shape := ⟨0, ![]⟩
abbrev S16x4x64x64 : Shape := ⟨4, ![16, 4, 64, 64]⟩
abbrev S16x4096x64x64 : Shape := ⟨4, ![16, 4096, 64, 64]⟩
abbrev S16x1x64x64x1 : Shape := ⟨5, ![16, 1, 64, 64, 1]⟩
abbrev S1 : Shape := ⟨1, ![1]⟩
abbrev S1x1x1x1x1 : Shape := ⟨5, ![1, 1, 1, 1, 1]⟩

abbrev nBuf : Space → Nat
  | .hbm => 269
  | .vmem => 0
  | .smem => 0
  | _ => 0

abbrev hbmTy0_0 (i : Nat) : BufTy := match i % 128 with
  | 0 => ⟨S16x4096x4096, .f32⟩
  | 1 => ⟨S16x2x64x64, .f32⟩
  | 2 => ⟨S16x1x64x64, .f32⟩
  | 3 => ⟨S16x1x64x64, .f32⟩
  | 4 => ⟨S16x64x64, .f32⟩
  | 5 => ⟨S_, .f32⟩
  | 6 => ⟨S16x64x64, .f32⟩
  | 7 => ⟨S16x64x64, .f32⟩
  | 8 => ⟨S_, .f32⟩
  | 9 => ⟨S16x64x64, .f32⟩
  | 10 => ⟨S16x64x64, .f32⟩
  | 11 => ⟨S_, .f32⟩
  | 12 => ⟨S16x64x64, .f32⟩
  | 13 => ⟨S16x64x64, .f32⟩
  | 14 => ⟨S16x1x64x64, .f32⟩
  | 15 => ⟨S16x64x64, .f32⟩
  | 16 => ⟨S_, .f32⟩
  | 17 => ⟨S16x64x64, .f32⟩
  | 18 => ⟨S16x64x64, .f32⟩
  | 19 => ⟨S_, .f32⟩
  | 20 => ⟨S16x64x64, .f32⟩
  | 21 => ⟨S16x64x64, .f32⟩
  | 22 => ⟨S_, .f32⟩
  | 23 => ⟨S16x64x64, .f32⟩
  | 24 => ⟨S16x64x64, .f32⟩
  | 25 => ⟨S16x64x64, .f32⟩
  | 26 => ⟨S16x64x64, .f32⟩
  | 27 => ⟨S_, .f32⟩
  | 28 => ⟨S16x64x64, .f32⟩
  | 29 => ⟨S16x64x64, .f32⟩
  | 30 => ⟨S16x64x64, .f32⟩
  | 31 => ⟨S_, .f32⟩
  | 32 => ⟨S16x64x64, .f32⟩
  | 33 => ⟨S16x64x64, .f32⟩
  | 34 => ⟨S16x64x64, .f32⟩
  | 35 => ⟨S16x64x64, .f32⟩
  | 36 => ⟨S_, .f32⟩
  | 37 => ⟨S16x64x64, .f32⟩
  | 38 => ⟨S16x64x64, .f32⟩
  | 39 => ⟨S16x64x64, .f32⟩
  | 40 => ⟨S16x64x64, .f32⟩
  | 41 => ⟨S16x64x64, .f32⟩
  | 42 => ⟨S16x64x64, .f32⟩
  | 43 => ⟨S_, .f32⟩
  | 44 => ⟨S16x64x64, .f32⟩
  | 45 => ⟨S16x64x64, .f32⟩
  | 46 => ⟨S16x64x64, .f32⟩
  | 47 => ⟨S16x64x64, .f32⟩
  | 48 => ⟨S16x64x64, .f32⟩
  | 49 => ⟨S16x64x64, .f32⟩
  | 50 => ⟨S16x64x64, .f32⟩
  | 51 => ⟨S16x1x64x64, .f32⟩
  | 52 => ⟨S16x1x64x64, .f32⟩
  | 53 => ⟨S16x1x64x64, .f32⟩
  | 54 => ⟨S16x1x64x64, .f32⟩
  | 55 => ⟨S16x4x64x64, .f32⟩
  | 56 => ⟨S16x4096x4096, .f32⟩
  | 57 => ⟨S16x4096x64x64, .f32⟩
  | 58 => ⟨S_, .f32⟩
  | 59 => ⟨S16x64x64, .f32⟩
  | 60 => ⟨S16x64x64, .f32⟩
  | 61 => ⟨S_, .f32⟩
  | 62 => ⟨S_, .f32⟩
  | 63 => ⟨S_, .f32⟩
  | 64 => ⟨S16x64x64, .f32⟩
  | 65 => ⟨S16x64x64, .f32⟩
  | 66 => ⟨S_, .f32⟩
  | 67 => ⟨S16x64x64, .f32⟩
  | 68 => ⟨S16x64x64, .f32⟩
  | 69 => ⟨S_, .f32⟩
  | 70 => ⟨S16x64x64, .f32⟩
  | 71 => ⟨S16x64x64, .f32⟩
  | 72 => ⟨S_, .f32⟩
  | 73 => ⟨S_, .f32⟩
  | 74 => ⟨S_, .f32⟩
  | 75 => ⟨S16x64x64, .f32⟩
  | 76 => ⟨S16x64x64, .f32⟩
  | 77 => ⟨S_, .f32⟩
  | 78 => ⟨S16x64x64, .f32⟩
  | 79 => ⟨S16x64x64, .f32⟩
  | 80 => ⟨S_, .f32⟩
  | 81 => ⟨S16x64x64, .f32⟩
  | 82 => ⟨S16x64x64, .f32⟩
  | 83 => ⟨S16x64x64, .f32⟩
  | 84 => ⟨S16x64x64, .i32⟩
  | 85 => ⟨S16x1x64x64, .i32⟩
  | 86 => ⟨S_, .i32⟩
  | 87 => ⟨S16x1x64x64, .i32⟩
  | 88 => ⟨S16x1x64x64, .i1⟩
  | 89 => ⟨S_, .i32⟩
  | 90 => ⟨S16x1x64x64, .i32⟩
  | 91 => ⟨S16x1x64x64, .i32⟩
  | 92 => ⟨S16x1x64x64, .i32⟩
  | 93 => ⟨S16x1x64x64x1, .i32⟩
  | 94 => ⟨S1, .i32⟩
  | 95 => ⟨S_, .i32⟩
  | 96 => ⟨S16x1x64x64x1, .i32⟩
  | 97 => ⟨S16x1x64x64x1, .i1⟩
  | 98 => ⟨S1x1x1x1x1, .i32⟩
  | 99 => ⟨S16x1x64x64x1, .i32⟩
  | 100 => ⟨S16x1x64x64x1, .i1⟩
  | 101 => ⟨S16x1x64x64x1, .i1⟩
  | 102 => ⟨S_, .i1⟩
  | 103 => ⟨S16x1x64x64, .i1⟩
  | 104 => ⟨S16x1x64x64, .f32⟩
  | 105 => ⟨S_, .f32⟩
  | 106 => ⟨S16x1x64x64, .f32⟩
  | 107 => ⟨S16x1x64x64, .f32⟩
  | 108 => ⟨S_, .f32⟩
  | 109 => ⟨S16x64x64, .f32⟩
  | 110 => ⟨S16x64x64, .f32⟩
  | 111 => ⟨S_, .f32⟩
  | 112 => ⟨S_, .f32⟩
  | 113 => ⟨S_, .f32⟩
  | 114 => ⟨S16x64x64, .f32⟩
  | 115 => ⟨S16x64x64, .f32⟩
  | 116 => ⟨S_, .f32⟩
  | 117 => ⟨S16x64x64, .f32⟩
  | 118 => ⟨S16x64x64, .f32⟩
  | 119 => ⟨S_, .f32⟩
  | 120 => ⟨S16x64x64, .f32⟩
  | 121 => ⟨S16x64x64, .f32⟩
  | 122 => ⟨S_, .f32⟩
  | 123 => ⟨S_, .f32⟩
  | 124 => ⟨S_, .f32⟩
  | 125 => ⟨S16x64x64, .f32⟩
  | 126 => ⟨S16x64x64, .f32⟩
  | 127 => ⟨S_, .f32⟩
  | _ => ⟨S16x4096x4096, .f32⟩

abbrev hbmTy0_1 (i : Nat) : BufTy := match i % 128 with
  | 0 => ⟨S16x64x64, .f32⟩
  | 1 => ⟨S16x64x64, .f32⟩
  | 2 => ⟨S_, .f32⟩
  | 3 => ⟨S16x64x64, .f32⟩
  | 4 => ⟨S16x64x64, .f32⟩
  | 5 => ⟨S16x64x64, .f32⟩
  | 6 => ⟨S16x64x64, .i32⟩
  | 7 => ⟨S16x1x64x64, .i32⟩
  | 8 => ⟨S_, .i32⟩
  | 9 => ⟨S16x1x64x64, .i32⟩
  | 10 => ⟨S16x1x64x64, .i1⟩
  | 11 => ⟨S_, .i32⟩
  | 12 => ⟨S16x1x64x64, .i32⟩
  | 13 => ⟨S16x1x64x64, .i32⟩
  | 14 => ⟨S16x1x64x64, .i32⟩
  | 15 => ⟨S16x1x64x64x1, .i32⟩
  | 16 => ⟨S1, .i32⟩
  | 17 => ⟨S_, .i32⟩
  | 18 => ⟨S16x1x64x64x1, .i32⟩
  | 19 => ⟨S16x1x64x64x1, .i1⟩
  | 20 => ⟨S1x1x1x1x1, .i32⟩
  | 21 => ⟨S16x1x64x64x1, .i32⟩
  | 22 => ⟨S16x1x64x64x1, .i1⟩
  | 23 => ⟨S16x1x64x64x1, .i1⟩
  | 24 => ⟨S_, .i1⟩
  | 25 => ⟨S16x1x64x64, .i1⟩
  | 26 => ⟨S16x1x64x64, .f32⟩
  | 27 => ⟨S_, .f32⟩
  | 28 => ⟨S16x1x64x64, .f32⟩
  | 29 => ⟨S16x1x64x64, .f32⟩
  | 30 => ⟨S_, .f32⟩
  | 31 => ⟨S16x64x64, .f32⟩
  | 32 => ⟨S16x64x64, .f32⟩
  | 33 => ⟨S_, .f32⟩
  | 34 => ⟨S_, .f32⟩
  | 35 => ⟨S_, .f32⟩
  | 36 => ⟨S16x64x64, .f32⟩
  | 37 => ⟨S16x64x64, .f32⟩
  | 38 => ⟨S_, .f32⟩
  | 39 => ⟨S16x64x64, .f32⟩
  | 40 => ⟨S16x64x64, .f32⟩
  | 41 => ⟨S_, .f32⟩
  | 42 => ⟨S16x64x64, .f32⟩
  | 43 => ⟨S16x64x64, .f32⟩
  | 44 => ⟨S_, .f32⟩
  | 45 => ⟨S_, .f32⟩
  | 46 => ⟨S_, .f32⟩
  | 47 => ⟨S16x64x64, .f32⟩
  | 48 => ⟨S16x64x64, .f32⟩
  | 49 => ⟨S_, .f32⟩
  | 50 => ⟨S16x64x64, .f32⟩
  | 51 => ⟨S16x64x64, .f32⟩
  | 52 => ⟨S_, .f32⟩
  | 53 => ⟨S16x64x64, .f32⟩
  | 54 => ⟨S16x64x64, .f32⟩
  | 55 => ⟨S16x64x64, .f32⟩
  | 56 => ⟨S16x64x64, .i32⟩
  | 57 => ⟨S16x1x64x64, .i32⟩
  | 58 => ⟨S_, .i32⟩
  | 59 => ⟨S16x1x64x64, .i32⟩
  | 60 => ⟨S16x1x64x64, .i1⟩
  | 61 => ⟨S_, .i32⟩
  | 62 => ⟨S16x1x64x64, .i32⟩
  | 63 => ⟨S16x1x64x64, .i32⟩
  | 64 => ⟨S16x1x64x64, .i32⟩
  | 65 => ⟨S16x1x64x64x1, .i32⟩
  | 66 => ⟨S1, .i32⟩
  | 67 => ⟨S_, .i32⟩
  | 68 => ⟨S16x1x64x64x1, .i32⟩
  | 69 => ⟨S16x1x64x64x1, .i1⟩
  | 70 => ⟨S1x1x1x1x1, .i32⟩
  | 71 => ⟨S16x1x64x64x1, .i32⟩
  | 72 => ⟨S16x1x64x64x1, .i1⟩
  | 73 => ⟨S16x1x64x64x1, .i1⟩
  | 74 => ⟨S_, .i1⟩
  | 75 => ⟨S16x1x64x64, .i1⟩
  | 76 => ⟨S16x1x64x64, .f32⟩
  | 77 => ⟨S_, .f32⟩
  | 78 => ⟨S16x1x64x64, .f32⟩
  | 79 => ⟨S16x1x64x64, .f32⟩
  | 80 => ⟨S_, .f32⟩
  | 81 => ⟨S16x64x64, .f32⟩
  | 82 => ⟨S16x64x64, .f32⟩
  | 83 => ⟨S_, .f32⟩
  | 84 => ⟨S_, .f32⟩
  | 85 => ⟨S_, .f32⟩
  | 86 => ⟨S16x64x64, .f32⟩
  | 87 => ⟨S16x64x64, .f32⟩
  | 88 => ⟨S_, .f32⟩
  | 89 => ⟨S16x64x64, .f32⟩
  | 90 => ⟨S16x64x64, .f32⟩
  | 91 => ⟨S_, .f32⟩
  | 92 => ⟨S16x64x64, .f32⟩
  | 93 => ⟨S16x64x64, .f32⟩
  | 94 => ⟨S_, .f32⟩
  | 95 => ⟨S_, .f32⟩
  | 96 => ⟨S_, .f32⟩
  | 97 => ⟨S16x64x64, .f32⟩
  | 98 => ⟨S16x64x64, .f32⟩
  | 99 => ⟨S_, .f32⟩
  | 100 => ⟨S16x64x64, .f32⟩
  | 101 => ⟨S16x64x64, .f32⟩
  | 102 => ⟨S_, .f32⟩
  | 103 => ⟨S16x64x64, .f32⟩
  | 104 => ⟨S16x64x64, .f32⟩
  | 105 => ⟨S16x64x64, .f32⟩
  | 106 => ⟨S16x64x64, .i32⟩
  | 107 => ⟨S16x1x64x64, .i32⟩
  | 108 => ⟨S_, .i32⟩
  | 109 => ⟨S16x1x64x64, .i32⟩
  | 110 => ⟨S16x1x64x64, .i1⟩
  | 111 => ⟨S_, .i32⟩
  | 112 => ⟨S16x1x64x64, .i32⟩
  | 113 => ⟨S16x1x64x64, .i32⟩
  | 114 => ⟨S16x1x64x64, .i32⟩
  | 115 => ⟨S16x1x64x64x1, .i32⟩
  | 116 => ⟨S1, .i32⟩
  | 117 => ⟨S_, .i32⟩
  | 118 => ⟨S16x1x64x64x1, .i32⟩
  | 119 => ⟨S16x1x64x64x1, .i1⟩
  | 120 => ⟨S1x1x1x1x1, .i32⟩
  | 121 => ⟨S16x1x64x64x1, .i32⟩
  | 122 => ⟨S16x1x64x64x1, .i1⟩
  | 123 => ⟨S16x1x64x64x1, .i1⟩
  | 124 => ⟨S_, .i1⟩
  | 125 => ⟨S16x1x64x64, .i1⟩
  | 126 => ⟨S16x1x64x64, .f32⟩
  | 127 => ⟨S_, .f32⟩
  | _ => ⟨S16x4096x4096, .f32⟩

abbrev hbmTy0_2 (i : Nat) : BufTy := match i % 128 with
  | 0 => ⟨S16x1x64x64, .f32⟩
  | 1 => ⟨S16x1x64x64, .f32⟩
  | 2 => ⟨S16x4x64x64, .f32⟩
  | 3 => ⟨S16x4x64x64, .f32⟩
  | 4 => ⟨S16x4x64x64, .f32⟩
  | 5 => ⟨S16x4x64x64, .f32⟩
  | 6 => ⟨S16x4x64x64, .f32⟩
  | 7 => ⟨S16x4x64x64, .f32⟩
  | 8 => ⟨S16x4x64x64, .f32⟩
  | 9 => ⟨S_, .f32⟩
  | 10 => ⟨S_, .f32⟩
  | 11 => ⟨S_, .f32⟩
  | 12 => ⟨S_, .f32⟩
  | _ => ⟨S16x4096x4096, .f32⟩

abbrev hbmTy (i : Nat) : BufTy := match i / 128 with
  | 0 => hbmTy0_0 i
  | 1 => hbmTy0_1 i
  | 2 => hbmTy0_2 i
  | _ => ⟨S16x4096x4096, .f32⟩

abbrev bufTy : (tb : Table) → Fin (tcTables nBuf tb) → BufTy
  | .hbm, ⟨i, _⟩ => hbmTy i
  | _, _ => ⟨S16x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_9 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_cst_11 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_cst_14 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v50 : Ref sig .tc := ⟨.hbm, 79, rfl⟩
abbrev main_cst_15 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_cst : Ref sig .tc := ⟨.hbm, 105, rfl⟩
abbrev main_call2_v14 : Ref sig .tc := ⟨.hbm, 106, rfl⟩
abbrev main_v56 : Ref sig .tc := ⟨.hbm, 107, rfl⟩
abbrev main_cst_16 : Ref sig .tc := ⟨.hbm, 108, rfl⟩
abbrev main_v57 : Ref sig .tc := ⟨.hbm, 109, rfl⟩
abbrev main_v58 : Ref sig .tc := ⟨.hbm, 110, rfl⟩
abbrev main_cst_17 : Ref sig .tc := ⟨.hbm, 111, rfl⟩
abbrev main_cst_18 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v59 : Ref sig .tc := ⟨.hbm, 118, rfl⟩
abbrev main_cst_19 : Ref sig .tc := ⟨.hbm, 119, rfl⟩
abbrev main_v60 : Ref sig .tc := ⟨.hbm, 120, rfl⟩
abbrev main_v61 : Ref sig .tc := ⟨.hbm, 121, rfl⟩
abbrev main_cst_20 : Ref sig .tc := ⟨.hbm, 122, rfl⟩
abbrev main_cst_21 : Ref sig .tc := ⟨.hbm, 123, rfl⟩
abbrev main_call4_v0 : Ref sig .tc := ⟨.hbm, 124, rfl⟩
abbrev main_call4_v1 : Ref sig .tc := ⟨.hbm, 125, rfl⟩
abbrev main_call4_v2 : Ref sig .tc := ⟨.hbm, 126, rfl⟩
abbrev main_call4_v3 : Ref sig .tc := ⟨.hbm, 127, rfl⟩
abbrev main_call4_v4 : Ref sig .tc := ⟨.hbm, 128, rfl⟩
abbrev main_v62 : Ref sig .tc := ⟨.hbm, 129, rfl⟩
abbrev main_cst_22 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_call5_c : Ref sig .tc := ⟨.hbm, 136, rfl⟩
abbrev main_call5_v0 : Ref sig .tc := ⟨.hbm, 137, rfl⟩
abbrev main_call5_v1 : Ref sig .tc := ⟨.hbm, 138, rfl⟩
abbrev main_call5_c_0 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_c_1 : Ref sig .tc := ⟨.hbm, 144, rfl⟩
abbrev main_call5_c_2 : Ref sig .tc := ⟨.hbm, 145, rfl⟩
abbrev main_call5_v6 : Ref sig .tc := ⟨.hbm, 146, rfl⟩
abbrev main_call5_v7 : Ref sig .tc := ⟨.hbm, 147, rfl⟩
abbrev main_call5_v8 : Ref sig .tc := ⟨.hbm, 148, rfl⟩
abbrev main_call5_v9 : Ref sig .tc := ⟨.hbm, 149, rfl⟩
abbrev main_call5_v10 : Ref sig .tc := ⟨.hbm, 150, rfl⟩
abbrev main_call5_v11 : Ref sig .tc := ⟨.hbm, 151, rfl⟩
abbrev main_call5_c_3 : Ref sig .tc := ⟨.hbm, 152, rfl⟩
abbrev main_call5_v12 : Ref sig .tc := ⟨.hbm, 153, rfl⟩
abbrev main_call5_v13 : Ref sig .tc := ⟨.hbm, 154, rfl⟩
abbrev main_call5_cst : Ref sig .tc := ⟨.hbm, 155, rfl⟩
abbrev main_call5_v14 : Ref sig .tc := ⟨.hbm, 156, rfl⟩
abbrev main_v68 : Ref sig .tc := ⟨.hbm, 157, rfl⟩
abbrev main_cst_23 : Ref sig .tc := ⟨.hbm, 158, rfl⟩
abbrev main_v69 : Ref sig .tc := ⟨.hbm, 159, rfl⟩
abbrev main_v70 : Ref sig .tc := ⟨.hbm, 160, rfl⟩
abbrev main_cst_24 : Ref sig .tc := ⟨.hbm, 161, rfl⟩
abbrev main_cst_25 : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_v71 : Ref sig .tc := ⟨.hbm, 168, rfl⟩
abbrev main_cst_26 : Ref sig .tc := ⟨.hbm, 169, rfl⟩
abbrev main_v72 : Ref sig .tc := ⟨.hbm, 170, rfl⟩
abbrev main_v73 : Ref sig .tc := ⟨.hbm, 171, rfl⟩
abbrev main_cst_27 : Ref sig .tc := ⟨.hbm, 172, rfl⟩
abbrev main_cst_28 : Ref sig .tc := ⟨.hbm, 173, rfl⟩
abbrev main_call7_v0 : Ref sig .tc := ⟨.hbm, 174, rfl⟩
abbrev main_call7_v1 : Ref sig .tc := ⟨.hbm, 175, rfl⟩
abbrev main_call7_v2 : Ref sig .tc := ⟨.hbm, 176, rfl⟩
abbrev main_call7_v3 : Ref sig .tc := ⟨.hbm, 177, rfl⟩
abbrev main_call7_v4 : Ref sig .tc := ⟨.hbm, 178, rfl⟩
abbrev main_v74 : Ref sig .tc := ⟨.hbm, 179, rfl⟩
abbrev main_cst_29 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_call8_c : Ref sig .tc := ⟨.hbm, 186, rfl⟩
abbrev main_call8_v0 : Ref sig .tc := ⟨.hbm, 187, rfl⟩
abbrev main_call8_v1 : Ref sig .tc := ⟨.hbm, 188, rfl⟩
abbrev main_call8_c_0 : Ref sig .tc := ⟨.hbm, 189, rfl⟩
abbrev main_call8_v2 : Ref sig .tc := ⟨.hbm, 190, rfl⟩
abbrev main_call8_v3 : Ref sig .tc := ⟨.hbm, 191, rfl⟩
abbrev main_call8_v4 : Ref sig .tc := ⟨.hbm, 192, rfl⟩
abbrev main_call8_v5 : Ref sig .tc := ⟨.hbm, 193, rfl⟩
abbrev main_call8_c_1 : Ref sig .tc := ⟨.hbm, 194, rfl⟩
abbrev main_call8_c_2 : Ref sig .tc := ⟨.hbm, 195, rfl⟩
abbrev main_call8_v6 : Ref sig .tc := ⟨.hbm, 196, rfl⟩
abbrev main_call8_v7 : Ref sig .tc := ⟨.hbm, 197, rfl⟩
abbrev main_call8_v8 : Ref sig .tc := ⟨.hbm, 198, rfl⟩
abbrev main_call8_v9 : Ref sig .tc := ⟨.hbm, 199, rfl⟩
abbrev main_call8_v10 : Ref sig .tc := ⟨.hbm, 200, rfl⟩
abbrev main_call8_v11 : Ref sig .tc := ⟨.hbm, 201, rfl⟩
abbrev main_call8_c_3 : Ref sig .tc := ⟨.hbm, 202, rfl⟩
abbrev main_call8_v12 : Ref sig .tc := ⟨.hbm, 203, rfl⟩
abbrev main_call8_v13 : Ref sig .tc := ⟨.hbm, 204, rfl⟩
abbrev main_call8_cst : Ref sig .tc := ⟨.hbm, 205, rfl⟩
abbrev main_call8_v14 : Ref sig .tc := ⟨.hbm, 206, rfl⟩
abbrev main_v80 : Ref sig .tc := ⟨.hbm, 207, rfl⟩
abbrev main_cst_30 : Ref sig .tc := ⟨.hbm, 208, rfl⟩
abbrev main_v81 : Ref sig .tc := ⟨.hbm, 209, rfl⟩
abbrev main_v82 : Ref sig .tc := ⟨.hbm, 210, rfl⟩
abbrev main_cst_31 : Ref sig .tc := ⟨.hbm, 211, rfl⟩
abbrev main_cst_32 : Ref sig .tc := ⟨.hbm, 212, rfl⟩
abbrev main_call9_v0 : Ref sig .tc := ⟨.hbm, 213, rfl⟩
abbrev main_call9_v1 : Ref sig .tc := ⟨.hbm, 214, rfl⟩
abbrev main_call9_v2 : Ref sig .tc := ⟨.hbm, 215, rfl⟩
abbrev main_call9_v3 : Ref sig .tc := ⟨.hbm, 216, rfl⟩
abbrev main_call9_v4 : Ref sig .tc := ⟨.hbm, 217, rfl⟩
abbrev main_v83 : Ref sig .tc := ⟨.hbm, 218, rfl⟩
abbrev main_cst_33 : Ref sig .tc := ⟨.hbm, 219, rfl⟩
abbrev main_v84 : Ref sig .tc := ⟨.hbm, 220, rfl⟩
abbrev main_v85 : Ref sig .tc := ⟨.hbm, 221, rfl⟩
abbrev main_cst_34 : Ref sig .tc := ⟨.hbm, 222, rfl⟩
abbrev main_cst_35 : Ref sig .tc := ⟨.hbm, 223, rfl⟩
abbrev main_call10_v0 : Ref sig .tc := ⟨.hbm, 224, rfl⟩
abbrev main_call10_v1 : Ref sig .tc := ⟨.hbm, 225, rfl⟩
abbrev main_call10_v2 : Ref sig .tc := ⟨.hbm, 226, rfl⟩
abbrev main_call10_v3 : Ref sig .tc := ⟨.hbm, 227, rfl⟩
abbrev main_call10_v4 : Ref sig .tc := ⟨.hbm, 228, rfl⟩
abbrev main_v86 : Ref sig .tc := ⟨.hbm, 229, rfl⟩
abbrev main_cst_36 : Ref sig .tc := ⟨.hbm, 230, rfl⟩
abbrev main_v87 : Ref sig .tc := ⟨.hbm, 231, rfl⟩
abbrev main_v88 : Ref sig .tc := ⟨.hbm, 232, rfl⟩
abbrev main_v89 : Ref sig .tc := ⟨.hbm, 233, rfl⟩
abbrev main_v90 : Ref sig .tc := ⟨.hbm, 234, rfl⟩
abbrev main_v91 : Ref sig .tc := ⟨.hbm, 235, rfl⟩
abbrev main_call11_c : Ref sig .tc := ⟨.hbm, 236, rfl⟩
abbrev main_call11_v0 : Ref sig .tc := ⟨.hbm, 237, rfl⟩
abbrev main_call11_v1 : Ref sig .tc := ⟨.hbm, 238, rfl⟩
abbrev main_call11_c_0 : Ref sig .tc := ⟨.hbm, 239, rfl⟩
abbrev main_call11_v2 : Ref sig .tc := ⟨.hbm, 240, rfl⟩
abbrev main_call11_v3 : Ref sig .tc := ⟨.hbm, 241, rfl⟩
abbrev main_call11_v4 : Ref sig .tc := ⟨.hbm, 242, rfl⟩
abbrev main_call11_v5 : Ref sig .tc := ⟨.hbm, 243, rfl⟩
abbrev main_call11_c_1 : Ref sig .tc := ⟨.hbm, 244, rfl⟩
abbrev main_call11_c_2 : Ref sig .tc := ⟨.hbm, 245, rfl⟩
abbrev main_call11_v6 : Ref sig .tc := ⟨.hbm, 246, rfl⟩
abbrev main_call11_v7 : Ref sig .tc := ⟨.hbm, 247, rfl⟩
abbrev main_call11_v8 : Ref sig .tc := ⟨.hbm, 248, rfl⟩
abbrev main_call11_v9 : Ref sig .tc := ⟨.hbm, 249, rfl⟩
abbrev main_call11_v10 : Ref sig .tc := ⟨.hbm, 250, rfl⟩
abbrev main_call11_v11 : Ref sig .tc := ⟨.hbm, 251, rfl⟩
abbrev main_call11_c_3 : Ref sig .tc := ⟨.hbm, 252, rfl⟩
abbrev main_call11_v12 : Ref sig .tc := ⟨.hbm, 253, rfl⟩
abbrev main_call11_v13 : Ref sig .tc := ⟨.hbm, 254, rfl⟩
abbrev main_call11_cst : Ref sig .tc := ⟨.hbm, 255, rfl⟩
abbrev main_call11_v14 : Ref sig .tc := ⟨.hbm, 256, rfl⟩
abbrev main_v92 : Ref sig .tc := ⟨.hbm, 257, rfl⟩
abbrev main_v93 : Ref sig .tc := ⟨.hbm, 258, rfl⟩
abbrev main_v94 : Ref sig .tc := ⟨.hbm, 259, rfl⟩
abbrev main_v95 : Ref sig .tc := ⟨.hbm, 260, rfl⟩
abbrev main_v96 : Ref sig .tc := ⟨.hbm, 261, rfl⟩
abbrev main_v97 : Ref sig .tc := ⟨.hbm, 262, rfl⟩
abbrev main_v98 : Ref sig .tc := ⟨.hbm, 263, rfl⟩
abbrev main_v99 : Ref sig .tc := ⟨.hbm, 264, rfl⟩
abbrev main_cst_37 : Ref sig .tc := ⟨.hbm, 265, rfl⟩
abbrev main_v100 : Ref sig .tc := ⟨.hbm, 266, rfl⟩
abbrev main_cst_38 : Ref sig .tc := ⟨.hbm, 267, rfl⟩
abbrev main_v101 : Ref sig .tc := ⟨.hbm, 268, rfl⟩

abbrev nD : Nat := 1
abbrev τ : Topo := Topo.v7x

variable {F : FTy → Type} [FloatOps F]

class Facts₀ : Prop where
  slices_S16x2x64x64_S16x1x64x64_0_0_0_0 : S16x2x64x64.Slices ![0, 0, 0, 0] S16x1x64x64
  shapeCasts_S16x1x64x64_S16x64x64 : S16x1x64x64.ShapeCasts S16x64x64
  bcast_S_S16x64x64 : S_.BroadcastsInDim S16x64x64 (![] : Fin 0 → Fin S16x64x64.rank)
  slices_S16x2x64x64_S16x1x64x64_0_1_0_0 : S16x2x64x64.Slices ![0, 1, 0, 0] S16x1x64x64
  bcast_S16x64x64_S16x1x64x64_0_2_3 : S16x64x64.BroadcastsInDim S16x1x64x64 (![0, 2, 3] : Fin 3 → Fin S16x1x64x64.rank)
  concatenates_S16x1x64x64_S16x1x64x64_S16x1x64x64_S16x1x64x64_S16x4x64x64_d1 : Shape.Concatenates [S16x1x64x64, S16x1x64x64, S16x1x64x64, S16x1x64x64] S16x4x64x64 1
  transposes_S16x4096x4096_S16x4096x4096_0_2_1 : S16x4096x4096.Transposes [0, 2, 1] S16x4096x4096
  shapeCasts_S16x4096x4096_S16x4096x64x64 : S16x4096x4096.ShapeCasts S16x4096x64x64
  bcast_S_S16x1x64x64 : S_.BroadcastsInDim S16x1x64x64 (![] : Fin 0 → Fin S16x1x64x64.rank)
  shapeCasts_S16x1x64x64_S16x1x64x64x1 : S16x1x64x64.ShapeCasts S16x1x64x64x1
  bcast_S_S16x1x64x64x1 : S_.BroadcastsInDim S16x1x64x64x1 (![] : Fin 0 → Fin S16x1x64x64x1.rank)
  bcast_S1_S1x1x1x1x1_4 : S1.BroadcastsInDim S1x1x1x1x1 (![4] : Fin 1 → Fin S1x1x1x1x1.rank)
  bcast_S1x1x1x1x1_S16x1x64x64x1_0_1_2_3_4 : S1x1x1x1x1.BroadcastsInDim S16x1x64x64x1 (![0, 1, 2, 3, 4] : Fin 5 → Fin S16x1x64x64x1.rank)
  reducesTo_S16x1x64x64x1_S16x1x64x64_d4 : S16x1x64x64x1.ReducesTo [4] S16x1x64x64
  h_S_ : 0 < S_.numel
  bcast_S16x1x64x64_S16x4x64x64_0_1_2_3 : S16x1x64x64.BroadcastsInDim S16x4x64x64 (![0, 1, 2, 3] : Fin 4 → Fin S16x4x64x64.rank)
  reducesTo_S16x4x64x64_S_d0_1_2_3 : S16x4x64x64.ReducesTo [0, 1, 2, 3] S_
  gather_S16x4096x64x64_S16x1x64x64x1_S16x1x64x64_n_1_023_023_1_4_1111_wf : GatherDims.WF S16x4096x64x64 S16x1x64x64x1 S16x1x64x64 [] [1] [0, 2, 3] [1] [0, 2, 3] 4 ![1, 1, 1, 1]

variable [Facts₀]

def gather_S16x4096x64x64_S16x1x64x64x1_S16x1x64x64_n_1_023_023_1_4_1111 : GatherDims S16x4096x64x64 S16x1x64x64x1 S16x1x64x64 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x4096x64x64_S16x1x64x64x1_S16x1x64x64_n_1_023_023_1_4_1111_wf

class Facts : Prop extends Facts₀ where

variable [Facts]
-- ==== Proof.KFrameBase.lean ====
/- The frame of the program, first module: what the later modules share.
   The program is a line of host operations (seventeen stretches), one pipelined region over a
   16 x 16 grid, and a line of six host operations. Here: the buffer contents the region is entered
   with, as the fold of the earlier host operations over the launch memory; that this fold leaves the
   three argument arrays as launched; the reduction of the whole program to the region followed by
   the later line; each input window's block read off that entry state; the two branch conditions of
   the body in closed form over the linear point number (the row tile is the point modulo 16); where
   the output window is idle; and the region invariant with the carried accumulator named. -/
import proofs.«105676_j64072322121836_2_alg».proof.Proof.Gen.Kernel.Launch
import proofs.«105676_j64072322121836_2_alg».proof.Proof.Gen.Kernel.Skeleton
import proofs.«105676_j64072322121836_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffer contents of core `c` when the region is entered, as a valuation: the launch memory
    after the seventeen stretches of host operations that precede the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b))
/-- The same, read at a reference. -/
abbrev V (c : Dev nD) (b : Ref sig .tc) : Buf (Elt F) ((c : Thread nD τ).loc b) := V0 m c (Proc.devRef .tc b)

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps0_7` allocates a buffer. -/
theorem hostOps0_7_fresh : (hostOps0_7 : List (HloOp τ sig (Elt F))).Forall fun op => op.fresh = ∅ := by
  simp only [List.Forall]; repeat' constructor
/-- No operation of `hostOps0_8` allocates a buffer. -/
theorem hostOps0_8_fresh : (hostOps0_8 : List (HloOp τ sig (Elt F))).Forall fun op => op.fresh = ∅ := by
  simp only [List.Forall]; repeat' constructor
/-- No operation of `hostOps0_9` allocates a buffer. -/
theorem hostOps0_9_fresh : (hostOps0_9 : List (HloOp τ sig (Elt F))).Forall fun op => op.fresh = ∅ := by
  simp only [List.Forall]; repeat' constructor
/-- No operation of `hostOps0_10` allocates a buffer. -/
theorem hostOps0_10_fresh : (hostOps0_10 : List (HloOp τ sig (Elt F))).Forall fun op => op.fresh = ∅ := by
  simp only [List.Forall]; repeat' constructor
/-- No operation of `hostOps0_11` allocates a buffer. -/
theorem hostOps0_11_fresh : (hostOps0_11 : List (HloOp τ sig (Elt F))).Forall fun op => op.fresh = ∅ := by
  simp only [List.Forall]; repeat' constructor
/-- No operation of `hostOps0_12` allocates a buffer. -/
theorem hostOps0_12_fresh : (hostOps0_12 : List (HloOp τ sig (Elt F))).Forall fun op => op.fresh = ∅ := by
  simp only [List.Forall]; repeat' constructor
/-- No operation of `hostOps0_13` allocates a buffer. -/
theorem hostOps0_13_fresh : (hostOps0_13 : List (HloOp τ sig (Elt F))).Forall fun op => op.fresh = ∅ := by
  simp only [List.Forall]; repeat' constructor
/-- No operation of `hostOps0_14` allocates a buffer. -/
theorem hostOps0_14_fresh : (hostOps0_14 : List (HloOp τ sig (Elt F))).Forall fun op => op.fresh = ∅ := by
  simp only [List.Forall]; repeat' constructor
/-- No operation of `hostOps0_15` allocates a buffer. -/
theorem hostOps0_15_fresh : (hostOps0_15 : List (HloOp τ sig (Elt F))).Forall fun op => op.fresh = ∅ := by
  simp only [List.Forall]; repeat' constructor
/-- No operation of `hostOps0_16` allocates a buffer. -/
theorem hostOps0_16_fresh : (hostOps0_16 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor

/-- The program is the earlier host lines, the region, the later host line: run from the launch
    memory it reduces to the region, entered at `V`, continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The later line touches only unscoped references: the windows' arrays and the buffers that bypass
    the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of a window: each of its operations writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- Argument 1 is no window's array, and no host operation after the region writes it: after the
    later line it still holds its launch contents. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is no window's array, and no host operation after the region writes it: after the
    later line it still holds its launch contents. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append,
        List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point
    fetched it or not (unfetched, the block index has not moved), for any proof data whose array is
    the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point
    fetched it or not (unfetched, the block index has not moved), for any proof data whose array is
    the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point
    fetched it or not (unfetched, the block index has not moved), for any proof data whose array is
    the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point
    fetched it or not (unfetched, the block index has not moved), for any proof data whose array is
    the entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

/-- For any proof data whose arrays are the entry contents, a run ending in the library's frame post
    (every window's array at what the proof data compute, every other unscoped buffer as the later
    line leaves it) ends with the three argument arrays as launched: argument 0 is input window 0's
    array, which the region only reads; arguments 1 and 2 bypass the region and no later host
    operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch conditions -/

/-- The condition of the body's first conditional (the accumulator is zeroed), from the grid
    coordinates: the row tile is 0. -/
abbrev cond0_0 (i : grid0.Coords) : Prop := (Scalar.cmpi .ne (Scalar.extui (Scalar.cmpi .eq (BitVec.ofNat 32 (i 1).val) 0#32)) 0#32) = 1#1
/-- It holds exactly at the points whose number is 0 modulo 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second conditional (the accumulator is copied to the output window):
    the row tile is 15. -/
abbrev cond0_1 (i : grid0.Coords) : Prop := k0_cond2 i = 1#1
/-- It holds exactly at the points whose number is 15 modulo 16. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0, an input, is never idle. -/
theorem liveAt0_0 : ∀ t : Fin cfg0.N, cfg0.idle 0 (grid0.coords t) = false := by decide +kernel
/-- Window 1, an input, is never idle. -/
theorem liveAt0_1 : ∀ t : Fin cfg0.N, cfg0.idle 1 (grid0.coords t) = false := by decide +kernel
/-- Window 2, an input, is never idle. -/
theorem liveAt0_2 : ∀ t : Fin cfg0.N, cfg0.idle 2 (grid0.coords t) = false := by decide +kernel
/-- Window 3, an input, is never idle. -/
theorem liveAt0_3 : ∀ t : Fin cfg0.N, cfg0.idle 3 (grid0.coords t) = false := by decide +kernel
/-- Where the first conditional is taken and the second is not, the output window is idle: nothing is stored into it. -/
theorem idleAt0_4_A : ∀ t : Fin cfg0.N, cond0_0 (grid0.coords t) → ¬cond0_1 (grid0.coords t) → cfg0.idle 4 (grid0.coords t) = true := by decide +kernel
/-- And there its block is not written back. -/
theorem noFlush0_4_A : ∀ t : Fin cfg0.N, cond0_0 (grid0.coords t) → ¬cond0_1 (grid0.coords t) → (cfg0.win 4).flush t = false := by decide +kernel
/-- Where neither conditional is taken, the output window is idle. -/
theorem idleAt0_4_B : ∀ t : Fin cfg0.N, ¬cond0_0 (grid0.coords t) → ¬cond0_1 (grid0.coords t) → cfg0.idle 4 (grid0.coords t) = true := by decide +kernel
/-- And there its block is not written back. -/
theorem noFlush0_4_B : ∀ t : Fin cfg0.N, ¬cond0_0 (grid0.coords t) → ¬cond0_1 (grid0.coords t) → (cfg0.win 4).flush t = false := by decide +kernel
/-- Where the second conditional is taken and the first is not, the output window is live: the body stores into it. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated (the choice does not matter). -/
abbrev VO0_4 : View sig .tc .vmem S1x8x128 .f32 := (Memref.whole cc0_stg4_0 : Memref sig .tc .vmem S1x8x128 .f32).view
abbrev ms0_0 (t : Fin cfg0.N) : Memref sig .tc .vmem S1x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S8x128 .f32 := Memref.whole cc0_scratch0
/-- The same as a view: what the accumulator holds is stated through it. -/
abbrev VS0_0 : View sig .tc .vmem S8x128 .f32 := scM0_0.view

/-- What the launch hands the region beside the windows: the accumulator owned at some contents, and
    the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRunA.lean ====
/- The frame of the program, run module A: the body at a point where the row tile is 0 (the first point of a row of tiles): the
   accumulator, found at any contents, is zeroed and then holds the point's local sum broadcast; the
   output window is not touched.
   The statement is a separation-logic triple of the whole body on whole staging memrefs: the four
   input buffers are held at given contents and handed back unchanged; what the stores leave in the
   accumulator (and, at a last point, in the output buffer) is a list of written pieces that the run
   itself determines. -/
import proofs.«105676_j64072322121836_2_alg».proof.Proof.KFrameBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the first conditional is taken and the second is not. The output buffer, at
    contents `xi4`, is handed back untouched (no piece); the accumulator may start at anything. -/
noncomputable def kernelRun0_A (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x256x4096 .f32) (x1 : Vec F S1x256x4 .i32) (x2 : Vec F S1x256x4 .f32) (x3 : Vec F S1x256x1 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_l1_kernel i arg2 harg2 arg3 harg3 arg4 harg4 arg5 harg5 arg6 harg6 arg7 harg7) K } := by
  refine ⟨[], ?_, fun xi4 E K => ?run⟩
  case run =>
    simp only [cc0__gather_l1_kernel_eq_skeleton]; unfold cc0__gather_l1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KRunB.lean ====
/- The frame of the program, run module B: the body at a point where the row tile is neither 0 nor 15: the accumulator, found at
   what the point before left, has the point's local sum added; the output window is not touched.
   The statement is a separation-logic triple of the whole body on whole staging memrefs: the four
   input buffers are held at given contents and handed back unchanged; what the stores leave in the
   accumulator (and, at a last point, in the output buffer) is a list of written pieces that the run
   itself determines. -/
import proofs.«105676_j64072322121836_2_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where neither conditional is taken. The output buffer, at contents `xi4`, is handed
    back untouched (no piece); the accumulator starts at `xs0`, what the point before left. -/
noncomputable def kernelRun0_B (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x256x4096 .f32) (x1 : Vec F S1x256x4 .i32) (x2 : Vec F S1x256x4 .f32) (x3 : Vec F S1x256x1 .f32) (xs0 : Vec F S8x128 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_l1_kernel i arg2 harg2 arg3 harg3 arg4 harg4 arg5 harg5 arg6 harg6 arg7 harg7) K } := by
  refine ⟨[], ?_, fun xi4 E K => ?run⟩
  case run =>
    simp only [cc0__gather_l1_kernel_eq_skeleton]; unfold cc0__gather_l1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.KRunC.lean ====
/- The frame of the program, run module C: the body at a point where the row tile is 15 (the last point of a row of tiles): the
   accumulator, found at what the point before left, has the point's local sum added, and its new
   contents are copied over the whole output window, whatever that held.
   The statement is a separation-logic triple of the whole body on whole staging memrefs: the four
   input buffers are held at given contents and handed back unchanged; what the stores leave in the
   accumulator (and, at a last point, in the output buffer) is a list of written pieces that the run
   itself determines. -/
import proofs.«105676_j64072322121836_2_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the second conditional is taken and the first is not. The output buffer may
    start at anything and ends with its pieces written; the accumulator starts at `xs0`, what the
    point before left. -/
noncomputable def kernelRun0_C (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) :
    Σ' (L4 : List (View.Piece (Elt F) S1x8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gather_l1_kernel i arg2 harg2 arg3 harg3 arg4 harg4 arg5 harg5 arg6 harg6 arg7 harg7) K } := by
  refine ⟨?_, ?_, fun E K => ?run⟩
  case run =>
    simp only [cc0__gather_l1_kernel_eq_skeleton]; unfold cc0__gather_l1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.KFrame.lean ====
/- The frame of the program, last module. What the output window's staging buffer and the carried
   accumulator hold after the body, case by case (the written pieces read back) and point by point
   (by recursion on the point number: a point that does not zero the accumulator starts from what the
   point before left); the region invariant naming the accumulator's contents between points; the
   proof data of the pipeline; the body obligation at a generic point, by cases on the point number
   modulo 16; the run of the whole program to the library's frame post; and the frame claim: every
   fair execution terminates without fault and the three argument arrays end as launched. -/
import proofs.«105676_j64072322121836_2_alg».proof.Proof.KRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output window: no pieces. A placeholder that nothing consults,
    since at these points the window is neither written back nor read at the next point. -/
def out0_A_4 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x256x4096 .f32) (x1 : Vec F S1x256x4 .i32) (x2 : Vec F S1x256x4 .f32) (x3 : Vec F S1x256x1 .f32) : Vec F S1x8x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it (each store is of the whole buffer). -/
theorem scover0_A_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x256x4096 .f32) (x1 : Vec F S1x256x4 .i32) (x2 : Vec F S1x256x4 .f32) (x3 : Vec F S1x256x1 .f32) (y : S8x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S8x128.size (by sl_kernel_rfl) y

/-- What case A leaves in the accumulator: its pieces read back. -/
def sout0_A_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x256x4096 .f32) (x1 : Vec F S1x256x4 .i32) (x2 : Vec F S1x256x4 .f32) (x3 : Vec F S1x256x1 .f32) : Vec F S8x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output window: no pieces. A placeholder that nothing consults,
    since at these points the window is neither written back nor read at the next point. -/
def out0_B_4 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x256x4096 .f32) (x1 : Vec F S1x256x4 .i32) (x2 : Vec F S1x256x4 .f32) (x3 : Vec F S1x256x1 .f32) (xs0 : Vec F S8x128 .f32) : Vec F S1x8x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it (each store is of the whole buffer). -/
theorem scover0_B_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x256x4096 .f32) (x1 : Vec F S1x256x4 .i32) (x2 : Vec F S1x256x4 .f32) (x3 : Vec F S1x256x1 .f32) (xs0 : Vec F S8x128 .f32) (y : S8x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S8x128.size (by sl_kernel_rfl) y

/-- What case B leaves in the accumulator: its pieces read back. -/
def sout0_B_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x256x4096 .f32) (x1 : Vec F S1x256x4 .i32) (x2 : Vec F S1x256x4 .f32) (x3 : Vec F S1x256x1 .f32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's one store into the output window is of its whole block, so its pieces cover it. -/
theorem cover0_C_4 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) (y : S1x8x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x8x128.size (by sl_kernel_rfl) y

/-- What case C leaves in the output window's staging buffer: its pieces read back. -/
def out0_C_4 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) : Vec F S1x8x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it. -/
theorem scover0_C_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) (y : S8x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S8x128.size (by sl_kernel_rfl) y

/-- What case C leaves in the accumulator: its pieces read back. -/
def sout0_C_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output buffer and the accumulator hold after each point -/

/-- The accumulation. What the output window's staging buffer and the accumulator hold after the body at
    position `n` (a pair: the output buffer, then the accumulator): the case the closed forms select
    at `n`, run at the point's memrefs and input blocks, the accumulator starting from what position
    `n - 1` left unless the point zeroes it. The two conditions never hold together. -/
def outsAt0 (c : Dev nD) : (n : ℕ) → n < cfg0.N → Vec F S1x8x128 .f32 × Vec F S8x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the
    accumulator at anything); afterwards the accumulator at what the point before left in it, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the pipeline on core `c`: the arrays as the region finds them; after the body at
    point `t` each input's buffer at its block and the output's at `outsAt0`; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the entry contents (the definition projected, the fold over the host
    prefix never unfolded). -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' memrefs hold their blocks; the point number modulo 16 says which
    case the point is in, so that case's run applies. The invariant hands the body the accumulator at
    what the point before left (at anything, at the very first point) and the generator register, and
    takes the accumulator back at this point's contents (its pieces cover it). Where the output window
    is idle its buffer is handed back as found; at the last point of a row of tiles it is returned at
    its written pieces read back. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulator's
    named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- From any memory with zero counters, every weakly fair execution of the program on the TensorCores
    terminates, and every final state has every window's array at what the library computes from the
    proof data and every other unscoped buffer as the later host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every weakly fair execution terminates without fault and the three argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KIFrameBase.lean ====
/- The frame of the program, first module: what the later modules share.
   The program is a line of host operations (seventeen stretches), one pipelined region over a
   16 x 16 grid, and a line of six host operations. Here: the buffer contents the region is entered
   with, as the fold of the earlier host operations over the launch memory; that this fold leaves the
   three argument arrays as launched; the reduction of the whole program to the region followed by
   the later line; each input window's block read off that entry state; the two branch conditions of
   the body in closed form over the linear point number (the row tile is the point modulo 16); where
   the output window is idle; and the region invariant with the carried accumulator named. -/
import proofs.«105676_j64072322121836_2_alg».proof.Proof.Gen.KernelIdeal.Launch
import proofs.«105676_j64072322121836_2_alg».proof.Proof.Gen.KernelIdeal.Skeleton
import proofs.«105676_j64072322121836_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffer contents of core `c` when the region is entered, as a valuation: the launch memory
    after the seventeen stretches of host operations that precede the region. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b))
/-- The same, read at a reference. -/
abbrev V (c : Dev nD) (b : Ref sig .tc) : Buf (Elt F) ((c : Thread nD τ).loc b) := V0 m c (Proc.devRef .tc b)

/-- No operation of `hostOps0` allocates a buffer. -/
theorem hostOps0_fresh : (hostOps0 : List (HloOp τ sig (Elt F))).Forall fun op => op.fresh = ∅ := by
  simp only [List.Forall]; repeat' constructor
/-- No operation of `hostOps0_1` allocates a buffer. -/
theorem hostOps0_1_fresh : (hostOps0_1 : List (HloOp τ sig (Elt F))).Forall fun op => op.fresh = ∅ := by
  simp only [List.Forall]; repeat' constructor
/-- No operation of `hostOps0_2` allocates a buffer. -/
theorem hostOps0_2_fresh : (hostOps0_2 : List (HloOp τ sig (Elt F))).Forall fun op => op.fresh = ∅ := by
  simp only [List.Forall]; repeat' constructor
/-- No operation of `hostOps0_3` allocates a buffer. -/
theorem hostOps0_3_fresh : (hostOps0_3 : List (HloOp τ sig (Elt F))).Forall fun op => op.fresh = ∅ := by
  simp only [List.Forall]; repeat' constructor
/-- No operation of `hostOps0_4` allocates a buffer. -/
theorem hostOps0_4_fresh : (hostOps0_4 : List (HloOp τ sig (Elt F))).Forall fun op => op.fresh = ∅ := by
  simp only [List.Forall]; repeat' constructor
/-- No operation of `hostOps0_5` allocates a buffer. -/
theorem hostOps0_5_fresh : (hostOps0_5 : List (HloOp τ sig (Elt F))).Forall fun op => op.fresh = ∅ := by
  simp only [List.Forall]; repeat' constructor
/-- No operation of `hostOps0_6` allocates a buffer. -/
theorem hostOps0_6_fresh : (hostOps0_6 : List (HloOp τ sig (Elt F))).Forall fun op => op.fresh = ∅ := by
  simp only [List.Forall]; repeat' constructor
/-- No operation of `hostOps0_7` allocates a buffer. -/
theorem hostOps0_7_fresh : (hostOps0_7 : List (HloOp τ sig (Elt F))).Forall fun op => op.fresh = ∅ := by
  simp only [List.Forall]; repeat' constructor
/-- No operation of `hostOps0_8` allocates a buffer. -/
theorem hostOps0_8_fresh : (hostOps0_8 : List (HloOp τ sig (Elt F))).Forall fun op => op.fresh = ∅ := by
  simp only [List.Forall]; repeat' constructor
/-- No operation of `hostOps0_9` allocates a buffer. -/
theorem hostOps0_9_fresh : (hostOps0_9 : List (HloOp τ sig (Elt F))).Forall fun op => op.fresh = ∅ := by
  simp only [List.Forall]; repeat' constructor
/-- No operation of `hostOps0_10` allocates a buffer. -/
theorem hostOps0_10_fresh : (hostOps0_10 : List (HloOp τ sig (Elt F))).Forall fun op => op.fresh = ∅ := by
  simp only [List.Forall]; repeat' constructor
/-- No operation of `hostOps0_11` allocates a buffer. -/
theorem hostOps0_11_fresh : (hostOps0_11 : List (HloOp τ sig (Elt F))).Forall fun op => op.fresh = ∅ := by
  simp only [List.Forall]; repeat' constructor
/-- No operation of `hostOps0_12` allocates a buffer. -/
theorem hostOps0_12_fresh : (hostOps0_12 : List (HloOp τ sig (Elt F))).Forall fun op => op.fresh = ∅ := by
  simp only [List.Forall]; repeat' constructor
/-- No operation of `hostOps0_13` allocates a buffer. -/
theorem hostOps0_13_fresh : (hostOps0_13 : List (HloOp τ sig (Elt F))).Forall fun op => op.fresh = ∅ := by
  simp only [List.Forall]; repeat' constructor
/-- No operation of `hostOps0_14` allocates a buffer. -/
theorem hostOps0_14_fresh : (hostOps0_14 : List (HloOp τ sig (Elt F))).Forall fun op => op.fresh = ∅ := by
  simp only [List.Forall]; repeat' constructor
/-- No operation of `hostOps0_15` allocates a buffer. -/
theorem hostOps0_15_fresh : (hostOps0_15 : List (HloOp τ sig (Elt F))).Forall fun op => op.fresh = ∅ := by
  simp only [List.Forall]; repeat' constructor
/-- No operation of `hostOps0_16` allocates a buffer. -/
theorem hostOps0_16_fresh : (hostOps0_16 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor

/-- The program is the earlier host lines, the region, the later host line: run from the launch
    memory it reduces to the region, entered at `V`, continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-- The later line touches only unscoped references: the windows' arrays and the buffers that bypass
    the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of a window: each of its operations writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append,
      List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- Argument 1 is no window's array, and no host operation after the region writes it: after the
    later line it still holds its launch contents. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- Argument 2 is no window's array, and no host operation after the region writes it: after the
    later line it still holds its launch contents. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append,
        List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point
    fetched it or not (unfetched, the block index has not moved), for any proof data whose array is
    the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point
    fetched it or not (unfetched, the block index has not moved), for any proof data whose array is
    the entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point
    fetched it or not (unfetched, the block index has not moved), for any proof data whose array is
    the entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point
    fetched it or not (unfetched, the block index has not moved), for any proof data whose array is
    the entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

/-- For any proof data whose arrays are the entry contents, a run ending in the library's frame post
    (every window's array at what the proof data compute, every other unscoped buffer as the later
    line leaves it) ends with the three argument arrays as launched: argument 0 is input window 0's
    array, which the region only reads; arguments 1 and 2 bypass the region and no later host
    operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch conditions -/

/-- The condition of the body's first conditional (the accumulator is zeroed), from the grid
    coordinates: the row tile is 0. -/
abbrev cond0_0 (i : grid0.Coords) : Prop := (Scalar.cmpi .ne (Scalar.extui (Scalar.cmpi .eq (BitVec.ofNat 32 (i 1).val) 0#32)) 0#32) = 1#1
/-- It holds exactly at the points whose number is 0 modulo 16. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second conditional (the accumulator is copied to the output window):
    the row tile is 15. -/
abbrev cond0_1 (i : grid0.Coords) : Prop := k0_cond2 i = 1#1
/-- It holds exactly at the points whose number is 15 modulo 16. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- Window 0, an input, is never idle. -/
theorem liveAt0_0 : ∀ t : Fin cfg0.N, cfg0.idle 0 (grid0.coords t) = false := by decide +kernel
/-- Window 1, an input, is never idle. -/
theorem liveAt0_1 : ∀ t : Fin cfg0.N, cfg0.idle 1 (grid0.coords t) = false := by decide +kernel
/-- Window 2, an input, is never idle. -/
theorem liveAt0_2 : ∀ t : Fin cfg0.N, cfg0.idle 2 (grid0.coords t) = false := by decide +kernel
/-- Window 3, an input, is never idle. -/
theorem liveAt0_3 : ∀ t : Fin cfg0.N, cfg0.idle 3 (grid0.coords t) = false := by decide +kernel
/-- Where the first conditional is taken and the second is not, the output window is idle: nothing is stored into it. -/
theorem idleAt0_4_A : ∀ t : Fin cfg0.N, cond0_0 (grid0.coords t) → ¬cond0_1 (grid0.coords t) → cfg0.idle 4 (grid0.coords t) = true := by decide +kernel
/-- And there its block is not written back. -/
theorem noFlush0_4_A : ∀ t : Fin cfg0.N, cond0_0 (grid0.coords t) → ¬cond0_1 (grid0.coords t) → (cfg0.win 4).flush t = false := by decide +kernel
/-- Where neither conditional is taken, the output window is idle. -/
theorem idleAt0_4_B : ∀ t : Fin cfg0.N, ¬cond0_0 (grid0.coords t) → ¬cond0_1 (grid0.coords t) → cfg0.idle 4 (grid0.coords t) = true := by decide +kernel
/-- And there its block is not written back. -/
theorem noFlush0_4_B : ∀ t : Fin cfg0.N, ¬cond0_0 (grid0.coords t) → ¬cond0_1 (grid0.coords t) → (cfg0.win 4).flush t = false := by decide +kernel
/-- Where the second conditional is taken and the first is not, the output window is live: the body stores into it. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated (the choice does not matter). -/
abbrev VO0_4 : View sig .tc .vmem S1x8x128 .f32 := (Memref.whole cc0_stg4_0 : Memref sig .tc .vmem S1x8x128 .f32).view
abbrev ms0_0 (t : Fin cfg0.N) : Memref sig .tc .vmem S1x256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x4 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
/-- The accumulator: a whole scoped buffer of the kernel's own, passed beside the windows. -/
abbrev scM0_0 : Memref sig .tc .vmem S8x128 .f32 := Memref.whole cc0_scratch0
/-- The same as a view: what the accumulator holds is stated through it. -/
abbrev VS0_0 : View sig .tc .vmem S8x128 .f32 := scM0_0.view

/-- What the launch hands the region beside the windows: the accumulator owned at some contents, and
    the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIRunA.lean ====
/- The frame of the program, run module A: the body at a point where the row tile is 0 (the first point of a row of tiles): the
   accumulator, found at any contents, is zeroed and then holds the point's local sum broadcast; the
   output window is not touched.
   The statement is a separation-logic triple of the whole body on whole staging memrefs: the four
   input buffers are held at given contents and handed back unchanged; what the stores leave in the
   accumulator (and, at a last point, in the output buffer) is a list of written pieces that the run
   itself determines. -/
import proofs.«105676_j64072322121836_2_alg».proof.Proof.KIFrameBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the first conditional is taken and the second is not. The output buffer, at
    contents `xi4`, is handed back untouched (no piece); the accumulator may start at anything. -/
noncomputable def kernelRun0_A (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x256x4096 .f32) (x1 : Vec F S1x256x4 .i32) (x2 : Vec F S1x256x4 .f32) (x3 : Vec F S1x256x1 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_l1_kernel i arg2 harg2 arg3 harg3 arg4 harg4 arg5 harg5 arg6 harg6 arg7 harg7) K } := by
  refine ⟨[], ?_, fun xi4 E K => ?run⟩
  case run =>
    simp only [cc0__gather_l1_kernel_eq_skeleton]; unfold cc0__gather_l1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KIRunB.lean ====
/- The frame of the program, run module B: the body at a point where the row tile is neither 0 nor 15: the accumulator, found at
   what the point before left, has the point's local sum added; the output window is not touched.
   The statement is a separation-logic triple of the whole body on whole staging memrefs: the four
   input buffers are held at given contents and handed back unchanged; what the stores leave in the
   accumulator (and, at a last point, in the output buffer) is a list of written pieces that the run
   itself determines. -/
import proofs.«105676_j64072322121836_2_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where neither conditional is taken. The output buffer, at contents `xi4`, is handed
    back untouched (no piece); the accumulator starts at `xs0`, what the point before left. -/
noncomputable def kernelRun0_B (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x256x4096 .f32) (x1 : Vec F S1x256x4 .i32) (x2 : Vec F S1x256x4 .f32) (x3 : Vec F S1x256x1 .f32) (xs0 : Vec F S8x128 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__gather_l1_kernel i arg2 harg2 arg3 harg3 arg4 harg4 arg5 harg5 arg6 harg6 arg7 harg7) K } := by
  refine ⟨[], ?_, fun xi4 E K => ?run⟩
  case run =>
    simp only [cc0__gather_l1_kernel_eq_skeleton]; unfold cc0__gather_l1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KIRunC.lean ====
/- The frame of the program, run module C: the body at a point where the row tile is 15 (the last point of a row of tiles): the
   accumulator, found at what the point before left, has the point's local sum added, and its new
   contents are copied over the whole output window, whatever that held.
   The statement is a separation-logic triple of the whole body on whole staging memrefs: the four
   input buffers are held at given contents and handed back unchanged; what the stores leave in the
   accumulator (and, at a last point, in the output buffer) is a list of written pieces that the run
   itself determines. -/
import proofs.«105676_j64072322121836_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the second conditional is taken and the first is not. The output buffer may
    start at anything and ends with its pieces written; the accumulator starts at `xs0`, what the
    point before left. -/
noncomputable def kernelRun0_C (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) :
    Σ' (L4 : List (View.Piece (Elt F) S1x8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__gather_l1_kernel i arg2 harg2 arg3 harg3 arg4 harg4 arg5 harg5 arg6 harg6 arg7 harg7) K } := by
  refine ⟨?_, ?_, fun E K => ?run⟩
  case run =>
    simp only [cc0__gather_l1_kernel_eq_skeleton]; unfold cc0__gather_l1_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KIFrame.lean ====
/- The frame of the program, last module. What the output window's staging buffer and the carried
   accumulator hold after the body, case by case (the written pieces read back) and point by point
   (by recursion on the point number: a point that does not zero the accumulator starts from what the
   point before left); the region invariant naming the accumulator's contents between points; the
   proof data of the pipeline; the body obligation at a generic point, by cases on the point number
   modulo 16; the run of the whole program to the library's frame post; and the frame claim: every
   fair execution terminates without fault and the three argument arrays end as launched. -/
import proofs.«105676_j64072322121836_2_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A stores nothing into the output window: no pieces. A placeholder that nothing consults,
    since at these points the window is neither written back nor read at the next point. -/
def out0_A_4 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x256x4096 .f32) (x1 : Vec F S1x256x4 .i32) (x2 : Vec F S1x256x4 .f32) (x3 : Vec F S1x256x1 .f32) : Vec F S1x8x128 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the accumulator cover it (each store is of the whole buffer). -/
theorem scover0_A_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x256x4096 .f32) (x1 : Vec F S1x256x4 .i32) (x2 : Vec F S1x256x4 .f32) (x3 : Vec F S1x256x1 .f32) (y : S8x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S8x128.size (by sl_kernel_rfl) y

/-- What case A leaves in the accumulator: its pieces read back. -/
def sout0_A_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 : Vec F S1x256x4096 .f32) (x1 : Vec F S1x256x4 .i32) (x2 : Vec F S1x256x4 .f32) (x3 : Vec F S1x256x1 .f32) : Vec F S8x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output window: no pieces. A placeholder that nothing consults,
    since at these points the window is neither written back nor read at the next point. -/
def out0_B_4 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x256x4096 .f32) (x1 : Vec F S1x256x4 .i32) (x2 : Vec F S1x256x4 .f32) (x3 : Vec F S1x256x1 .f32) (xs0 : Vec F S8x128 .f32) : Vec F S1x8x128 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the accumulator cover it (each store is of the whole buffer). -/
theorem scover0_B_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x256x4096 .f32) (x1 : Vec F S1x256x4 .i32) (x2 : Vec F S1x256x4 .f32) (x3 : Vec F S1x256x1 .f32) (xs0 : Vec F S8x128 .f32) (y : S8x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S8x128.size (by sl_kernel_rfl) y

/-- What case B leaves in the accumulator: its pieces read back. -/
def sout0_B_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 : Vec F S1x256x4096 .f32) (x1 : Vec F S1x256x4 .i32) (x2 : Vec F S1x256x4 .f32) (x3 : Vec F S1x256x1 .f32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's one store into the output window is of its whole block, so its pieces cover it. -/
theorem cover0_C_4 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) (y : S1x8x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x8x128.size (by sl_kernel_rfl) y

/-- What case C leaves in the output window's staging buffer: its pieces read back. -/
def out0_C_4 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) : Vec F S1x8x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the accumulator cover it. -/
theorem scover0_C_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) (y : S8x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S8x128.size (by sl_kernel_rfl) y

/-- What case C leaves in the accumulator: its pieces read back. -/
def sout0_C_0 (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 : Vec F S1x256x4096 .f32) (x1 : Vec F S1x256x4 .i32) (x2 : Vec F S1x256x4 .f32) (x3 : Vec F S1x256x1 .f32) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output buffer and the accumulator hold after each point -/

/-- The accumulation. What the output window's staging buffer and the accumulator hold after the body at
    position `n` (a pair: the output buffer, then the accumulator): the case the closed forms select
    at `n`, run at the point's memrefs and input blocks, the accumulator starting from what position
    `n - 1` left unless the point zeroes it. The two conditions never hold together. -/
def outsAt0 (c : Dev nD) : (n : ℕ) → n < cfg0.N → Vec F S1x8x128 .f32 × Vec F S8x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the
    accumulator at anything); afterwards the accumulator at what the point before left in it, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulator at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the accumulator at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the pipeline on core `c`: the arrays as the region finds them; after the body at
    point `t` each input's buffer at its block and the output's at `outsAt0`; the invariant `PhiS`;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

/-- The proof data's arrays are the entry contents (the definition projected, the fold over the host
    prefix never unfolded). -/
theorem A_eq (c : Dev nD) (w : Fin cfg0.W) : (dats m 0 c).A w = V m c (Pipeline.arrRef spec0 w) := by
  dsimp only [dats]

/-- The invariant at a point's start, restated at the point's number. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' memrefs hold their blocks; the point number modulo 16 says which
    case the point is in, so that case's run applies. The invariant hands the body the accumulator at
    what the point before left (at anything, at the very first point) and the generator register, and
    takes the accumulator back at this point's contents (its pieces cover it). Where the output window
    is idle its buffer is handed back as found; at the last point of a row of tiles it is returned at
    its written pieces read back. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives back what the launch handed over: the accumulator's
    named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 256 := N_0; omega)

/-! ## The run and the frame -/

set_option backward.isDefEq.respectTransparency.types false in
/-- From any memory with zero counters, every weakly fair execution of the program on the TensorCores
    terminates, and every final state has every window's array at what the library computes from the
    proof data and every other unscoped buffer as the later host line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every weakly fair execution terminates without fault and the three argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KIPieces.lean ====
import proofs.«105676_j64072322121836_2_alg».proof.Proof.KIFrame
import Idealize.ShloMosaic.Lib.Pipeline.Value

set_option maxRecDepth 16384

noncomputable section

namespace Cert.KernelIdeal.Hand

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! What each control case leaves in the accumulator and in the output block, as the body's stored payloads.

  Every load and store of the body is of a whole buffer, so what a case leaves in a buffer is the payload of the last
  store into it, and a load reads the buffer's contents or, after a store, the stored payload. At the first row tile
  the accumulator is zeroed and the tile's payload is computed over the zeros; at the other tiles it is computed over
  what the point before left; at the last tile the output block is the accumulator so updated, with a unit axis. -/

theorem hz2 : (![0, 0] : Fin 2 → Nat) = fun _ => 0 := by funext a; fin_cases a <;> rfl
theorem hz3 : (![0, 0, 0] : Fin 3 → Nat) = fun _ => 0 := by funext a; fin_cases a <;> rfl

/-- First row tile: the tile's payload over the zeroed accumulator. -/
theorem sout0_A_0_eq (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i) (x0 : Vec F S1x256x4096 .f32) (x1 : Vec F S1x256x4 .i32) (x2 : Vec F S1x256x4 .f32) (x3 : Vec F S1x256x1 .f32) :
    sout0_A_0 c i arg2 harg2 arg3 harg3 arg4 harg4 arg5 harg5 arg6 harg6 arg7 harg7 hc0 hc1 x0 x1 x2 x3
      = k0_pay10 (k0_pay3 x0) (k0_pay4 (F := F) x1) (k0_pay5 x2) (k0_pay6 x3) (iota .tc S256x4096 32 [1] iota_S256x4096_d1_w32)
        (k0_pay7 x0 x1 x2 x3) (k0_pay8 x2) (k0_pay9 x0 x1 x3) (k0_pay2 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_run_names
  rw [View.canon_cons_unit_zero hz2]
  rw [View.readCov_unit_zero _ hz2]
  simp only [View.readAt_eq_ld, harg2.read_unread, harg3.read_unread, harg4.read_unread, harg5.read_unread, harg7.read_unread,
    View.ld_unit_zero (S := S1x256x4096) hz3, View.ld_unit_zero (S := S1x256x4) hz3, View.ld_unit_zero (S := S1x256x1) hz3,
    View.ld_unit_zero (S := S8x128) hz2]

/-- A middle row tile: the tile's payload over what the point before left. -/
theorem sout0_B_0_eq (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i) (x0 : Vec F S1x256x4096 .f32) (x1 : Vec F S1x256x4 .i32) (x2 : Vec F S1x256x4 .f32) (x3 : Vec F S1x256x1 .f32) (xs0 : Vec F S8x128 .f32) :
    sout0_B_0 c i arg2 harg2 arg3 harg3 arg4 harg4 arg5 harg5 arg6 harg6 arg7 harg7 hc0 hc1 x0 x1 x2 x3 xs0
      = k0_pay10 (k0_pay3 x0) (k0_pay4 (F := F) x1) (k0_pay5 x2) (k0_pay6 x3) (iota .tc S256x4096 32 [1] iota_S256x4096_d1_w32)
        (k0_pay7 x0 x1 x2 x3) (k0_pay8 x2) (k0_pay9 x0 x1 x3) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_run_names
  rw [View.canon_cons_unit_zero hz2]
  simp only [View.readAt_eq_ld, harg2.read_unread, harg3.read_unread, harg4.read_unread, harg5.read_unread, harg7.read_unread,
    View.ld_unit_zero (S := S1x256x4096) hz3, View.ld_unit_zero (S := S1x256x4) hz3, View.ld_unit_zero (S := S1x256x1) hz3,
    View.ld_unit_zero (S := S8x128) hz2]

/-- The last row tile: the same for the accumulator, -/
theorem sout0_C_0_eq (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i) (x0 : Vec F S1x256x4096 .f32) (x1 : Vec F S1x256x4 .i32) (x2 : Vec F S1x256x4 .f32) (x3 : Vec F S1x256x1 .f32) (xs0 : Vec F S8x128 .f32) :
    sout0_C_0 c i arg2 harg2 arg3 harg3 arg4 harg4 arg5 harg5 arg6 harg6 arg7 harg7 hc0 hc1 x0 x1 x2 x3 xs0
      = k0_pay10 (k0_pay3 x0) (k0_pay4 (F := F) x1) (k0_pay5 x2) (k0_pay6 x3) (iota .tc S256x4096 32 [1] iota_S256x4096_d1_w32)
        (k0_pay7 x0 x1 x2 x3) (k0_pay8 x2) (k0_pay9 x0 x1 x3) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_run_names
  rw [View.canon_cons_unit_zero hz2]
  simp only [View.readAt_eq_ld, harg2.read_unread, harg3.read_unread, harg4.read_unread, harg5.read_unread, harg7.read_unread,
    View.ld_unit_zero (S := S1x256x4096) hz3, View.ld_unit_zero (S := S1x256x4) hz3, View.ld_unit_zero (S := S1x256x1) hz3,
    View.ld_unit_zero (S := S8x128) hz2]

/-- and the output block is the updated accumulator, with a unit leading axis. -/
theorem out0_C_4_eq (c : Dev nD) (i : grid0.Coords) (arg2 : Memref sig .tc .vmem S1x256x4096 .f32) (harg2 : arg2.IsWhole) (arg3 : Memref sig .tc .vmem S1x256x4 .i32) (harg3 : arg3.IsWhole) (arg4 : Memref sig .tc .vmem S1x256x4 .f32) (harg4 : arg4.IsWhole) (arg5 : Memref sig .tc .vmem S1x256x1 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i) (x0 : Vec F S1x256x4096 .f32) (x1 : Vec F S1x256x4 .i32) (x2 : Vec F S1x256x4 .f32) (x3 : Vec F S1x256x1 .f32) (xs0 : Vec F S8x128 .f32) :
    out0_C_4 c i arg2 harg2 arg3 harg3 arg4 harg4 arg5 harg5 arg6 harg6 arg7 harg7 hc0 hc1 x0 x1 x2 x3 xs0
      = k0_pay1 (k0_pay10 (k0_pay3 x0) (k0_pay4 (F := F) x1) (k0_pay5 x2) (k0_pay6 x3) (iota .tc S256x4096 32 [1] iota_S256x4096_d1_w32)
        (k0_pay7 x0 x1 x2 x3) (k0_pay8 x2) (k0_pay9 x0 x1 x3) xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_run_names
  rw [View.canon_cons_unit_zero hz3]
  rw [View.readCov_unit_zero _ hz2]
  simp only [View.readAt_eq_ld, harg2.read_unread, harg3.read_unread, harg4.read_unread, harg5.read_unread, harg7.read_unread,
    View.ld_unit_zero (S := S1x256x4096) hz3, View.ld_unit_zero (S := S1x256x4) hz3, View.ld_unit_zero (S := S1x256x1) hz3,
    View.ld_unit_zero (S := S8x128) hz2]

end Cert.KernelIdeal.Hand

end
-- ==== Proof.Loss.lean ====
/-
  The masked L1 loss between four bilinear-corner samples of a correlation volume and the bilinear weights, as one
  function of four arrays, on the extended reals.

  For a batch entry `b`, a corner `i` and a pixel `ρ = p·64 + q` of the 64 × 64 image, the corner's index word
  `I i (b, p, q)` names a column of row `ρ` of the volume; the term is
  `|corr (b, ρ, column) · vis (b, 0, p, q) − W i (b, p, q) · vis (b, 0, p, q)|`, and the loss is the sum of the
  16 · 4 · 4096 terms divided by the float `262144` (kept as its word: both programs divide by the same literal).
  Nothing here mentions a program: both sides of the equivalence are shown to compute `total`.
-/
import Idealize.ShloMosaic.PureOps.Ideal
import Idealize.ShloMosaic.Lib.ValueIdx

noncomputable section

namespace Cert.BilinearL1

open Idealize.ShloMosaic Idealize.ShloMosaic.ValueIdx

/-- The image row of pixel `ρ`. -/
def rowP (ρ : Fin 4096) : Fin 64 := ⟨ρ.val / 64, by have := ρ.isLt; omega⟩
/-- The image column of pixel `ρ`. -/
def colQ (ρ : Fin 4096) : Fin 64 := ⟨ρ.val % 64, Nat.mod_lt _ (by norm_num)⟩
/-- The pixel of image coordinates `(p, q)`: `p · 64 + q`. -/
def pix (p q : Fin 64) : Fin 4096 := ⟨p.val * 64 + q.val, by have := p.isLt; have := q.isLt; omega⟩

theorem rowP_pix (p q : Fin 64) : rowP (pix p q) = p := by
  apply Fin.ext; show (p.val * 64 + q.val) / 64 = p.val; have := q.isLt; omega
theorem colQ_pix (p q : Fin 64) : colQ (pix p q) = q := by
  apply Fin.ext; show (p.val * 64 + q.val) % 64 = q.val; have := q.isLt; omega
theorem pix_rowP_colQ (ρ : Fin 4096) : pix (rowP ρ) (colQ ρ) = ρ := by
  apply Fin.ext; show ρ.val / 64 * 64 + ρ.val % 64 = ρ.val; omega

/-- The column of the volume an index word selects (a word below 4096 selects itself). -/
def colOf (w : BitVec 32) : Fin 4096 := ⟨w.toNat % 4096, Nat.mod_lt _ (by norm_num)⟩

/-- The absolute value on the extended reals, as both programs compute it. -/
def absE (y : EReal) : EReal := max y (-y)

/-- One term of the loss: corner `i` of pixel `ρ` of batch entry `b`. -/
def term (corr : (⟨3, ![16, 4096, 4096]⟩ : Shape).Idx → EReal) (W : Fin 4 → (⟨3, ![16, 64, 64]⟩ : Shape).Idx → EReal)
    (I : Fin 4 → (⟨3, ![16, 64, 64]⟩ : Shape).Idx → BitVec 32) (vis : (⟨4, ![16, 1, 64, 64]⟩ : Shape).Idx → EReal)
    (b : Fin 16) (i : Fin 4) (ρ : Fin 4096) : EReal :=
  absE (corr (ix3 b ρ (colOf (I i (ix3 b (rowP ρ) (colQ ρ))))) * vis (ix4 b (0 : Fin 1) (rowP ρ) (colQ ρ))
    - W i (ix3 b (rowP ρ) (colQ ρ)) * vis (ix4 b (0 : Fin 1) (rowP ρ) (colQ ρ)))

/-- The loss: the sum of all terms over the common divisor. -/
def total (corr : (⟨3, ![16, 4096, 4096]⟩ : Shape).Idx → EReal) (W : Fin 4 → (⟨3, ![16, 64, 64]⟩ : Shape).Idx → EReal)
    (I : Fin 4 → (⟨3, ![16, 64, 64]⟩ : Shape).Idx → BitVec 32) (vis : (⟨4, ![16, 1, 64, 64]⟩ : Shape).Idx → EReal) : EReal :=
  Ideal.div (∑ b : Fin 16, ∑ i : Fin 4, ∑ ρ : Fin 4096, term corr W I vis b i ρ) (Ideal.ofBits .f32 0x48800000#32)

end Cert.BilinearL1

end
-- ==== Proof.SumLaws.lean ====
/-
  Two facts about finite sums on the extended reals, used to read the kernel's arithmetic.

  • A one-hot selection summed over a row is a gather: over the 4096 columns `c`, the sum of "`f c` if the
    column's number is the index word `w`, else 0" is `f` at the column `w` names, when `w` is below 4096
    (no other column's number equals `w`, because column numbers are below 2³²).
  • A sum over 16 tiles of 256 rows is the sum over the 4096 rows `tile · 256 + row`.
-/
import Idealize.ShloMosaic.PureOps.Ideal
import Mathlib.Algebra.BigOperators.Fin
import Mathlib.Logic.Equiv.Fin.Basic

namespace Cert.SumLaws

open Idealize.ShloMosaic

/-- A select on an integer equality test is an `if` on the equality. -/
theorem select_cmpi_eq {α : Type} (x y : BitVec 32) (a b : α) :
    Scalar.select (IntOp.cmpi .eq x y) a b = if x = y then a else b := by
  unfold Scalar.select IntOp.cmpi
  by_cases h : x = y
  · subst h; simp
  · have : (x == y) = false := by simpa using h
    simp [this, h]

/-- The number of a column below 4096, as a 32-bit word, is the word `w` exactly when the column is `w`'s. -/
theorem ofNat_eq_iff (w : BitVec 32) (hw : w.toNat < 4096) (c : Fin 4096) :
    BitVec.ofNat 32 c.val = w ↔ c = ⟨w.toNat, hw⟩ := by
  constructor
  · intro h
    apply Fin.ext
    have := congrArg BitVec.toNat h
    rw [BitVec.toNat_ofNat] at this
    have hc := c.isLt
    rw [Nat.mod_eq_of_lt (by omega)] at this
    exact this
  · intro h
    subst h
    apply BitVec.eq_of_toNat_eq
    rw [BitVec.toNat_ofNat]
    exact Nat.mod_eq_of_lt (by have := w.isLt; omega)

/-- The one-hot sum over the columns is the entry at the column the index word names. -/
theorem onehot_sum (w : BitVec 32) (hw : w.toNat < 4096) (f : Fin 4096 → EReal) :
    (∑ c : Fin 4096, if BitVec.ofNat 32 c.val = w then f c else 0) = f ⟨w.toNat, hw⟩ := by
  rw [Finset.sum_eq_single (⟨w.toNat, hw⟩ : Fin 4096)]
  · rw [if_pos ((ofNat_eq_iff w hw _).mpr rfl)]
  · intro c _ hc
    rw [if_neg (fun h => hc ((ofNat_eq_iff w hw c).mp h))]
  · intro h; exact absurd (Finset.mem_univ _) h

/-- Row `r` of tile `k` is row `k · 256 + r` of the 4096. -/
def tileRow (k : Fin 16) (r : Fin 256) : Fin 4096 := ⟨k.val * 256 + r.val, by have := k.isLt; have := r.isLt; omega⟩

/-- Summing tile by tile is summing over all rows. -/
theorem sum_tiles {M : Type*} [AddCommMonoid M] (g : Fin 4096 → M) :
    (∑ k : Fin 16, ∑ r : Fin 256, g (tileRow k r)) = ∑ ρ : Fin 4096, g ρ := by
  rw [← Fintype.sum_prod_type' (f := fun k r => g (tileRow k r))]
  refine Fintype.sum_equiv (finProdFinEquiv (m := 16) (n := 256)) _ _ fun x => ?_
  congr 1
  apply Fin.ext
  show x.1.val * 256 + x.2.val = (finProdFinEquiv x).val
  simp [finProdFinEquiv]
  ring

end Cert.SumLaws
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.TileLoss.lean ====
/-
  What one grid point of the kernel adds to its accumulator, on the extended reals.

  At a grid point the kernel holds a tile of 256 rows of the correlation volume (`v4`, 256 × 4096), the four corner
  index words of each row (`v6`, 256 × 4), the four bilinear weights of each row (`v8`, 256 × 4) and the row's
  mask (`v10`, 256 × 1). For corner `o` it selects, in every row, the entries whose column number equals the
  row's index word and sums the row — a one-hot selection, so the sum is the sum over the columns of "the entry if the
  column's number is the word, else zero" (`gatherAt`) —, multiplies by the mask, subtracts weight · mask, takes
  absolute values and sums the 256 rows (`cornerSum`). The four corner sums are added from zero (`tileSum`) and the
  result is added to every entry of the 8 × 128 accumulator.
-/
import proofs.«105676_j64072322121836_2_alg».proof.Proof.Gen.KernelIdeal.Skeleton
import proofs.«105676_j64072322121836_2_alg».proof.Proof.Loss
import proofs.«105676_j64072322121836_2_alg».proof.Proof.SumLaws
import proofs.«105676_j64072322121836_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileLoss

open Cert.KernelIdeal Cert.KernelIdeal.Gen Idealize.ShloMosaic Idealize.ShloMosaic.ValueIdx Cert.BilinearL1 Cert.SumLaws

variable [Facts]

/-! ## The layout steps at explicit coordinates -/

/-- Column `o` of a 256 × 4 array, kept as a 256 × 1 column, reads row `r` of column `o`. -/
theorem col_apply {α : Type} (x : S256x4.Idx → α) (o : Fin 4) (hs : S256x4.Slices ![0, o.val] S256x1) (r : Fin 256) (u : Fin 1) :
    extractStridedSlice S256x1 ![0, o.val] x hs (ix2 r u) = x (ix2 r o) :=
  slice2_axis1_apply o.val x hs r u o (by have : u.val = 0 := by omega
                                          omega)

/-- The reduced index `r` of a row sum, with column `k` put back, is `(r, k)`. -/
theorem lift_row (h : S256x4096.Reduces [1] S256) (r : Fin 256) (k : Fin 4096) : h.lift (ix1 r) k = ix2 r k := by
  funext c; apply Fin.ext
  fin_cases c <;> rfl

/-- The reduced index of a column sum, with row `k` put back, is `(k, u)`. -/
theorem lift_col (h : S256x1.Reduces [0] S1) (u : Fin 1) (k : Fin 256) : h.lift (ix1 u) k = ix2 k u := by
  funext c; apply Fin.ext
  fin_cases c <;> rfl

/-- A row sum of a 256 × 4096 array at row `r`: the sum over the 4096 columns. -/
theorem rowSum_apply (src : FVec Ideal S256x4096 .f32) (h : S256x4096.Reduces [1] S256) (hφ : FKind.Formats .f32)
    (hacc : (0x00000000#32 : BitVec 32) = FKind.add.neutral .f32 hφ) (r : Fin 256) :
    multiReduction .add [1] S256 src 0x00000000#32 h hφ hacc (ix1 r) = ∑ c : Fin 4096, src (ix2 r c) := by
  refine (Ideal.multiReduction_add_single src 0x00000000#32 h hφ hacc (ix1 r)).trans ?_
  show (∑ k : Fin 4096, src (h.lift (ix1 r) k)) = _
  exact Finset.sum_congr rfl fun k _ => congrArg src (lift_row h r k)

/-- A column sum of a 256 × 1 array: the sum over the 256 rows. -/
theorem colSum_apply (src : FVec Ideal S256x1 .f32) (h : S256x1.Reduces [0] S1) (hφ : FKind.Formats .f32)
    (hacc : (0x00000000#32 : BitVec 32) = FKind.add.neutral .f32 hφ) (u : Fin 1) :
    multiReduction .add [0] S1 src 0x00000000#32 h hφ hacc (ix1 u) = ∑ r : Fin 256, src (ix2 r u) := by
  refine (Ideal.multiReduction_add_single src 0x00000000#32 h hφ hacc (ix1 u)).trans ?_
  show (∑ k : Fin 256, src (h.lift (ix1 u) k)) = _
  exact Finset.sum_congr rfl fun k _ => congrArg src (lift_col h u k)

/-! ## One corner -/

/-- The one-hot row sum: over the columns, the entry where the column's number is the word `w`, zero elsewhere. -/
def gatherAt (v4 : FVec Ideal S256x4096 .f32) (w : BitVec 32) (r : Fin 256) : EReal :=
  ∑ c : Fin 4096, if BitVec.ofNat 32 c.val = w then v4 (ix2 r c) else 0

/-- The kernel's selected-and-summed column for corner `o`, as it computes it. -/
def gatherVec (v4 : FVec Ideal S256x4096 .f32) (v6 : IVec S256x4 32) (o : Nat) (hs : S256x4.Slices ![0, o] S256x1) :
    FVec Ideal S256x1 .f32 :=
  shapeCast S256x1 (multiReduction .add [1] S256
    (select (cmpi .eq (iota .tc S256x4096 32 [1] iota_S256x4096_d1_w32)
        (broadcastTo S256x4096 (extractStridedSlice S256x1 ![0, o] v6 hs) broadcasts_S256x1_S256x4096))
      v4 (broadcast S256x4096 (Scalar.ofBits (F := Ideal) .f32 0x00000000#32)))
    0x00000000#32 reduces_S256x4096_S256 (.inl rfl) rfl) shapeCasts_S256_S256x1

theorem gatherVec_apply (v4 : FVec Ideal S256x4096 .f32) (v6 : IVec S256x4 32) (o : Fin 4)
    (hs : S256x4.Slices ![0, o.val] S256x1) (r : Fin 256) (u : Fin 1) :
    gatherVec v4 v6 o.val hs (ix2 r u) = gatherAt v4 (v6 (ix2 r o)) r := by
  unfold gatherVec gatherAt
  refine (shapeCast_a_a1_apply _ shapeCasts_S256_S256x1 r u).trans ?_
  refine (rowSum_apply _ reduces_S256x4096_S256 (.inl rfl) rfl r).trans ?_
  refine Finset.sum_congr rfl fun c _ => ?_
  show Scalar.select (IntOp.cmpi .eq (iota .tc S256x4096 32 [1] iota_S256x4096_d1_w32 (ix2 r c))
      (broadcastTo S256x4096 (extractStridedSlice S256x1 ![0, o.val] v6 hs) broadcasts_S256x1_S256x4096 (ix2 r c)))
      (v4 (ix2 r c)) (Ideal.ofBits .f32 0x00000000#32) = _
  rw [iota_single_apply, broadcastTo_a1_ab_apply, col_apply, select_cmpi_eq, Ideal.ofBits_zero_f32]

/-- Corner `o`'s sum over the tile's rows of |gathered · mask − weight · mask|. -/
def cornerSum (v4 : FVec Ideal S256x4096 .f32) (v6 : IVec S256x4 32) (v8 : FVec Ideal S256x4 .f32) (v10 : FVec Ideal S256x1 .f32)
    (o : Fin 4) : EReal :=
  ∑ r : Fin 256, absE (gatherAt v4 (v6 (ix2 r o)) r * v10 (ix2 r (0 : Fin 1)) - v8 (ix2 r o) * v10 (ix2 r (0 : Fin 1)))

/-- The same as the kernel computes it: a 1 × 1 array. -/
def cornerVec (v4 : FVec Ideal S256x4096 .f32) (v6 : IVec S256x4 32) (v8 : FVec Ideal S256x4 .f32) (v10 : FVec Ideal S256x1 .f32)
    (o : Nat) (hs : S256x4.Slices ![0, o] S256x1) : FVec Ideal S1x1 .f32 :=
  shapeCast S1x1 (multiReduction .add [0] S1
    (absf (subf (mulf (gatherVec v4 v6 o hs) v10) (mulf (extractStridedSlice S256x1 ![0, o] v8 hs) v10)))
    0x00000000#32 reduces_S256x1_S1 (.inl rfl) rfl) shapeCasts_S1_S1x1

theorem cornerVec_apply (v4 : FVec Ideal S256x4096 .f32) (v6 : IVec S256x4 32) (v8 : FVec Ideal S256x4 .f32)
    (v10 : FVec Ideal S256x1 .f32) (o : Fin 4) (hs : S256x4.Slices ![0, o.val] S256x1) (a b : Fin 1) :
    cornerVec v4 v6 v8 v10 o.val hs (ix2 a b) = cornerSum v4 v6 v8 v10 o := by
  unfold cornerVec cornerSum
  refine (shapeCast_a_a1_apply _ shapeCasts_S1_S1x1 a b).trans ?_
  refine (colSum_apply _ reduces_S256x1_S1 (.inl rfl) rfl a).trans ?_
  have ha : a = 0 := Fin.ext (by omega)
  subst ha
  refine Finset.sum_congr rfl fun r _ => ?_
  show absE (gatherVec v4 v6 o.val hs (ix2 r 0) * v10 (ix2 r 0)
      - extractStridedSlice S256x1 ![0, o.val] v8 hs (ix2 r 0) * v10 (ix2 r 0)) = _
  rw [gatherVec_apply, col_apply]

/-! ## The tile -/

/-- What the grid point adds to every entry of the accumulator. -/
def tileSum (v4 : FVec Ideal S256x4096 .f32) (v6 : IVec S256x4 32) (v8 : FVec Ideal S256x4 .f32) (v10 : FVec Ideal S256x1 .f32) : EReal :=
  ∑ o : Fin 4, cornerSum v4 v6 v8 v10 o

/-- A 1 × 1 array broadcast over the 8 × 128 accumulator reads its one entry everywhere. -/
theorem bcast11_apply {α : Type} (v : S1x1.Idx → α) (h : S1x1.Broadcasts S8x128) (j : S8x128.Idx) :
    broadcastTo S8x128 v h j = v (ix2 (0 : Fin 1) (0 : Fin 1)) := by
  refine broadcastTo_apply v h j (ix2 (0 : Fin 1) (0 : Fin 1)) fun ax => ?_
  match ax with
  | ⟨0, _⟩ => show (0 : ℕ) = if (1 : ℕ) = 1 then 0 else _; rw [if_pos rfl]
  | ⟨1, _⟩ => show (0 : ℕ) = if (1 : ℕ) = 1 then 0 else _; rw [if_pos rfl]

/-- The stored payload, with its layout steps and its four corners named: the accumulator plus the broadcast of
    zero + corner 0 + corner 1 + corner 2 + corner 3 (unfolding the payload definitions only). -/
theorem pay10_struct (v3 : Vec Ideal S1x256x4096 .f32) (v5 : Vec Ideal S1x256x4 .i32) (v7 : Vec Ideal S1x256x4 .f32)
    (v9 : Vec Ideal S1x256x1 .f32) (v73 : Vec Ideal S8x128 .f32) :
    k0_pay10 (F := Ideal) (k0_pay3 v3) (k0_pay4 (F := Ideal) v5) (k0_pay5 v7) (k0_pay6 v9)
        (iota .tc S256x4096 32 [1] iota_S256x4096_d1_w32) (k0_pay7 v3 v5 v7 v9) (k0_pay8 v7) (k0_pay9 v3 v5 v9) v73
      = shapeCast S8x128 (addf v73 (broadcastTo S8x128 (shapeCast S1x1
          (addf (addf (addf (addf (broadcast S1x1 (Scalar.ofBits (F := Ideal) .f32 0x00000000#32))
            (cornerVec (k0_pay3 v3) (k0_pay4 (F := Ideal) v5) (k0_pay5 v7) (k0_pay6 v9) 0 slices_S256x4_o0_0_S256x1))
            (cornerVec (k0_pay3 v3) (k0_pay4 (F := Ideal) v5) (k0_pay5 v7) (k0_pay6 v9) 1 slices_S256x4_o0_1_S256x1))
            (cornerVec (k0_pay3 v3) (k0_pay4 (F := Ideal) v5) (k0_pay5 v7) (k0_pay6 v9) 2 slices_S256x4_o0_2_S256x1))
            (cornerVec (k0_pay3 v3) (k0_pay4 (F := Ideal) v5) (k0_pay5 v7) (k0_pay6 v9) 3 slices_S256x4_o0_3_S256x1))
          shapeCasts_S1x1_S1x1) broadcasts_S1x1_S8x128)) shapeCasts_S8x128_S8x128 := rfl

/-- Every entry of the stored payload is the accumulator's entry plus the tile's sum. -/
theorem pay10_apply (v3 : Vec Ideal S1x256x4096 .f32) (v5 : Vec Ideal S1x256x4 .i32) (v7 : Vec Ideal S1x256x4 .f32)
    (v9 : Vec Ideal S1x256x1 .f32) (v73 : Vec Ideal S8x128 .f32) (j : S8x128.Idx) :
    k0_pay10 (F := Ideal) (k0_pay3 v3) (k0_pay4 (F := Ideal) v5) (k0_pay5 v7) (k0_pay6 v9)
        (iota .tc S256x4096 32 [1] iota_S256x4096_d1_w32) (k0_pay7 v3 v5 v7 v9) (k0_pay8 v7) (k0_pay9 v3 v5 v9) v73 j
      = v73 j + tileSum (k0_pay3 v3) (k0_pay4 (F := Ideal) v5) (k0_pay5 v7) (k0_pay6 v9) := by
  rw [pay10_struct, shapeCast_self]
  show v73 j + broadcastTo S8x128 _ broadcasts_S1x1_S8x128 j = _
  rw [bcast11_apply, shapeCast_self]
  show v73 j + ((((Ideal.ofBits .f32 0x00000000#32 + cornerVec _ _ _ _ 0 slices_S256x4_o0_0_S256x1 (ix2 0 0))
      + cornerVec _ _ _ _ 1 slices_S256x4_o0_1_S256x1 (ix2 0 0)) + cornerVec _ _ _ _ 2 slices_S256x4_o0_2_S256x1 (ix2 0 0))
      + cornerVec _ _ _ _ 3 slices_S256x4_o0_3_S256x1 (ix2 0 0)) = _
  have e0 : cornerVec (k0_pay3 v3) (k0_pay4 (F := Ideal) v5) (k0_pay5 v7) (k0_pay6 v9) 0 slices_S256x4_o0_0_S256x1 (ix2 0 0)
      = cornerSum (k0_pay3 v3) (k0_pay4 (F := Ideal) v5) (k0_pay5 v7) (k0_pay6 v9) (0 : Fin 4) :=
    cornerVec_apply _ _ _ _ (0 : Fin 4) slices_S256x4_o0_0_S256x1 0 0
  have e1 : cornerVec (k0_pay3 v3) (k0_pay4 (F := Ideal) v5) (k0_pay5 v7) (k0_pay6 v9) 1 slices_S256x4_o0_1_S256x1 (ix2 0 0)
      = cornerSum (k0_pay3 v3) (k0_pay4 (F := Ideal) v5) (k0_pay5 v7) (k0_pay6 v9) (1 : Fin 4) :=
    cornerVec_apply _ _ _ _ (1 : Fin 4) slices_S256x4_o0_1_S256x1 0 0
  have e2 : cornerVec (k0_pay3 v3) (k0_pay4 (F := Ideal) v5) (k0_pay5 v7) (k0_pay6 v9) 2 slices_S256x4_o0_2_S256x1 (ix2 0 0)
      = cornerSum (k0_pay3 v3) (k0_pay4 (F := Ideal) v5) (k0_pay5 v7) (k0_pay6 v9) (2 : Fin 4) :=
    cornerVec_apply _ _ _ _ (2 : Fin 4) slices_S256x4_o0_2_S256x1 0 0
  have e3 : cornerVec (k0_pay3 v3) (k0_pay4 (F := Ideal) v5) (k0_pay5 v7) (k0_pay6 v9) 3 slices_S256x4_o0_3_S256x1 (ix2 0 0)
      = cornerSum (k0_pay3 v3) (k0_pay4 (F := Ideal) v5) (k0_pay5 v7) (k0_pay6 v9) (3 : Fin 4) :=
    cornerVec_apply _ _ _ _ (3 : Fin 4) slices_S256x4_o0_3_S256x1 0 0
  rw [e0, e1, e2, e3, Ideal.ofBits_zero_f32, zero_add]
  unfold tileSum
  rw [Fin.sum_univ_four]

/-- The first store of a row of the grid: zeros. -/
theorem pay2_apply (j : S8x128.Idx) : k0_pay2 (F := Ideal) j = 0 := by
  unfold k0_pay2
  rw [shapeCast_self]
  exact Ideal.ofBits_zero_f32

/-- The copy to the output block: the accumulator, with a unit leading axis. -/
theorem pay1_apply (v83 : Vec Ideal S8x128 .f32) (a : Fin 1) (p : Fin 8) (q : Fin 128) :
    k0_pay1 (F := Ideal) v83 (ix3 a p q) = v83 (ix2 p q) := by
  unfold k0_pay1
  exact shapeCast_ab_1ab_apply v83 shapeCasts_S8x128_S1x8x128 a p q

end Cert.KernelIdeal.TileLoss

end
-- ==== Proof.KIAccum.lean ====
import proofs.«105676_j64072322121836_2_alg».proof.Proof.KIPieces
import proofs.«105676_j64072322121836_2_alg».proof.Proof.TileLoss
import Idealize.ShloMosaic.Lib.Pipeline.Value

/-!
  The accumulator across the grid, and the output array it ends in.

  The grid runs over the 16 batch entries and, fastest, the 16 row tiles of each. Within a batch entry the accumulator
  starts at zero at the first tile and every tile adds its sum to every entry, so after tile `k` of batch entry `b`
  every entry of the accumulator is the sum of the tile sums of points `16 b` … `16 b + k` (an induction on the point:
  a running sum over a range grows by its last term). At the last tile the output block is the accumulator, so block
  `b` of the output array is everywhere the sum of the batch entry's 16 tile sums; the 16 blocks cover the array.
-/

set_option maxRecDepth 16384

noncomputable section

/-! ## A running sum that restarts every 16 steps -/

namespace Cert.RunSum

/-- The sum of `f` from the last multiple of 16 up to `n`. -/
def acc (f : ℕ → EReal) (n : ℕ) : EReal := ∑ k ∈ Finset.range (n % 16 + 1), f (n - n % 16 + k)

theorem acc_first (f : ℕ → EReal) (n : ℕ) (h : n % 16 = 0) : acc f n = f n := by
  unfold acc
  rw [h, Finset.sum_range_one, Nat.sub_zero, Nat.add_zero]

theorem acc_next (f : ℕ → EReal) (n : ℕ) (h : (n + 1) % 16 ≠ 0) : acc f (n + 1) = acc f n + f (n + 1) := by
  unfold acc
  have e1 : (n + 1) % 16 = n % 16 + 1 := by omega
  have e2 : n + 1 - (n % 16 + 1) = n - n % 16 := by omega
  rw [e1, e2, Finset.sum_range_succ]
  congr 2
  omega

/-- At the end of a run of 16 the running sum is the sum of the 16 terms. -/
theorem acc_last (f : ℕ → EReal) (b : ℕ) : acc f (b * 16 + 15) = ∑ k : Fin 16, f (b * 16 + k.val) := by
  unfold acc
  have e1 : (b * 16 + 15) % 16 = 15 := by omega
  rw [e1, Finset.sum_range]
  refine Finset.sum_congr rfl fun k _ => ?_
  congr 1

end Cert.RunSum

namespace Cert.KernelIdeal.Hand

open Cert.KernelIdeal Cert.KernelIdeal.Gen Cert.KernelIdeal.TileLoss Cert.RunSum
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The tile sum of grid point `t`: of the four input blocks the point is handed. -/
def tileAt (c : Dev nD) (t : Fin cfg0.N) : EReal :=
  tileSum (k0_pay3 (F := Ideal) (iblk m c 0 t)) (k0_pay4 (F := Ideal) (iblk m c 1 t)) (k0_pay5 (F := Ideal) (iblk m c 2 t))
    (k0_pay6 (F := Ideal) (iblk m c 3 t))

/-- The same by the point's number (zero past the grid). -/
def tileN (c : Dev nD) (n : ℕ) : EReal := if h : n < cfg0.N then tileAt m c ⟨n, h⟩ else 0

theorem tileN_eq (c : Dev nD) (t : Fin cfg0.N) : tileN m c t.val = tileAt m c t := by
  unfold tileN; rw [dif_pos t.isLt]

/-- The accumulator's half of what a point leaves, case by case (the pair's second component). -/
theorem acc_A (c : Dev nD) (t : Fin cfg0.N) (h0 : t.val % 16 = 0) (h1 : ¬t.val % 16 = 15) :
    (outsAt0 m c t.val t.isLt).2 = sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t) :=
  congrArg Prod.snd (outsAt0_A m c t h0 h1)
theorem acc_B (c : Dev nD) (t : Fin cfg0.N) (h0 : ¬t.val % 16 = 0) (h1 : ¬t.val % 16 = 15) :
    (outsAt0 m c t.val t.isLt).2 = sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2 :=
  congrArg Prod.snd (outsAt0_B m c t h0 h1)
theorem acc_C (c : Dev nD) (t : Fin cfg0.N) (h0 : ¬t.val % 16 = 0) (h1 : t.val % 16 = 15) :
    (outsAt0 m c t.val t.isLt).2 = sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 :=
  congrArg Prod.snd (outsAt0_C m c t h0 h1)
set_option maxHeartbeats 4000000 in
/-- The output block's half at a batch entry's last tile. -/
theorem out_C (c : Dev nD) (t : Fin cfg0.N) (h0 : ¬t.val % 16 = 0) (h1 : t.val % 16 = 15) :
    (outsAt0 m c t.val t.isLt).1 = out0_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2 :=
  congrArg Prod.fst (outsAt0_C m c t h0 h1)

/-- After point `t` every entry of the accumulator is the running sum of the tile sums since the batch entry's first tile
    (by induction on the point's number). -/
theorem acc_eq (c : Dev nD) : ∀ (n : ℕ) (h : n < cfg0.N) (j : S8x128.Idx), (outsAt0 m c n h).2 j = acc (tileN m c) n := by
  intro n
  induction n with
  | zero =>
    intro h j
    have e := acc_A m c ⟨0, h⟩ (Nat.zero_mod _) (by show ¬(0 : ℕ) % 16 = 15; decide)
    rw [show (outsAt0 m c 0 h).2 = _ from e, sout0_A_0_eq, pay10_apply, pay2_apply, zero_add, acc_first _ _ (Nat.zero_mod _)]
    exact (tileN_eq m c ⟨0, h⟩).symm
  | succ n ih =>
    intro h j
    by_cases h0 : (n + 1) % 16 = 0
    · have e := acc_A m c ⟨n + 1, h⟩ h0 (by show ¬(n + 1) % 16 = 15; omega)
      rw [show (outsAt0 m c (n + 1) h).2 = _ from e, sout0_A_0_eq, pay10_apply, pay2_apply, zero_add, acc_first _ _ h0]
      exact (tileN_eq m c ⟨n + 1, h⟩).symm
    · by_cases h1 : (n + 1) % 16 = 15
      · have e := acc_C m c ⟨n + 1, h⟩ h0 h1
        rw [show (outsAt0 m c (n + 1) h).2 = _ from e, sout0_C_0_eq, pay10_apply]
        rw [show (outsAt0 m c ((⟨n + 1, h⟩ : Fin cfg0.N).val - 1) (Nat.lt_of_le_of_lt (Nat.sub_le _ _) (⟨n + 1, h⟩ : Fin cfg0.N).isLt)).2 _
            = acc (tileN m c) n from ih (Nat.lt_of_succ_lt h) _, acc_next _ _ h0]
        exact congrArg _ (tileN_eq m c ⟨n + 1, h⟩).symm
      · have e := acc_B m c ⟨n + 1, h⟩ h0 h1
        rw [show (outsAt0 m c (n + 1) h).2 = _ from e, sout0_B_0_eq, pay10_apply]
        rw [show (outsAt0 m c ((⟨n + 1, h⟩ : Fin cfg0.N).val - 1) (Nat.lt_of_le_of_lt (Nat.sub_le _ _) (⟨n + 1, h⟩ : Fin cfg0.N).isLt)).2 _
            = acc (tileN m c) n from ih (Nat.lt_of_succ_lt h) _, acc_next _ _ h0]
        exact congrArg _ (tileN_eq m c ⟨n + 1, h⟩).symm

/-- At a batch entry's last tile every entry of the output block is that running sum too. -/
theorem out_eq (c : Dev nD) (t : Fin cfg0.N) (h15 : t.val % 16 = 15) (y : S1x8x128.Idx) :
    (outsAt0 m c t.val t.isLt).1 y = acc (tileN m c) t.val := by
  have h0 : ¬t.val % 16 = 0 := by omega
  have hpos : t.val - 1 + 1 = t.val := by omega
  rw [out_C m c t h0 h15, out0_C_4_eq]
  obtain ⟨a, p, q, rfl⟩ : ∃ (a : Fin 1) (p : Fin 8) (q : Fin 128), y = ix3 a p q := ⟨y 0, y 1, y 2, eq_ix3 y⟩
  rw [pay1_apply, pay10_apply, acc_eq m c (t.val - 1)]
  have e := acc_next (tileN m c) (t.val - 1) (by rw [hpos]; exact h0)
  rw [hpos] at e
  rw [e, tileN_eq]
  rfl

end Cert.KernelIdeal.Hand

end
-- ==== Proof.KIGlue.lean ====
/-
  What the kernel's host operations hand the pallas_call, as functions of the program's arguments.

  Before the region the program computes, from the flow field, the four bilinear weights and the four corner index
  words of every pixel (the same operations, in the same order, as the reference's first stages), stacks each family
  on a trailing axis and flattens the image axes; the mask is reshaped. Walking the 150 host operations once shows
  that the three arrays the region is launched on are: the stacked index words and the stacked weights of the
  reference's own stages, and the reshaped mask. A line of operations split in two is run one part after the other
  (`after_append`).
-/
import proofs.«105676_j64072322121836_2_alg».proof.Proof.Gen.KernelIdeal.Launch
import proofs.«105676_j64072322121836_2_alg».proof.Proof.RefReadP
import Idealize.ShloMosaic.Lib.StableHlo.Run

noncomputable section

namespace Cert.KernelIdeal.Glue

open Cert.KernelIdeal Cert.KernelIdeal.Gen Idealize.ShloMosaic Idealize.ShloMosaic.TcCoe Idealize.SL.Sem Idealize.ShloMosaic.StableHlo

/-- Running a line of operations that is two lines end to end is running the first and then the second. -/
theorem after_append {τ : Topo} {sig : RefSig} {Val : EltTy → Type} (A B : List (HloOp τ sig Val)) (V : Valuation τ sig Val) :
    after (A ++ B) V = after B (after A V) := by
  induction A generalizing V with
  | nil => rfl
  | cons a A ih => exact ih _

variable {F : FTy → Type} [FloatOps F]
variable [Cert.KernelIdeal.Facts] [Cert.ReferenceIdeal.Facts]

/-- The host operations before the region, stretch after stretch, from the contents `W0`. -/
abbrev pre (W0 : Valuation τ sig (Elt F)) : Valuation τ sig (Elt F) :=
  after hostOps0_16 (after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (W0)))))))))))))))))

set_option maxRecDepth 262144 in
set_option maxHeartbeats 0 in
/-- The index-word operand: the reference's four index-word stages, each with a trailing unit axis, stacked on it, the
    image axes flattened. -/
theorem words_eq (W0 : Valuation τ sig (Elt F)) :
    pre W0 (Proc.devRef .tc main_v89)
      = (shapeCast S16x4096x4 (concatenate S16x64x64x4 3
          [⟨S16x64x64x1, broadcastInDim S16x64x64x1 ![0, 1, 2] bcast_S16x64x64_S16x64x64x1_0_1_2 (Cert.ReferenceIdeal.ReadP.val_main_v54 (F := F) (W0 (Proc.devRef .tc main_arg1)))⟩,
           ⟨S16x64x64x1, broadcastInDim S16x64x64x1 ![0, 1, 2] bcast_S16x64x64_S16x64x64x1_0_1_2 (Cert.ReferenceIdeal.ReadP.val_main_v66 (F := F) (W0 (Proc.devRef .tc main_arg1)))⟩,
           ⟨S16x64x64x1, broadcastInDim S16x64x64x1 ![0, 1, 2] bcast_S16x64x64_S16x64x64x1_0_1_2 (Cert.ReferenceIdeal.ReadP.val_main_v78 (F := F) (W0 (Proc.devRef .tc main_arg1)))⟩,
           ⟨S16x64x64x1, broadcastInDim S16x64x64x1 ![0, 1, 2] bcast_S16x64x64_S16x64x64x1_0_1_2 (Cert.ReferenceIdeal.ReadP.val_main_v90 (F := F) (W0 (Proc.devRef .tc main_arg1)))⟩]
          concatenates_S16x64x64x1_S16x64x64x1_S16x64x64x1_S16x64x64x1_S16x64x64x4_d3) shapeCasts_S16x64x64x4_S16x4096x4
        : (⟨S16x4096x4, .i32⟩ : BufTy).Contents (Elt F)) := by
  after_results_simp <;> rfl

set_option maxRecDepth 262144 in
set_option maxHeartbeats 0 in
/-- The weight operand: the reference's four weight stages, stacked and flattened the same way. -/
theorem weights_eq (W0 : Valuation τ sig (Elt F)) :
    pre W0 (Proc.devRef .tc main_v83)
      = (shapeCast S16x4096x4 (concatenate S16x64x64x4 3
          [⟨S16x64x64x1, broadcastInDim S16x64x64x1 ![0, 1, 2] bcast_S16x64x64_S16x64x64x1_0_1_2 (Cert.ReferenceIdeal.ReadP.val_main_v24 (F := F) (W0 (Proc.devRef .tc main_arg1)))⟩,
           ⟨S16x64x64x1, broadcastInDim S16x64x64x1 ![0, 1, 2] bcast_S16x64x64_S16x64x64x1_0_1_2 (Cert.ReferenceIdeal.ReadP.val_main_v29 (F := F) (W0 (Proc.devRef .tc main_arg1)))⟩,
           ⟨S16x64x64x1, broadcastInDim S16x64x64x1 ![0, 1, 2] bcast_S16x64x64_S16x64x64x1_0_1_2 (Cert.ReferenceIdeal.ReadP.val_main_v34 (F := F) (W0 (Proc.devRef .tc main_arg1)))⟩,
           ⟨S16x64x64x1, broadcastInDim S16x64x64x1 ![0, 1, 2] bcast_S16x64x64_S16x64x64x1_0_1_2 (Cert.ReferenceIdeal.ReadP.val_main_v37 (F := F) (W0 (Proc.devRef .tc main_arg1)))⟩]
          concatenates_S16x64x64x1_S16x64x64x1_S16x64x64x1_S16x64x64x1_S16x64x64x4_d3) shapeCasts_S16x64x64x4_S16x4096x4
        : (⟨S16x4096x4, .f32⟩ : BufTy).Contents (Elt F)) := by
  after_results_simp <;> rfl

set_option maxRecDepth 262144 in
set_option maxHeartbeats 0 in
/-- The mask operand: the mask argument reshaped to the image and then to the pixel axis with a unit axis. -/
theorem mask_eq (W0 : Valuation τ sig (Elt F)) :
    pre W0 (Proc.devRef .tc main_v91)
      = (shapeCast S16x4096x1 (shapeCast S16x64x64 (W0 (Proc.devRef .tc main_arg2)) shapeCasts_S16x1x64x64_S16x64x64)
          shapeCasts_S16x64x64_S16x4096x1 : (⟨S16x4096x1, .f32⟩ : BufTy).Contents (Elt F)) := by
  after_results_simp <;> rfl

/-- The stretches laid end to end are the stretches one after the other. -/
theorem flat_eq (W0 : Valuation τ sig (Elt F)) :
    after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) W0 = pre W0 := by
  simp only [List.flatten_cons, List.flatten_nil, List.append_nil, after_append]

end Cert.KernelIdeal.Glue

end
-- ==== Proof.GlueLayout.lean ====
/-
  How the kernel's three derived operands are laid out.

  The kernel is handed, per batch entry and pixel `ρ = p · 64 + q`, the four corner index words, the four weights and
  the mask. They are built from `[16, 64, 64]` arrays: each is given a trailing unit axis, the four are stacked on
  that axis into `[16, 64, 64, 4]`, and the image axes are flattened into the pixel axis, `[16, 4096, 4]`; the
  mask `[16, 1, 64, 64]` is reshaped to `[16, 64, 64]` and then to `[16, 4096, 1]`. Read at `(b, ρ, o)` the stacked
  array is array `o` at `(b, ρ / 64, ρ % 64)`, and the mask at `(b, ρ, 0)` is the mask at `(b, 0, ρ / 64, ρ % 64)`.
-/
import proofs.«105676_j64072322121836_2_alg».proof.Proof.Loss
import Idealize.ShloMosaic.Lib.Pipeline.Value
import Idealize.ShloMosaic.Lib.ValueIdx

namespace Cert.GlueLayout

open Idealize.ShloMosaic Idealize.ShloMosaic.ValueIdx Cert.BilinearL1

variable {α : Type}

/-- A `[16, 64, 64]` array given a trailing unit axis reads, at `(b, p, q, u)`, the array at `(b, p, q)`. -/
theorem lift1_apply (X : (⟨3, ![16, 64, 64]⟩ : Shape).Idx → α)
    (h : (⟨3, ![16, 64, 64]⟩ : Shape).BroadcastsInDim ⟨4, ![16, 64, 64, 1]⟩ ![0, 1, 2])
    (b : Fin 16) (p q : Fin 64) (u : Fin 1) :
    broadcastInDim ⟨4, ![16, 64, 64, 1]⟩ ![0, 1, 2] h X (ix4 b p q u) = X (ix3 b p q) := by
  refine broadcastInDim_apply ![0, 1, 2] h X (ix4 b p q u) (ix3 b p q) fun a => ?_
  match a with
  | ⟨0, _⟩ => show b.val = if (16 : ℕ) = 1 then 0 else b.val; rw [if_neg (by decide)]
  | ⟨1, _⟩ => show p.val = if (64 : ℕ) = 1 then 0 else p.val; rw [if_neg (by decide)]
  | ⟨2, _⟩ => show q.val = if (64 : ℕ) = 1 then 0 else q.val; rw [if_neg (by decide)]

/-- Four `[16, 64, 64, 1]` arrays stacked on the last axis: at `(b, p, q, o)`, array `o` at `(b, p, q, 0)`. -/
theorem stackLast_apply (u0 u1 u2 u3 : (⟨4, ![16, 64, 64, 1]⟩ : Shape).Idx → α)
    (h : Shape.Concatenates
      (([⟨⟨4, ![16, 64, 64, 1]⟩, u0⟩, ⟨⟨4, ![16, 64, 64, 1]⟩, u1⟩, ⟨⟨4, ![16, 64, 64, 1]⟩, u2⟩, ⟨⟨4, ![16, 64, 64, 1]⟩, u3⟩] :
        List ((s : Shape) × (s.Idx → α))).map (·.1)) ⟨4, ![16, 64, 64, 4]⟩ 3)
    (b : Fin 16) (p q : Fin 64) (o : Fin 4) :
    concatenate ⟨4, ![16, 64, 64, 4]⟩ 3
        [⟨⟨4, ![16, 64, 64, 1]⟩, u0⟩, ⟨⟨4, ![16, 64, 64, 1]⟩, u1⟩, ⟨⟨4, ![16, 64, 64, 1]⟩, u2⟩, ⟨⟨4, ![16, 64, 64, 1]⟩, u3⟩] h
        (ix4 b p q o)
      = (match o with | 0 => u0 | 1 => u1 | 2 => u2 | 3 => u3) (ix4 b p q (0 : Fin 1)) := by
  have hi : ∀ c : Fin (⟨4, ![16, 64, 64, 1]⟩ : Shape).rank, c.cast (rfl : (4 : ℕ) = 4) ≠ (3 : Fin 4) →
      ((ix4 b p q (0 : Fin 1) : (⟨4, ![16, 64, 64, 1]⟩ : Shape).Idx) c).val
        = ((ix4 b p q o : (⟨4, ![16, 64, 64, 4]⟩ : Shape).Idx) (c.cast rfl)).val := by
    intro c hc
    match c with
    | ⟨0, _⟩ => rfl
    | ⟨1, _⟩ => rfl
    | ⟨2, _⟩ => rfl
    | ⟨3, _⟩ => exact absurd rfl hc
  match o with
  | 0 => exact concatenate_apply_piece 3 _ h _ 0 (by show 0 < 4; omega) ⟨4, ![16, 64, 64, 1]⟩ u0 rfl rfl 0 rfl _ hi rfl
  | 1 => exact concatenate_apply_piece 3 _ h _ 1 (by show 1 < 4; omega) ⟨4, ![16, 64, 64, 1]⟩ u1 rfl rfl 1 rfl _ hi rfl
  | 2 => exact concatenate_apply_piece 3 _ h _ 2 (by show 2 < 4; omega) ⟨4, ![16, 64, 64, 1]⟩ u2 rfl rfl 2 rfl _ hi rfl
  | 3 => exact concatenate_apply_piece 3 _ h _ 3 (by show 3 < 4; omega) ⟨4, ![16, 64, 64, 1]⟩ u3 rfl rfl 3 rfl _ hi rfl

/-- The image axes flattened into the pixel axis: at `(b, ρ, o)`, the array at `(b, ρ / 64, ρ % 64, o)`. -/
theorem rows_apply (Y : (⟨4, ![16, 64, 64, 4]⟩ : Shape).Idx → α)
    (h : (⟨4, ![16, 64, 64, 4]⟩ : Shape).ShapeCasts ⟨3, ![16, 4096, 4]⟩) (b : Fin 16) (ρ : Fin 4096) (o : Fin 4) :
    shapeCast ⟨3, ![16, 4096, 4]⟩ Y h (ix3 b ρ o) = Y (ix4 b (rowP ρ) (colQ ρ) o) := by
  refine shapeCast_apply Y h (ix3 b ρ o) (ix4 b (rowP ρ) (colQ ρ) o) ?_
  rw [Shape.rowMajor_val_four, Shape.rowMajor_val_three]
  show ((b.val * 64 + ρ.val / 64) * 64 + ρ.val % 64) * 4 + o.val = (b.val * 4096 + ρ.val) * 4 + o.val
  omega

/-- The mask, reshaped twice: at `(b, ρ, u)`, the mask at `(b, 0, ρ / 64, ρ % 64)`. -/
theorem mask_apply (x2 : (⟨4, ![16, 1, 64, 64]⟩ : Shape).Idx → α)
    (h1 : (⟨4, ![16, 1, 64, 64]⟩ : Shape).ShapeCasts ⟨3, ![16, 64, 64]⟩)
    (h2 : (⟨3, ![16, 64, 64]⟩ : Shape).ShapeCasts ⟨3, ![16, 4096, 1]⟩) (b : Fin 16) (ρ : Fin 4096) (u : Fin 1) :
    shapeCast ⟨3, ![16, 4096, 1]⟩ (shapeCast ⟨3, ![16, 64, 64]⟩ x2 h1) h2 (ix3 b ρ u)
      = x2 (ix4 b (0 : Fin 1) (rowP ρ) (colQ ρ)) := by
  refine (shapeCast_apply _ h2 (ix3 b ρ u) (ix3 b (rowP ρ) (colQ ρ)) ?_).trans ?_
  · rw [Shape.rowMajor_val_three, Shape.rowMajor_val_three]
    show (b.val * 64 + ρ.val / 64) * 64 + ρ.val % 64 = (b.val * 4096 + ρ.val) * 1 + u.val
    have := u.isLt
    omega
  · refine shapeCast_apply x2 h1 (ix3 b (rowP ρ) (colQ ρ)) (ix4 b (0 : Fin 1) (rowP ρ) (colQ ρ)) ?_
    rw [Shape.rowMajor_val_four, Shape.rowMajor_val_three]
    show ((b.val * 1 + 0) * 64 + ρ.val / 64) * 64 + ρ.val % 64 = (b.val * 64 + ρ.val / 64) * 64 + ρ.val % 64
    omega

end Cert.GlueLayout
-- ==== Proof.RefIndexRange.lean ====
/-
  The range of a corner index word, as a fact about extended reals.

  A corner index word of the reference is the conversion to a signed 32-bit integer of `c₁ · 64 + c₂`, where each
  `c` is a clip `min 63 (max 0 X)` of an extended real `X`. A clip is a real number in `[0, 63]` whatever `X` is
  (an infinity or a junk value included), so the sum is a real in `[0, 4095]`; its truncation is an integer in
  `[0, 4095]`, far inside the 32-bit range, so the conversion's clamp does nothing and the word is that integer.
-/
import Idealize.ShloMosaic.PureOps.Ideal
import Idealize.ShloMosaic.PureOps.Ideal.Laws

noncomputable section

namespace Cert.RefClosed

open Idealize.ShloMosaic

/-- The float word `0x427C0000` is the real `63`. -/
theorem ofBits_63 : Ideal.ofBits .f32 0x427C0000#32 = ((63 : ℝ) : EReal) := by
  simp [Ideal.ofBits, Ideal.ieee, -EReal.coe_mul]; norm_num

/-- The float word `0x42800000` is the real `64`. -/
theorem ofBits_64 : Ideal.ofBits .f32 0x42800000#32 = ((64 : ℝ) : EReal) := by
  simp [Ideal.ofBits, Ideal.ieee, -EReal.coe_mul]; norm_num

/-- A clip to `[0, 63]` of any extended real is a real number in `[0, 63]`. -/
theorem clip_real (X : EReal) : ∃ r : ℝ, 0 ≤ r ∧ r ≤ 63 ∧ min ((63 : ℝ) : EReal) (max 0 X) = (r : EReal) := by
  have hm : Monotone Real.toEReal := EReal.coe_strictMono.monotone
  induction X using EReal.rec with
  | bot => exact ⟨0, le_refl _, by norm_num, by simp⟩
  | top => exact ⟨63, by norm_num, le_refl _, by simp⟩
  | coe x =>
    refine ⟨min 63 (max 0 x), le_min (by norm_num) (le_max_left _ _), min_le_left _ _, ?_⟩
    rw [hm.map_min, hm.map_max]; rfl

/-- A 32-bit word that is a natural number below `4096`: its unsigned and its signed value are that number. -/
theorem toNat_ofNat_lt (n : ℕ) (h : n < 4096) : (BitVec.ofNat 32 n).toNat = n := by
  rw [BitVec.toNat_ofNat]; omega

theorem toInt_ofNat_lt (n : ℕ) (h : n < 4096) : (BitVec.ofNat 32 n).toInt = (n : ℤ) := by
  rw [BitVec.toInt_eq_toNat_of_lt (by rw [toNat_ofNat_lt n h]; omega), toNat_ofNat_lt n h]

/-- THE INDEX WORD: the conversion of `clip X · 64 + clip Y` is a natural number below `4096`, as a word. -/
theorem word_eq (X Y : EReal) : ∃ n : ℕ, n < 4096 ∧
    Ideal.fptosi 32 (min (Ideal.ofBits .f32 0x427C0000#32) (max (Ideal.ofBits .f32 0x00000000#32) X)
        * Ideal.ofBits .f32 0x42800000#32
      + min (Ideal.ofBits .f32 0x427C0000#32) (max (Ideal.ofBits .f32 0x00000000#32) Y)) = BitVec.ofNat 32 n := by
  rw [ofBits_63, ofBits_64, Ideal.ofBits_zero_f32]
  obtain ⟨r, hr0, hr1, hr⟩ := clip_real X
  obtain ⟨s, hs0, hs1, hs⟩ := clip_real Y
  rw [hr, hs, ← EReal.coe_mul, ← EReal.coe_add]
  have h0 : (0 : ℝ) ≤ r * 64 + s := by positivity
  have h1 : r * 64 + s ≤ 4095 := by linarith
  have hz0 : 0 ≤ ⌊r * 64 + s⌋ := Int.floor_nonneg.2 h0
  have hz1 : ⌊r * 64 + s⌋ ≤ 4095 := by
    have := Int.floor_le (r * 64 + s)
    have h2 : ((⌊r * 64 + s⌋ : ℤ) : ℝ) ≤ ((4095 : ℤ) : ℝ) := by push_cast; linarith
    exact_mod_cast h2
  obtain ⟨n, hn⟩ := Int.eq_ofNat_of_zero_le hz0
  refine ⟨n, by omega, ?_⟩
  unfold Ideal.fptosi
  rw [Ideal.toIntClamped_coe, if_pos h0, hn]
  have hc : max (-((2 ^ (32 - 1) : ℕ) : ℤ)) (min (((2 ^ (32 - 1) : ℕ) : ℤ) - 1) (n : ℤ)) = (n : ℤ) := by
    have hn' : (n : ℤ) ≤ 4095 := by omega
    norm_num
    omega
  rw [hc, BitVec.ofInt_natCast]

/-- The same, as bounds on the word's unsigned and signed values. -/
theorem word_toNat_lt (X Y : EReal) :
    (Ideal.fptosi 32 (min (Ideal.ofBits .f32 0x427C0000#32) (max (Ideal.ofBits .f32 0x00000000#32) X)
        * Ideal.ofBits .f32 0x42800000#32
      + min (Ideal.ofBits .f32 0x427C0000#32) (max (Ideal.ofBits .f32 0x00000000#32) Y))).toNat < 4096 := by
  obtain ⟨n, hn, h⟩ := word_eq X Y
  rw [h, toNat_ofNat_lt n hn]; exact hn

end Cert.RefClosed

end
-- ==== Proof.RefIndex.lean ====
/-
  The reference's four bilinear weights and four corner index words as functions of the flow array, and the range of
  the index words.

  Corner `i`'s index word at `(b, p, q)` is the conversion to a signed 32-bit integer of
  `clip(row) · 64 + clip(column)`, a clip being `min 63 (max 0 ·)`; whatever the two clipped values are, the word is
  below `4096` (the range lemma on extended reals), so it names a column of the volume.
-/
import proofs.«105676_j64072322121836_2_alg».proof.Proof.RefReadP
import proofs.«105676_j64072322121836_2_alg».proof.Proof.RefIndexRange

noncomputable section

namespace Cert.RefClosed

open Cert.ReferenceIdeal Cert.ReferenceIdeal.ReadP Idealize.ShloMosaic

/-- The four bilinear weights, in the order of the corners. -/
def Wst (x1 : (⟨S16x2x64x64, .f32⟩ : BufTy).Contents (Elt Ideal)) : Fin 4 → (⟨3, ![16, 64, 64]⟩ : Shape).Idx → EReal :=
  fun i => match i with
    | 0 => val_main_v24 (F := Ideal) x1
    | 1 => val_main_v29 (F := Ideal) x1
    | 2 => val_main_v34 (F := Ideal) x1
    | 3 => val_main_v37 (F := Ideal) x1

/-- The four corner index words, in the order of the corners. -/
def Ist (x1 : (⟨S16x2x64x64, .f32⟩ : BufTy).Contents (Elt Ideal)) : Fin 4 → (⟨3, ![16, 64, 64]⟩ : Shape).Idx → BitVec 32 :=
  fun i => match i with
    | 0 => val_main_v54 (F := Ideal) x1
    | 1 => val_main_v66 (F := Ideal) x1
    | 2 => val_main_v78 (F := Ideal) x1
    | 3 => val_main_v90 (F := Ideal) x1

/-- Each index word is the conversion of a clipped row times 64 plus a clipped column. -/
theorem v54_eq (x1 : (⟨S16x2x64x64, .f32⟩ : BufTy).Contents (Elt Ideal)) (j : S16x64x64.Idx) :
    val_main_v54 (F := Ideal) x1 j
      = Ideal.fptosi 32 (min (Ideal.ofBits .f32 0x427C0000#32) (max (Ideal.ofBits .f32 0x00000000#32) (val_main_v46 (F := Ideal) x1 j))
          * Ideal.ofBits .f32 0x42800000#32
        + min (Ideal.ofBits .f32 0x427C0000#32) (max (Ideal.ofBits .f32 0x00000000#32) (val_main_v49 (F := Ideal) x1 j))) := rfl

theorem v66_eq (x1 : (⟨S16x2x64x64, .f32⟩ : BufTy).Contents (Elt Ideal)) (j : S16x64x64.Idx) :
    val_main_v66 (F := Ideal) x1 j
      = Ideal.fptosi 32 (min (Ideal.ofBits .f32 0x427C0000#32) (max (Ideal.ofBits .f32 0x00000000#32) (val_main_v58 (F := Ideal) x1 j))
          * Ideal.ofBits .f32 0x42800000#32
        + min (Ideal.ofBits .f32 0x427C0000#32) (max (Ideal.ofBits .f32 0x00000000#32) (val_main_v61 (F := Ideal) x1 j))) := rfl

theorem v78_eq (x1 : (⟨S16x2x64x64, .f32⟩ : BufTy).Contents (Elt Ideal)) (j : S16x64x64.Idx) :
    val_main_v78 (F := Ideal) x1 j
      = Ideal.fptosi 32 (min (Ideal.ofBits .f32 0x427C0000#32) (max (Ideal.ofBits .f32 0x00000000#32) (val_main_v70 (F := Ideal) x1 j))
          * Ideal.ofBits .f32 0x42800000#32
        + min (Ideal.ofBits .f32 0x427C0000#32) (max (Ideal.ofBits .f32 0x00000000#32) (val_main_v73 (F := Ideal) x1 j))) := rfl

theorem v90_eq (x1 : (⟨S16x2x64x64, .f32⟩ : BufTy).Contents (Elt Ideal)) (j : S16x64x64.Idx) :
    val_main_v90 (F := Ideal) x1 j
      = Ideal.fptosi 32 (min (Ideal.ofBits .f32 0x427C0000#32) (max (Ideal.ofBits .f32 0x00000000#32) (val_main_v82 (F := Ideal) x1 j))
          * Ideal.ofBits .f32 0x42800000#32
        + min (Ideal.ofBits .f32 0x427C0000#32) (max (Ideal.ofBits .f32 0x00000000#32) (val_main_v85 (F := Ideal) x1 j))) := rfl

/-- THE INDEX RANGE: every corner index word is below `4096`. -/
theorem idx_lt (x1 : (⟨S16x2x64x64, .f32⟩ : BufTy).Contents (Elt Ideal)) (i : Fin 4) (j : (⟨3, ![16, 64, 64]⟩ : Shape).Idx) :
    (Ist x1 i j).toNat < 4096 := by
  match i with
  | 0 => show (val_main_v54 (F := Ideal) x1 j).toNat < 4096; rw [v54_eq]; exact word_toNat_lt _ _
  | 1 => show (val_main_v66 (F := Ideal) x1 j).toNat < 4096; rw [v66_eq]; exact word_toNat_lt _ _
  | 2 => show (val_main_v78 (F := Ideal) x1 j).toNat < 4096; rw [v78_eq]; exact word_toNat_lt _ _
  | 3 => show (val_main_v90 (F := Ideal) x1 j).toNat < 4096; rw [v90_eq]; exact word_toNat_lt _ _

/-- The same for each stage by name. -/
theorem v54_lt (x1 : (⟨S16x2x64x64, .f32⟩ : BufTy).Contents (Elt Ideal)) (j : S16x64x64.Idx) :
    (val_main_v54 (F := Ideal) x1 j).toNat < 4096 := idx_lt x1 0 j
theorem v66_lt (x1 : (⟨S16x2x64x64, .f32⟩ : BufTy).Contents (Elt Ideal)) (j : S16x64x64.Idx) :
    (val_main_v66 (F := Ideal) x1 j).toNat < 4096 := idx_lt x1 1 j
theorem v78_lt (x1 : (⟨S16x2x64x64, .f32⟩ : BufTy).Contents (Elt Ideal)) (j : S16x64x64.Idx) :
    (val_main_v78 (F := Ideal) x1 j).toNat < 4096 := idx_lt x1 2 j
theorem v90_lt (x1 : (⟨S16x2x64x64, .f32⟩ : BufTy).Contents (Elt Ideal)) (j : S16x64x64.Idx) :
    (val_main_v90 (F := Ideal) x1 j).toNat < 4096 := idx_lt x1 3 j

end Cert.RefClosed

end
-- ==== Proof.KIBlocks.lean ====
/- The four input blocks of the region, read at an index.
   Grid point `(b, k)` (batch entry `b`, row tile `k`; the point's number is `b · 16 + k`) is handed rows
   `k · 256 + r` of batch entry `b` of four arrays: the volume, the stacked index words, the stacked weights and the
   reshaped mask. A block's element `(0, r, j)` is the array's element `(b, k · 256 + r, j)`; the volume is the
   program's argument as launched; the other three arrays are built before the region from the four index-word
   stages, the four weight stages and the mask argument, so that at `(b, ρ, o)` they hold stage `o` at pixel `ρ`'s
   row and column, and the mask at pixel `ρ`. -/
import proofs.«105676_j64072322121836_2_alg».proof.Proof.KIFrameBase
import proofs.«105676_j64072322121836_2_alg».proof.Proof.KIGlue
import proofs.«105676_j64072322121836_2_alg».proof.Proof.GlueLayout
import proofs.«105676_j64072322121836_2_alg».proof.Proof.RefIndex
import proofs.«105676_j64072322121836_2_alg».proof.Proof.Loss
import proofs.«105676_j64072322121836_2_alg».proof.Proof.SumLaws
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Cert.BilinearL1 Cert.SumLaws

/-! ## Where a block sits in its array -/

/-- Window 0's block index at point `t`: batch entry `t / 16`, row tile `t % 16`, the last axis whole. -/
theorem hidx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, win0_0.index t (0 : Fin 3) = t.val / 16 ∧ win0_0.index t (1 : Fin 3) = t.val % 16 ∧ win0_0.index t (2 : Fin 3) = 0)
/-- Window 1's block index at point `t`: batch entry `t / 16`, row tile `t % 16`, the last axis whole. -/
theorem hidx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, win0_1.index t (0 : Fin 3) = t.val / 16 ∧ win0_1.index t (1 : Fin 3) = t.val % 16 ∧ win0_1.index t (2 : Fin 3) = 0)
/-- Window 2's block index at point `t`: batch entry `t / 16`, row tile `t % 16`, the last axis whole. -/
theorem hidx2 : ∀ t : Fin cfg0.N, win0_2.index t (0 : Fin 3) = t.val / 16 ∧ win0_2.index t (1 : Fin 3) = t.val % 16 ∧ win0_2.index t (2 : Fin 3) = 0 :=
  (by decide +kernel : ∀ t : Fin grid0.N, win0_2.index t (0 : Fin 3) = t.val / 16 ∧ win0_2.index t (1 : Fin 3) = t.val % 16 ∧ win0_2.index t (2 : Fin 3) = 0)
/-- Window 3's block index at point `t`: batch entry `t / 16`, row tile `t % 16`, the last axis whole. -/
theorem hidx3 : ∀ t : Fin cfg0.N, win0_3.index t (0 : Fin 3) = t.val / 16 ∧ win0_3.index t (1 : Fin 3) = t.val % 16 ∧ win0_3.index t (2 : Fin 3) = 0 :=
  (by decide +kernel : ∀ t : Fin grid0.N, win0_3.index t (0 : Fin 3) = t.val / 16 ∧ win0_3.index t (1 : Fin 3) = t.val % 16 ∧ win0_3.index t (2 : Fin 3) = 0)

/-- Element `(0, r, j)` of window 0's block at point `(b, k)` is the array's element `(b, k · 256 + r, j)`. -/
theorem iblk0_at (m : (ℓ : Loc nD τ sig) → Buf (Elt Ideal) ℓ) (c : Dev nD) (t : Fin cfg0.N) (b k : Fin 16) (ht : t.val = b.val * 16 + k.val) (r : Fin 256) (j : Fin 4096) :
    (iblk m c 0 t : Vec Ideal S1x256x4096 .f32) (ix3 (0 : Fin 1) r j)
      = (V m c main_arg0 : S16x4096x4096.Idx → EReal) (ix3 b (tileRow k r) j) := by
  unfold iblk
  rw [View.read_apply]
  show V m c main_arg0 _ = V m c main_arg0 _
  refine congrArg _ ?_
  funext a
  apply Fin.ext
  have hk := k.isLt
  match a with
  | ⟨0, _⟩ => show win0_0.index t 0 * 1 + 1 * 0 = b.val; rw [(hidx0 t).1]; omega
  | ⟨1, _⟩ => show win0_0.index t 1 * 256 + 1 * r.val = k.val * 256 + r.val; rw [(hidx0 t).2.1]; omega
  | ⟨2, _⟩ => show win0_0.index t 2 * 4096 + 1 * j.val = j.val; rw [(hidx0 t).2.2]; omega

/-- Element `(0, r, j)` of window 1's block at point `(b, k)` is the array's element `(b, k · 256 + r, j)`. -/
theorem iblk1_at (m : (ℓ : Loc nD τ sig) → Buf (Elt Ideal) ℓ) (c : Dev nD) (t : Fin cfg0.N) (b k : Fin 16) (ht : t.val = b.val * 16 + k.val) (r : Fin 256) (j : Fin 4) :
    (iblk m c 1 t : Vec Ideal S1x256x4 .i32) (ix3 (0 : Fin 1) r j)
      = (V m c main_v89 : S16x4096x4.Idx → BitVec 32) (ix3 b (tileRow k r) j) := by
  unfold iblk
  rw [View.read_apply]
  show V m c main_v89 _ = V m c main_v89 _
  refine congrArg _ ?_
  funext a
  apply Fin.ext
  have hk := k.isLt
  match a with
  | ⟨0, _⟩ => show win0_1.index t 0 * 1 + 1 * 0 = b.val; rw [(hidx1 t).1]; omega
  | ⟨1, _⟩ => show win0_1.index t 1 * 256 + 1 * r.val = k.val * 256 + r.val; rw [(hidx1 t).2.1]; omega
  | ⟨2, _⟩ => show win0_1.index t 2 * 4 + 1 * j.val = j.val; rw [(hidx1 t).2.2]; omega

/-- Element `(0, r, j)` of window 2's block at point `(b, k)` is the array's element `(b, k · 256 + r, j)`. -/
theorem iblk2_at (m : (ℓ : Loc nD τ sig) → Buf (Elt Ideal) ℓ) (c : Dev nD) (t : Fin cfg0.N) (b k : Fin 16) (ht : t.val = b.val * 16 + k.val) (r : Fin 256) (j : Fin 4) :
    (iblk m c 2 t : Vec Ideal S1x256x4 .f32) (ix3 (0 : Fin 1) r j)
      = (V m c main_v83 : S16x4096x4.Idx → EReal) (ix3 b (tileRow k r) j) := by
  unfold iblk
  rw [View.read_apply]
  show V m c main_v83 _ = V m c main_v83 _
  refine congrArg _ ?_
  funext a
  apply Fin.ext
  have hk := k.isLt
  match a with
  | ⟨0, _⟩ => show win0_2.index t 0 * 1 + 1 * 0 = b.val; rw [(hidx2 t).1]; omega
  | ⟨1, _⟩ => show win0_2.index t 1 * 256 + 1 * r.val = k.val * 256 + r.val; rw [(hidx2 t).2.1]; omega
  | ⟨2, _⟩ => show win0_2.index t 2 * 4 + 1 * j.val = j.val; rw [(hidx2 t).2.2]; omega

/-- Element `(0, r, j)` of window 3's block at point `(b, k)` is the array's element `(b, k · 256 + r, j)`. -/
theorem iblk3_at (m : (ℓ : Loc nD τ sig) → Buf (Elt Ideal) ℓ) (c : Dev nD) (t : Fin cfg0.N) (b k : Fin 16) (ht : t.val = b.val * 16 + k.val) (r : Fin 256) (j : Fin 1) :
    (iblk m c 3 t : Vec Ideal S1x256x1 .f32) (ix3 (0 : Fin 1) r j)
      = (V m c main_v91 : S16x4096x1.Idx → EReal) (ix3 b (tileRow k r) j) := by
  unfold iblk
  rw [View.read_apply]
  show V m c main_v91 _ = V m c main_v91 _
  refine congrArg _ ?_
  funext a
  apply Fin.ext
  have hk := k.isLt
  match a with
  | ⟨0, _⟩ => show win0_3.index t 0 * 1 + 1 * 0 = b.val; rw [(hidx3 t).1]; omega
  | ⟨1, _⟩ => show win0_3.index t 1 * 256 + 1 * r.val = k.val * 256 + r.val; rw [(hidx3 t).2.1]; omega
  | ⟨2, _⟩ => show win0_3.index t 2 * 1 + 1 * j.val = j.val; rw [(hidx3 t).2.2]; omega

/-! ## What the three derived arrays hold when the region is entered -/

/-- The stacked index words. -/
theorem V_words (m : (ℓ : Loc nD τ sig) → Buf (Elt Ideal) ℓ) (c : Dev nD) :
    (V m c main_v89 : S16x4096x4.Idx → BitVec 32)
      = (shapeCast S16x4096x4 (concatenate S16x64x64x4 3
          [⟨S16x64x64x1, broadcastInDim S16x64x64x1 ![0, 1, 2] bcast_S16x64x64_S16x64x64x1_0_1_2 (Cert.ReferenceIdeal.ReadP.val_main_v54 (F := Ideal) (m ((c : Thread nD τ).loc main_arg1)))⟩,
           ⟨S16x64x64x1, broadcastInDim S16x64x64x1 ![0, 1, 2] bcast_S16x64x64_S16x64x64x1_0_1_2 (Cert.ReferenceIdeal.ReadP.val_main_v66 (F := Ideal) (m ((c : Thread nD τ).loc main_arg1)))⟩,
           ⟨S16x64x64x1, broadcastInDim S16x64x64x1 ![0, 1, 2] bcast_S16x64x64_S16x64x64x1_0_1_2 (Cert.ReferenceIdeal.ReadP.val_main_v78 (F := Ideal) (m ((c : Thread nD τ).loc main_arg1)))⟩,
           ⟨S16x64x64x1, broadcastInDim S16x64x64x1 ![0, 1, 2] bcast_S16x64x64_S16x64x64x1_0_1_2 (Cert.ReferenceIdeal.ReadP.val_main_v90 (F := Ideal) (m ((c : Thread nD τ).loc main_arg1)))⟩]
          concatenates_S16x64x64x1_S16x64x64x1_S16x64x64x1_S16x64x64x1_S16x64x64x4_d3) shapeCasts_S16x64x64x4_S16x4096x4) :=
  (congrFun (Glue.flat_eq (F := Ideal) (fun b => m (c, b))) (Proc.devRef .tc main_v89)).trans (Glue.words_eq (F := Ideal) (fun b => m (c, b)))

/-- The stacked weights. -/
theorem V_weights (m : (ℓ : Loc nD τ sig) → Buf (Elt Ideal) ℓ) (c : Dev nD) :
    (V m c main_v83 : S16x4096x4.Idx → EReal)
      = (shapeCast S16x4096x4 (concatenate S16x64x64x4 3
          [⟨S16x64x64x1, broadcastInDim S16x64x64x1 ![0, 1, 2] bcast_S16x64x64_S16x64x64x1_0_1_2 (Cert.ReferenceIdeal.ReadP.val_main_v24 (F := Ideal) (m ((c : Thread nD τ).loc main_arg1)))⟩,
           ⟨S16x64x64x1, broadcastInDim S16x64x64x1 ![0, 1, 2] bcast_S16x64x64_S16x64x64x1_0_1_2 (Cert.ReferenceIdeal.ReadP.val_main_v29 (F := Ideal) (m ((c : Thread nD τ).loc main_arg1)))⟩,
           ⟨S16x64x64x1, broadcastInDim S16x64x64x1 ![0, 1, 2] bcast_S16x64x64_S16x64x64x1_0_1_2 (Cert.ReferenceIdeal.ReadP.val_main_v34 (F := Ideal) (m ((c : Thread nD τ).loc main_arg1)))⟩,
           ⟨S16x64x64x1, broadcastInDim S16x64x64x1 ![0, 1, 2] bcast_S16x64x64_S16x64x64x1_0_1_2 (Cert.ReferenceIdeal.ReadP.val_main_v37 (F := Ideal) (m ((c : Thread nD τ).loc main_arg1)))⟩]
          concatenates_S16x64x64x1_S16x64x64x1_S16x64x64x1_S16x64x64x1_S16x64x64x4_d3) shapeCasts_S16x64x64x4_S16x4096x4) :=
  (congrFun (Glue.flat_eq (F := Ideal) (fun b => m (c, b))) (Proc.devRef .tc main_v83)).trans (Glue.weights_eq (F := Ideal) (fun b => m (c, b)))

/-- The reshaped mask. -/
theorem V_mask (m : (ℓ : Loc nD τ sig) → Buf (Elt Ideal) ℓ) (c : Dev nD) :
    (V m c main_v91 : S16x4096x1.Idx → EReal)
      = (shapeCast S16x4096x1 (shapeCast S16x64x64 (m ((c : Thread nD τ).loc main_arg2)) shapeCasts_S16x1x64x64_S16x64x64)
          shapeCasts_S16x64x64_S16x4096x1) :=
  (congrFun (Glue.flat_eq (F := Ideal) (fun b => m (c, b))) (Proc.devRef .tc main_v91)).trans (Glue.mask_eq (F := Ideal) (fun b => m (c, b)))

/-! ## The four payloads at an index -/

/-- The volume's tile: row `r`, column `cc` is the volume's row `k · 256 + r`, column `cc`, of batch entry `b`. -/
theorem blk0 (m : (ℓ : Loc nD τ sig) → Buf (Elt Ideal) ℓ) (c : Dev nD) (t : Fin cfg0.N) (b k : Fin 16) (ht : t.val = b.val * 16 + k.val) (r : Fin 256) (cc : Fin 4096) :
    k0_pay3 (F := Ideal) (iblk m c 0 t) (ix2 r cc)
      = (m ((c : Thread nD τ).loc main_arg0) : (⟨3, ![16, 4096, 4096]⟩ : Shape).Idx → EReal) (ix3 b (tileRow k r) cc) := by
  unfold k0_pay3
  refine (shapeCast_1ab_ab_apply _ _ r cc).trans ?_
  refine (iblk0_at m c t b k ht r cc).trans ?_
  rw [V_main_arg0]

/-- The index words' tile: row `r`, corner `o` is corner `o`'s index word at the pixel `k · 256 + r`. -/
theorem blk1 (m : (ℓ : Loc nD τ sig) → Buf (Elt Ideal) ℓ) (c : Dev nD) (t : Fin cfg0.N) (b k : Fin 16) (ht : t.val = b.val * 16 + k.val) (r : Fin 256) (o : Fin 4) :
    k0_pay4 (F := Ideal) (iblk m c 1 t) (ix2 r o)
      = Cert.RefClosed.Ist (m ((c : Thread nD τ).loc main_arg1)) o (ix3 b (rowP (tileRow k r)) (colQ (tileRow k r))) := by
  unfold k0_pay4
  refine (shapeCast_1ab_ab_apply _ _ r o).trans ?_
  refine (iblk1_at m c t b k ht r o).trans ?_
  refine (congrFun (V_words m c) _).trans ?_
  refine (Cert.GlueLayout.rows_apply _ _ b (tileRow k r) o).trans ?_
  refine (Cert.GlueLayout.stackLast_apply _ _ _ _ _ b (rowP (tileRow k r)) (colQ (tileRow k r)) o).trans ?_
  match o with
  | 0 => exact Cert.GlueLayout.lift1_apply _ _ b _ _ _
  | 1 => exact Cert.GlueLayout.lift1_apply _ _ b _ _ _
  | 2 => exact Cert.GlueLayout.lift1_apply _ _ b _ _ _
  | 3 => exact Cert.GlueLayout.lift1_apply _ _ b _ _ _

/-- The weights' tile: row `r`, corner `o` is corner `o`'s weight at the pixel `k · 256 + r`. -/
theorem blk2 (m : (ℓ : Loc nD τ sig) → Buf (Elt Ideal) ℓ) (c : Dev nD) (t : Fin cfg0.N) (b k : Fin 16) (ht : t.val = b.val * 16 + k.val) (r : Fin 256) (o : Fin 4) :
    k0_pay5 (F := Ideal) (iblk m c 2 t) (ix2 r o)
      = Cert.RefClosed.Wst (m ((c : Thread nD τ).loc main_arg1)) o (ix3 b (rowP (tileRow k r)) (colQ (tileRow k r))) := by
  unfold k0_pay5
  refine (shapeCast_1ab_ab_apply _ _ r o).trans ?_
  refine (iblk2_at m c t b k ht r o).trans ?_
  refine (congrFun (V_weights m c) _).trans ?_
  refine (Cert.GlueLayout.rows_apply _ _ b (tileRow k r) o).trans ?_
  refine (Cert.GlueLayout.stackLast_apply _ _ _ _ _ b (rowP (tileRow k r)) (colQ (tileRow k r)) o).trans ?_
  match o with
  | 0 => exact Cert.GlueLayout.lift1_apply _ _ b _ _ _
  | 1 => exact Cert.GlueLayout.lift1_apply _ _ b _ _ _
  | 2 => exact Cert.GlueLayout.lift1_apply _ _ b _ _ _
  | 3 => exact Cert.GlueLayout.lift1_apply _ _ b _ _ _

/-- The mask's tile: row `r` is the mask at the pixel `k · 256 + r`. -/
theorem blk3 (m : (ℓ : Loc nD τ sig) → Buf (Elt Ideal) ℓ) (c : Dev nD) (t : Fin cfg0.N) (b k : Fin 16) (ht : t.val = b.val * 16 + k.val) (r : Fin 256) :
    k0_pay6 (F := Ideal) (iblk m c 3 t) (ix2 r (0 : Fin 1))
      = (m ((c : Thread nD τ).loc main_arg2) : (⟨4, ![16, 1, 64, 64]⟩ : Shape).Idx → EReal)
          (ix4 b (0 : Fin 1) (rowP (tileRow k r)) (colQ (tileRow k r))) := by
  unfold k0_pay6
  refine (shapeCast_1ab_ab_apply _ _ r (0 : Fin 1)).trans ?_
  refine (iblk3_at m c t b k ht r (0 : Fin 1)).trans ?_
  refine (congrFun (V_mask m c) _).trans ?_
  exact Cert.GlueLayout.mask_apply _ _ _ b (tileRow k r) (0 : Fin 1)

end Cert.KernelIdeal.Hand

end
-- ==== Proof.TileTotal.lean ====
/-
  From tiles to the loss's terms.

  A grid point `(b, k)` holds rows `k · 256 + r` of batch entry `b`: its tile of the volume is the volume's rows
  there, and its index words, weights and mask are those of the pixels `ρ = k · 256 + r`. When every index word is
  below 4096 the one-hot row sum is the volume's entry at the column the word names, so the tile's sum is the sum of the
  loss's terms over the four corners and the tile's 256 pixels; and the 16 tiles of a batch entry together give the sum
  over the corners and all 4096 pixels (sums commute; a sum over tiles and rows is a sum over pixels).
-/
import proofs.«105676_j64072322121836_2_alg».proof.Proof.TileLoss

noncomputable section

namespace Cert.KernelIdeal.TileLoss

open Cert.KernelIdeal Cert.KernelIdeal.Gen Idealize.ShloMosaic Idealize.ShloMosaic.ValueIdx Cert.BilinearL1 Cert.SumLaws

variable [Facts]

/-- With the word below 4096, the one-hot row sum is the row's entry at the word's column. -/
theorem gatherAt_eq (v4 : FVec Ideal S256x4096 .f32) (w : BitVec 32) (hw : w.toNat < 4096) (r : Fin 256) :
    gatherAt v4 w r = v4 (ix2 r (colOf w)) := by
  unfold gatherAt
  rw [onehot_sum w hw (fun c => v4 (ix2 r c))]
  have e : (⟨w.toNat, hw⟩ : Fin 4096) = colOf w := Fin.ext (Nat.mod_eq_of_lt hw).symm
  rw [e]

/-- The tile of grid point `(b, k)` sums the loss's terms of its 256 pixels, over the four corners. -/
theorem tileSum_eq (C : (⟨3, ![16, 4096, 4096]⟩ : Shape).Idx → EReal) (W : Fin 4 → (⟨3, ![16, 64, 64]⟩ : Shape).Idx → EReal)
    (I : Fin 4 → (⟨3, ![16, 64, 64]⟩ : Shape).Idx → BitVec 32) (vis : (⟨4, ![16, 1, 64, 64]⟩ : Shape).Idx → EReal)
    (hI : ∀ o j, (I o j).toNat < 4096) (b k : Fin 16)
    (v4 : FVec Ideal S256x4096 .f32) (v6 : IVec S256x4 32) (v8 : FVec Ideal S256x4 .f32) (v10 : FVec Ideal S256x1 .f32)
    (h4 : ∀ (r : Fin 256) (c : Fin 4096), v4 (ix2 r c) = C (ix3 b (tileRow k r) c))
    (h6 : ∀ (r : Fin 256) (o : Fin 4), v6 (ix2 r o) = I o (ix3 b (rowP (tileRow k r)) (colQ (tileRow k r))))
    (h8 : ∀ (r : Fin 256) (o : Fin 4), v8 (ix2 r o) = W o (ix3 b (rowP (tileRow k r)) (colQ (tileRow k r))))
    (h10 : ∀ r : Fin 256, v10 (ix2 r (0 : Fin 1)) = vis (ix4 b (0 : Fin 1) (rowP (tileRow k r)) (colQ (tileRow k r)))) :
    tileSum v4 v6 v8 v10 = ∑ o : Fin 4, ∑ r : Fin 256, term C W I vis b o (tileRow k r) := by
  unfold tileSum cornerSum
  refine Finset.sum_congr rfl fun o _ => Finset.sum_congr rfl fun r _ => ?_
  unfold term
  rw [gatherAt_eq v4 _ (by rw [h6]; exact hI o _) r, h4, h6, h8, h10]

/-- The 16 tiles of a batch entry give the sum over the corners and all 4096 pixels. -/
theorem batch_total (f : Fin 4 → Fin 4096 → EReal) :
    (∑ k : Fin 16, ∑ o : Fin 4, ∑ r : Fin 256, f o (tileRow k r)) = ∑ o : Fin 4, ∑ ρ : Fin 4096, f o ρ := by
  rw [Finset.sum_comm]
  exact Finset.sum_congr rfl fun o _ => sum_tiles (f o)

end Cert.KernelIdeal.TileLoss

end
-- ==== Proof.RefGather.lean ====
/-
  One `take_along_axis` of the reference, read at an index.

  The gather along axis 1 of a `[16, 4096, 64, 64]` array at start indices `[16, 1, 64, 64, 1]`, with axes 0, 2, 3
  batching: result element `(b, 0, p, q)` is the operand at `(b, k, p, q)`, where `k` is the start index
  `idx (b, 0, p, q, 0)` read as a signed integer and clamped into `[0, 4095]`.
-/
import proofs.«105676_j64072322121836_2_alg».proof.Proof.Gen.ReferenceIdeal
import Idealize.ShloMosaic.Lib.ValueIdx

noncomputable section

namespace Cert.RefClosed

open Cert.ReferenceIdeal Cert.ReferenceIdeal.Gen Idealize.ShloMosaic Idealize.ShloMosaic.ValueIdx

/-- The gather's dimension numbers, under a short name. -/
abbrev gd : GatherDims S16x4096x64x64 S16x1x64x64x1 S16x1x64x64 :=
  gather_S16x4096x64x64_S16x1x64x64x1_S16x1x64x64_n_1_023_023_1_4_1111

/-- On a batching axis the operand coordinate is the result's coordinate on the paired axis. -/
theorem gd_coord0 (j : S16x1x64x64.Idx) (idx : IVec S16x1x64x64x1 32) :
    gd.start j idx 0 + gd.batchCoord j 0 + gd.offCoord j 0 = (j 0).val := by
  have h1 : gd.start j idx 0 = 0 := rfl
  have h2 : gd.batchCoord j 0 = (j 0).val := rfl
  have h3 : gd.offCoord j 0 = 0 := rfl
  rw [h1, h2, h3]; omega

theorem gd_coord2 (j : S16x1x64x64.Idx) (idx : IVec S16x1x64x64x1 32) :
    gd.start j idx 2 + gd.batchCoord j 2 + gd.offCoord j 2 = (j 2).val := by
  have h1 : gd.start j idx 2 = 0 := rfl
  have h2 : gd.batchCoord j 2 = (j 2).val := rfl
  have h3 : gd.offCoord j 2 = 0 := rfl
  rw [h1, h2, h3]; omega

theorem gd_coord3 (j : S16x1x64x64.Idx) (idx : IVec S16x1x64x64x1 32) :
    gd.start j idx 3 + gd.batchCoord j 3 + gd.offCoord j 3 = (j 3).val := by
  have h1 : gd.start j idx 3 = 0 := rfl
  have h2 : gd.batchCoord j 3 = (j 3).val := rfl
  have h3 : gd.offCoord j 3 = 0 := rfl
  rw [h1, h2, h3]; omega

/-- On the gathered axis the operand coordinate is the start index, read signed and clamped into `[0, 4095]`. -/
theorem gd_coord1 (idx : IVec S16x1x64x64x1 32) (b : Fin 16) (p q : Fin 64) :
    gd.start (ix4 b (0 : Fin 1) p q) idx 1 + gd.batchCoord (ix4 b (0 : Fin 1) p q) 1
      + gd.offCoord (ix4 b (0 : Fin 1) p q) 1 = min (idx (ix5 b (0 : Fin 1) p q (0 : Fin 1))).toInt.toNat 4095 := by
  have h2 : gd.batchCoord (ix4 b (0 : Fin 1) p q) 1 = 0 := rfl
  have h3 : gd.offCoord (ix4 b (0 : Fin 1) p q) 1 = 0 := rfl
  rw [h2, h3]
  simp only [Nat.add_zero]
  unfold GatherDims.start
  rw [dif_pos (show (1 : Fin 4) ∈ gd.startIndexMap from by decide)]
  have hsi : gd.siIdx (ix4 b (0 : Fin 1) p q) ⟨List.idxOf (1 : Fin 4) gd.startIndexMap,
      List.idxOf_lt_length_iff.2 (by decide)⟩ = ix5 b (0 : Fin 1) p q (0 : Fin 1) := by
    funext c; refine Fin.ext ?_
    match c with
    | ⟨0, _⟩ => rfl
    | ⟨1, _⟩ => rfl
    | ⟨2, _⟩ => rfl
    | ⟨3, _⟩ => rfl
    | ⟨4, _⟩ => rfl
  rw [hsi]
  rfl

/-- THE GATHER READ AT `(b, 0, p, q)`. -/
theorem gather_apply {α : Type} (x : S16x4096x64x64.Idx → α) (idx : IVec S16x1x64x64x1 32) (b : Fin 16) (p q : Fin 64) :
    Host.gather gd x idx (ix4 b (0 : Fin 1) p q)
      = x (ix4 b (⟨min (idx (ix5 b (0 : Fin 1) p q (0 : Fin 1))).toInt.toNat 4095, by omega⟩ : Fin 4096) p q) := by
  unfold Host.gather
  refine congrArg x ?_
  funext a
  refine Fin.ext ?_
  match a with
  | ⟨0, _⟩ => exact gd_coord0 (ix4 b (0 : Fin 1) p q) idx
  | ⟨1, _⟩ => exact gd_coord1 idx b p q
  | ⟨2, _⟩ => exact gd_coord2 (ix4 b (0 : Fin 1) p q) idx
  | ⟨3, _⟩ => exact gd_coord3 (ix4 b (0 : Fin 1) p q) idx

end Cert.RefClosed

end
-- ==== Proof.RefPieces.lean ====
/-
  Small facts the reference's value needs, none of which mentions the program.

  • A 32-bit word below `4096` is nonnegative as a signed integer and at most `4095`: a wrap of negative indices leaves
    it alone, a range test `0 ≤ w ≤ 4095` answers 1, and clamping its signed value into `[0, 4095]` gives it back.
  • A reduction by `and` from 1 of an array of ones is 1.
  • Four arrays `[16, 1, 64, 64]` stacked along axis 1: element `(b, i, p, q)` is element `(b, 0, p, q)` of array `i`.
  • A sum over a rank-4 index set is the fourfold sum over the coordinates.
-/
import Idealize.ShloMosaic.Lib.Pipeline.Value
import Idealize.ShloMosaic.Lib.ValueIdx
import Idealize.ShloMosaic.Lib.Affine
import Idealize.ShloMosaic.PureOps.Reduce

noncomputable section

open scoped BigOperators

namespace Cert.RefClosed

open Idealize.ShloMosaic Idealize.ShloMosaic.ValueIdx

/-! ## A word below 4096 -/

section Words
variable (w : BitVec 32) (h : w.toNat < 4096)
include h

/-- Its signed value is its unsigned value. -/
theorem word_toInt : w.toInt = (w.toNat : ℤ) := BitVec.toInt_eq_toNat_of_lt (by omega)

/-- It is not negative: the comparison `w < 0` answers 0 … -/
theorem word_slt_zero : IntOp.cmpi .slt w 0#32 = 0#1 := by
  refine eq_zero_of_ne_one fun h1 => ?_
  have h2 := IntOp.cmpi_slt.1 h1
  rw [word_toInt w h, show (0#32 : BitVec 32).toInt = 0 from by decide] at h2
  omega

/-- … so the wrap of a negative index leaves it alone. -/
theorem word_wrap : Scalar.select (IntOp.cmpi .slt w 0#32) (IntOp.addi w 4096#32) w = w := by
  rw [word_slt_zero w h]; exact select_zero _ _

/-- The range test `0 ≤ w` answers 1. -/
theorem word_sge_zero : IntOp.cmpi .sge w 0#32 = 1#1 := by
  refine IntOp.cmpi_sge.2 ?_
  rw [word_toInt w h, show (0#32 : BitVec 32).toInt = 0 from by decide]
  omega

/-- The range test `w ≤ 4095` answers 1. -/
theorem word_sle_max : IntOp.cmpi .sle w 4095#32 = 1#1 := by
  refine IntOp.cmpi_sle.2 ?_
  rw [word_toInt w h, show (4095#32 : BitVec 32).toInt = 4095 from by decide]
  omega

/-- Both tests together answer 1. -/
theorem word_inrange : IntOp.andi (IntOp.cmpi .sge w 0#32) (IntOp.cmpi .sle w 4095#32) = 1#1 := by
  rw [word_sge_zero w h, word_sle_max w h]; decide

/-- Its signed value clamped into `[0, 4095]` is its unsigned value. -/
theorem word_clamp : min w.toInt.toNat 4095 = w.toNat := by
  rw [word_toInt w h, Int.toNat_natCast]; omega

end Words

/-! ## A reduction by `and` of ones -/

/-- A `stablehlo.reduce` by `and` from 1 over an array whose every element is 1 is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize (List.filter (fun i => decide (h.drop i = j)) (List.map s.rowMajor.symm (List.finRange s.numel))) = l
  induction l with
  | nil => rfl
  | cons a l ih =>
    rw [List.foldl_cons, hx a, show IntOp.andi (1#1 : BitVec 1) 1#1 = 1#1 from by decide]
    exact ih

/-! ## Four arrays stacked along axis 1 -/

section Concat
variable {α : Type}

/-- The stacked array `[16, 4, 64, 64]` at `(b, i, p, q)` is array `i` at `(b, 0, p, q)`. -/
theorem concat4_apply (u0 u1 u2 u3 : (⟨4, ![16, 1, 64, 64]⟩ : Shape).Idx → α)
    (h : Shape.Concatenates
      (([⟨⟨4, ![16, 1, 64, 64]⟩, u0⟩, ⟨⟨4, ![16, 1, 64, 64]⟩, u1⟩, ⟨⟨4, ![16, 1, 64, 64]⟩, u2⟩, ⟨⟨4, ![16, 1, 64, 64]⟩, u3⟩] :
        List ((s : Shape) × (s.Idx → α))).map (·.1)) ⟨4, ![16, 4, 64, 64]⟩ 1)
    (b : Fin 16) (i : Fin 4) (p q : Fin 64) :
    concatenate ⟨4, ![16, 4, 64, 64]⟩ 1
        [⟨⟨4, ![16, 1, 64, 64]⟩, u0⟩, ⟨⟨4, ![16, 1, 64, 64]⟩, u1⟩, ⟨⟨4, ![16, 1, 64, 64]⟩, u2⟩, ⟨⟨4, ![16, 1, 64, 64]⟩, u3⟩] h
        (ix4 b i p q)
      = (match i with | 0 => u0 | 1 => u1 | 2 => u2 | 3 => u3) (ix4 b (0 : Fin 1) p q) := by
  have hi : ∀ c : Fin (⟨4, ![16, 1, 64, 64]⟩ : Shape).rank, c.cast (rfl : (4 : ℕ) = 4) ≠ (1 : Fin 4) →
      ((ix4 b (0 : Fin 1) p q : (⟨4, ![16, 1, 64, 64]⟩ : Shape).Idx) c).val
        = ((ix4 b i p q : (⟨4, ![16, 4, 64, 64]⟩ : Shape).Idx) (c.cast rfl)).val := by
    intro c hc
    match c with
    | ⟨0, _⟩ => rfl
    | ⟨1, _⟩ => exact absurd rfl hc
    | ⟨2, _⟩ => rfl
    | ⟨3, _⟩ => rfl
  match i with
  | 0 => exact concatenate_apply_piece 1 _ h _ 0 (by show 0 < 4; omega) ⟨4, ![16, 1, 64, 64]⟩ u0 rfl rfl 0 rfl _ hi rfl
  | 1 => exact concatenate_apply_piece 1 _ h _ 1 (by show 1 < 4; omega) ⟨4, ![16, 1, 64, 64]⟩ u1 rfl rfl 1 rfl _ hi rfl
  | 2 => exact concatenate_apply_piece 1 _ h _ 2 (by show 2 < 4; omega) ⟨4, ![16, 1, 64, 64]⟩ u2 rfl rfl 2 rfl _ hi rfl
  | 3 => exact concatenate_apply_piece 1 _ h _ 3 (by show 3 < 4; omega) ⟨4, ![16, 1, 64, 64]⟩ u3 rfl rfl 3 rfl _ hi rfl

end Concat

/-! ## A sum over a rank-4 index set -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.RefClosed

end
-- ==== Proof.RefCorner.lean ====
/-
  Each of the reference's four `take_along_axis` calls, read at an index.

  The volume is transposed and reshaped to `[16, 4096, 64, 64]`: its element `(b, k, p, q)` is the volume's
  `(b, p · 64 + q, k)`. A call takes an index word per `(b, p, q)`; because the word is below `4096` the wrap of
  negative indices does nothing, the range mask is 1, and the gather's clamp does nothing, so the call's result at
  `(b, 0, p, q)` is the volume at row `p · 64 + q` and the column the word names.
-/
import proofs.«105676_j64072322121836_2_alg».proof.Proof.RefReadP
import proofs.«105676_j64072322121836_2_alg».proof.Proof.RefIndex
import proofs.«105676_j64072322121836_2_alg».proof.Proof.RefGather
import proofs.«105676_j64072322121836_2_alg».proof.Proof.RefPieces
import proofs.«105676_j64072322121836_2_alg».proof.Proof.Loss

noncomputable section

namespace Cert.RefClosed

open Cert.ReferenceIdeal Cert.ReferenceIdeal.Gen Cert.ReferenceIdeal.ReadP Idealize.ShloMosaic Idealize.ShloMosaic.ValueIdx Cert.BilinearL1

/-! ## The volume, transposed and reshaped -/

/-- Element `(b, k, p, q)` of the reshaped transpose is the volume's `(b, p · 64 + q, k)`. -/
theorem v44_at (x0 : (⟨S16x4096x4096, .f32⟩ : BufTy).Contents (Elt Ideal)) (b : Fin 16) (k : Fin 4096) (p q : Fin 64) :
    val_main_v44 (F := Ideal) x0 (ix4 b k p q) = x0 (ix3 b (pix p q) k) := by
  rw [val_main_v44_apply, val_main_v43_apply]
  refine congrArg x0 ?_
  funext a
  refine Fin.ext ?_
  have hb := b.isLt; have hk := k.isLt; have hp := p.isLt; have hq := q.isLt
  match a with
  | ⟨0, _⟩ => show (((b.val * 4096 + k.val) * 64 + p.val) * 64 + q.val) / 16777216 = b.val; omega
  | ⟨1, _⟩ => show (((b.val * 4096 + k.val) * 64 + p.val) * 64 + q.val) % 4096 = p.val * 64 + q.val; omega
  | ⟨2, _⟩ => show (((b.val * 4096 + k.val) * 64 + p.val) * 64 + q.val) / 4096 % 4096 = k.val; omega

/-! ## The first corner -/

/-- The wrap of negative indices leaves the index alone: it is below `4096`. -/
theorem call2_v4_eq (x1 : (⟨S16x2x64x64, .f32⟩ : BufTy).Contents (Elt Ideal)) (k : S16x1x64x64.Idx) :
    val_main_call2_v4 (F := Ideal) x1 k = val_main_v55 (F := Ideal) x1 k := by
  rw [val_main_call2_v4_apply, val_main_call2_v1_apply, val_main_call2_v3_apply, val_main_call2_v0_apply,
    val_main_call2_v2_apply, val_main_call2_c_apply, val_main_call2_c_0_apply]
  exact word_wrap _ (by rw [val_main_v55_apply]; exact v54_lt x1 _)

/-- The start indices are the index words. -/
theorem call2_v5_eq (x1 : (⟨S16x2x64x64, .f32⟩ : BufTy).Contents (Elt Ideal)) (i : S16x1x64x64x1.Idx) :
    val_main_call2_v5 (F := Ideal) x1 i = val_main_v54 (F := Ideal) x1 (idx_main_v55 (idx_main_call2_v5 i)) := by
  rw [val_main_call2_v5_apply, call2_v4_eq, val_main_v55_apply]

/-- The in-range mask is 1 everywhere. -/
theorem call2_v12_one (x1 : (⟨S16x2x64x64, .f32⟩ : BufTy).Contents (Elt Ideal)) (i : S16x1x64x64.Idx) : val_main_call2_v12 (F := Ideal) x1 i = 1#1 := by
  unfold val_main_call2_v12
  refine reduce_andi_ones _ _ _ _ (fun i5 => ?_) rfl i
  rw [val_main_call2_v11_apply, val_main_call2_v7_apply, val_main_call2_v10_apply, val_main_call2_v6_apply,
    val_main_call2_c_2_apply, val_main_call2_v9_apply, val_main_call2_v8_apply, val_main_call2_c_1_apply]
  exact word_inrange _ (by rw [call2_v5_eq]; exact v54_lt x1 _)

/-- The gather reads, at `(b, 0, p, q)`, row `p · 64 + q` of the volume at the column the index word names. -/
theorem call2_v13_at (x0 : (⟨S16x4096x4096, .f32⟩ : BufTy).Contents (Elt Ideal)) (x1 : (⟨S16x2x64x64, .f32⟩ : BufTy).Contents (Elt Ideal)) (b : Fin 16) (p q : Fin 64) :
    val_main_call2_v13 (F := Ideal) x0 x1 (ix4 b (0 : Fin 1) p q)
      = x0 (ix3 b (pix p q) (colOf (val_main_v54 (F := Ideal) x1 (ix3 b p q)))) := by
  have hw : val_main_call2_v5 (F := Ideal) x1 (ix5 b (0 : Fin 1) p q (0 : Fin 1)) = val_main_v54 (F := Ideal) x1 (ix3 b p q) := by
    rw [call2_v5_eq]
    refine congrArg _ ?_
    funext a
    refine Fin.ext ?_
    have hb := b.isLt; have hp := p.isLt; have hq := q.isLt
    match a with
    | ⟨0, _⟩ => show ((((b.val * 1 + 0) * 64 + p.val) * 64 + q.val) * 1 + 0) / 4096 = b.val; omega
    | ⟨1, _⟩ => show ((((b.val * 1 + 0) * 64 + p.val) * 64 + q.val) * 1 + 0) / 64 % 64 = p.val; omega
    | ⟨2, _⟩ => show ((((b.val * 1 + 0) * 64 + p.val) * 64 + q.val) * 1 + 0) % 64 = q.val; omega
  unfold val_main_call2_v13
  refine (gather_apply _ _ b p q).trans ?_
  rw [v44_at]
  refine congrArg x0 (congrArg (ix3 b (pix p q)) (Fin.ext ?_))
  show min (val_main_call2_v5 (F := Ideal) x1 (ix5 b (0 : Fin 1) p q (0 : Fin 1))).toInt.toNat 4095
    = (val_main_v54 (F := Ideal) x1 (ix3 b p q)).toNat % 4096
  rw [hw, word_clamp _ (v54_lt x1 _), Nat.mod_eq_of_lt (v54_lt x1 _)]

/-- The call's result: the mask selects the gathered value. -/
theorem v56_at (x0 : (⟨S16x4096x4096, .f32⟩ : BufTy).Contents (Elt Ideal)) (x1 : (⟨S16x2x64x64, .f32⟩ : BufTy).Contents (Elt Ideal)) (b : Fin 16) (p q : Fin 64) :
    val_main_v56 (F := Ideal) x0 x1 (ix4 b (0 : Fin 1) p q)
      = x0 (ix3 b (pix p q) (colOf (val_main_v54 (F := Ideal) x1 (ix3 b p q)))) := by
  rw [val_main_v56_apply, call2_v12_one, select_one, call2_v13_at]

/-! ## The second corner -/

/-- The wrap of negative indices leaves the index alone: it is below `4096`. -/
theorem call5_v4_eq (x1 : (⟨S16x2x64x64, .f32⟩ : BufTy).Contents (Elt Ideal)) (k : S16x1x64x64.Idx) :
    val_main_call5_v4 (F := Ideal) x1 k = val_main_v67 (F := Ideal) x1 k := by
  rw [val_main_call5_v4_apply, val_main_call5_v1_apply, val_main_call5_v3_apply, val_main_call5_v0_apply,
    val_main_call5_v2_apply, val_main_call5_c_apply, val_main_call5_c_0_apply]
  exact word_wrap _ (by rw [val_main_v67_apply]; exact v66_lt x1 _)

/-- The start indices are the index words. -/
theorem call5_v5_eq (x1 : (⟨S16x2x64x64, .f32⟩ : BufTy).Contents (Elt Ideal)) (i : S16x1x64x64x1.Idx) :
    val_main_call5_v5 (F := Ideal) x1 i = val_main_v66 (F := Ideal) x1 (idx_main_v67 (idx_main_call5_v5 i)) := by
  rw [val_main_call5_v5_apply, call5_v4_eq, val_main_v67_apply]

/-- The in-range mask is 1 everywhere. -/
theorem call5_v12_one (x1 : (⟨S16x2x64x64, .f32⟩ : BufTy).Contents (Elt Ideal)) (i : S16x1x64x64.Idx) : val_main_call5_v12 (F := Ideal) x1 i = 1#1 := by
  unfold val_main_call5_v12
  refine reduce_andi_ones _ _ _ _ (fun i5 => ?_) rfl i
  rw [val_main_call5_v11_apply, val_main_call5_v7_apply, val_main_call5_v10_apply, val_main_call5_v6_apply,
    val_main_call5_c_2_apply, val_main_call5_v9_apply, val_main_call5_v8_apply, val_main_call5_c_1_apply]
  exact word_inrange _ (by rw [call5_v5_eq]; exact v66_lt x1 _)

/-- The gather reads, at `(b, 0, p, q)`, row `p · 64 + q` of the volume at the column the index word names. -/
theorem call5_v13_at (x0 : (⟨S16x4096x4096, .f32⟩ : BufTy).Contents (Elt Ideal)) (x1 : (⟨S16x2x64x64, .f32⟩ : BufTy).Contents (Elt Ideal)) (b : Fin 16) (p q : Fin 64) :
    val_main_call5_v13 (F := Ideal) x0 x1 (ix4 b (0 : Fin 1) p q)
      = x0 (ix3 b (pix p q) (colOf (val_main_v66 (F := Ideal) x1 (ix3 b p q)))) := by
  have hw : val_main_call5_v5 (F := Ideal) x1 (ix5 b (0 : Fin 1) p q (0 : Fin 1)) = val_main_v66 (F := Ideal) x1 (ix3 b p q) := by
    rw [call5_v5_eq]
    refine congrArg _ ?_
    funext a
    refine Fin.ext ?_
    have hb := b.isLt; have hp := p.isLt; have hq := q.isLt
    match a with
    | ⟨0, _⟩ => show ((((b.val * 1 + 0) * 64 + p.val) * 64 + q.val) * 1 + 0) / 4096 = b.val; omega
    | ⟨1, _⟩ => show ((((b.val * 1 + 0) * 64 + p.val) * 64 + q.val) * 1 + 0) / 64 % 64 = p.val; omega
    | ⟨2, _⟩ => show ((((b.val * 1 + 0) * 64 + p.val) * 64 + q.val) * 1 + 0) % 64 = q.val; omega
  unfold val_main_call5_v13
  refine (gather_apply _ _ b p q).trans ?_
  rw [v44_at]
  refine congrArg x0 (congrArg (ix3 b (pix p q)) (Fin.ext ?_))
  show min (val_main_call5_v5 (F := Ideal) x1 (ix5 b (0 : Fin 1) p q (0 : Fin 1))).toInt.toNat 4095
    = (val_main_v66 (F := Ideal) x1 (ix3 b p q)).toNat % 4096
  rw [hw, word_clamp _ (v66_lt x1 _), Nat.mod_eq_of_lt (v66_lt x1 _)]

/-- The call's result: the mask selects the gathered value. -/
theorem v68_at (x0 : (⟨S16x4096x4096, .f32⟩ : BufTy).Contents (Elt Ideal)) (x1 : (⟨S16x2x64x64, .f32⟩ : BufTy).Contents (Elt Ideal)) (b : Fin 16) (p q : Fin 64) :
    val_main_v68 (F := Ideal) x0 x1 (ix4 b (0 : Fin 1) p q)
      = x0 (ix3 b (pix p q) (colOf (val_main_v66 (F := Ideal) x1 (ix3 b p q)))) := by
  rw [val_main_v68_apply, call5_v12_one, select_one, call5_v13_at]

/-! ## The third corner -/

/-- The wrap of negative indices leaves the index alone: it is below `4096`. -/
theorem call8_v4_eq (x1 : (⟨S16x2x64x64, .f32⟩ : BufTy).Contents (Elt Ideal)) (k : S16x1x64x64.Idx) :
    val_main_call8_v4 (F := Ideal) x1 k = val_main_v79 (F := Ideal) x1 k := by
  rw [val_main_call8_v4_apply, val_main_call8_v1_apply, val_main_call8_v3_apply, val_main_call8_v0_apply,
    val_main_call8_v2_apply, val_main_call8_c_apply, val_main_call8_c_0_apply]
  exact word_wrap _ (by rw [val_main_v79_apply]; exact v78_lt x1 _)

/-- The start indices are the index words. -/
theorem call8_v5_eq (x1 : (⟨S16x2x64x64, .f32⟩ : BufTy).Contents (Elt Ideal)) (i : S16x1x64x64x1.Idx) :
    val_main_call8_v5 (F := Ideal) x1 i = val_main_v78 (F := Ideal) x1 (idx_main_v79 (idx_main_call8_v5 i)) := by
  rw [val_main_call8_v5_apply, call8_v4_eq, val_main_v79_apply]

/-- The in-range mask is 1 everywhere. -/
theorem call8_v12_one (x1 : (⟨S16x2x64x64, .f32⟩ : BufTy).Contents (Elt Ideal)) (i : S16x1x64x64.Idx) : val_main_call8_v12 (F := Ideal) x1 i = 1#1 := by
  unfold val_main_call8_v12
  refine reduce_andi_ones _ _ _ _ (fun i5 => ?_) rfl i
  rw [val_main_call8_v11_apply, val_main_call8_v7_apply, val_main_call8_v10_apply, val_main_call8_v6_apply,
    val_main_call8_c_2_apply, val_main_call8_v9_apply, val_main_call8_v8_apply, val_main_call8_c_1_apply]
  exact word_inrange _ (by rw [call8_v5_eq]; exact v78_lt x1 _)

/-- The gather reads, at `(b, 0, p, q)`, row `p · 64 + q` of the volume at the column the index word names. -/
theorem call8_v13_at (x0 : (⟨S16x4096x4096, .f32⟩ : BufTy).Contents (Elt Ideal)) (x1 : (⟨S16x2x64x64, .f32⟩ : BufTy).Contents (Elt Ideal)) (b : Fin 16) (p q : Fin 64) :
    val_main_call8_v13 (F := Ideal) x0 x1 (ix4 b (0 : Fin 1) p q)
      = x0 (ix3 b (pix p q) (colOf (val_main_v78 (F := Ideal) x1 (ix3 b p q)))) := by
  have hw : val_main_call8_v5 (F := Ideal) x1 (ix5 b (0 : Fin 1) p q (0 : Fin 1)) = val_main_v78 (F := Ideal) x1 (ix3 b p q) := by
    rw [call8_v5_eq]
    refine congrArg _ ?_
    funext a
    refine Fin.ext ?_
    have hb := b.isLt; have hp := p.isLt; have hq := q.isLt
    match a with
    | ⟨0, _⟩ => show ((((b.val * 1 + 0) * 64 + p.val) * 64 + q.val) * 1 + 0) / 4096 = b.val; omega
    | ⟨1, _⟩ => show ((((b.val * 1 + 0) * 64 + p.val) * 64 + q.val) * 1 + 0) / 64 % 64 = p.val; omega
    | ⟨2, _⟩ => show ((((b.val * 1 + 0) * 64 + p.val) * 64 + q.val) * 1 + 0) % 64 = q.val; omega
  unfold val_main_call8_v13
  refine (gather_apply _ _ b p q).trans ?_
  rw [v44_at]
  refine congrArg x0 (congrArg (ix3 b (pix p q)) (Fin.ext ?_))
  show min (val_main_call8_v5 (F := Ideal) x1 (ix5 b (0 : Fin 1) p q (0 : Fin 1))).toInt.toNat 4095
    = (val_main_v78 (F := Ideal) x1 (ix3 b p q)).toNat % 4096
  rw [hw, word_clamp _ (v78_lt x1 _), Nat.mod_eq_of_lt (v78_lt x1 _)]

/-- The call's result: the mask selects the gathered value. -/
theorem v80_at (x0 : (⟨S16x4096x4096, .f32⟩ : BufTy).Contents (Elt Ideal)) (x1 : (⟨S16x2x64x64, .f32⟩ : BufTy).Contents (Elt Ideal)) (b : Fin 16) (p q : Fin 64) :
    val_main_v80 (F := Ideal) x0 x1 (ix4 b (0 : Fin 1) p q)
      = x0 (ix3 b (pix p q) (colOf (val_main_v78 (F := Ideal) x1 (ix3 b p q)))) := by
  rw [val_main_v80_apply, call8_v12_one, select_one, call8_v13_at]

/-! ## The fourth corner -/

/-- The wrap of negative indices leaves the index alone: it is below `4096`. -/
theorem call11_v4_eq (x1 : (⟨S16x2x64x64, .f32⟩ : BufTy).Contents (Elt Ideal)) (k : S16x1x64x64.Idx) :
    val_main_call11_v4 (F := Ideal) x1 k = val_main_v91 (F := Ideal) x1 k := by
  rw [val_main_call11_v4_apply, val_main_call11_v1_apply, val_main_call11_v3_apply, val_main_call11_v0_apply,
    val_main_call11_v2_apply, val_main_call11_c_apply, val_main_call11_c_0_apply]
  exact word_wrap _ (by rw [val_main_v91_apply]; exact v90_lt x1 _)

/-- The start indices are the index words. -/
theorem call11_v5_eq (x1 : (⟨S16x2x64x64, .f32⟩ : BufTy).Contents (Elt Ideal)) (i : S16x1x64x64x1.Idx) :
    val_main_call11_v5 (F := Ideal) x1 i = val_main_v90 (F := Ideal) x1 (idx_main_v91 (idx_main_call11_v5 i)) := by
  rw [val_main_call11_v5_apply, call11_v4_eq, val_main_v91_apply]

/-- The in-range mask is 1 everywhere. -/
theorem call11_v12_one (x1 : (⟨S16x2x64x64, .f32⟩ : BufTy).Contents (Elt Ideal)) (i : S16x1x64x64.Idx) : val_main_call11_v12 (F := Ideal) x1 i = 1#1 := by
  unfold val_main_call11_v12
  refine reduce_andi_ones _ _ _ _ (fun i5 => ?_) rfl i
  rw [val_main_call11_v11_apply, val_main_call11_v7_apply, val_main_call11_v10_apply, val_main_call11_v6_apply,
    val_main_call11_c_2_apply, val_main_call11_v9_apply, val_main_call11_v8_apply, val_main_call11_c_1_apply]
  exact word_inrange _ (by rw [call11_v5_eq]; exact v90_lt x1 _)

/-- The gather reads, at `(b, 0, p, q)`, row `p · 64 + q` of the volume at the column the index word names. -/
theorem call11_v13_at (x0 : (⟨S16x4096x4096, .f32⟩ : BufTy).Contents (Elt Ideal)) (x1 : (⟨S16x2x64x64, .f32⟩ : BufTy).Contents (Elt Ideal)) (b : Fin 16) (p q : Fin 64) :
    val_main_call11_v13 (F := Ideal) x0 x1 (ix4 b (0 : Fin 1) p q)
      = x0 (ix3 b (pix p q) (colOf (val_main_v90 (F := Ideal) x1 (ix3 b p q)))) := by
  have hw : val_main_call11_v5 (F := Ideal) x1 (ix5 b (0 : Fin 1) p q (0 : Fin 1)) = val_main_v90 (F := Ideal) x1 (ix3 b p q) := by
    rw [call11_v5_eq]
    refine congrArg _ ?_
    funext a
    refine Fin.ext ?_
    have hb := b.isLt; have hp := p.isLt; have hq := q.isLt
    match a with
    | ⟨0, _⟩ => show ((((b.val * 1 + 0) * 64 + p.val) * 64 + q.val) * 1 + 0) / 4096 = b.val; omega
    | ⟨1, _⟩ => show ((((b.val * 1 + 0) * 64 + p.val) * 64 + q.val) * 1 + 0) / 64 % 64 = p.val; omega
    | ⟨2, _⟩ => show ((((b.val * 1 + 0) * 64 + p.val) * 64 + q.val) * 1 + 0) % 64 = q.val; omega
  unfold val_main_call11_v13
  refine (gather_apply _ _ b p q).trans ?_
  rw [v44_at]
  refine congrArg x0 (congrArg (ix3 b (pix p q)) (Fin.ext ?_))
  show min (val_main_call11_v5 (F := Ideal) x1 (ix5 b (0 : Fin 1) p q (0 : Fin 1))).toInt.toNat 4095
    = (val_main_v90 (F := Ideal) x1 (ix3 b p q)).toNat % 4096
  rw [hw, word_clamp _ (v90_lt x1 _), Nat.mod_eq_of_lt (v90_lt x1 _)]

/-- The call's result: the mask selects the gathered value. -/
theorem v92_at (x0 : (⟨S16x4096x4096, .f32⟩ : BufTy).Contents (Elt Ideal)) (x1 : (⟨S16x2x64x64, .f32⟩ : BufTy).Contents (Elt Ideal)) (b : Fin 16) (p q : Fin 64) :
    val_main_v92 (F := Ideal) x0 x1 (ix4 b (0 : Fin 1) p q)
      = x0 (ix3 b (pix p q) (colOf (val_main_v90 (F := Ideal) x1 (ix3 b p q)))) := by
  rw [val_main_v92_apply, call11_v12_one, select_one, call11_v13_at]

end Cert.RefClosed

end
-- ==== Proof.RefPixSum.lean ====
/-
  A sum over the 4096 pixels is the double sum over the 64 rows and 64 columns of the image: the pixel of row `p` and
  column `q` is `p · 64 + q`, and every pixel is of that form exactly once.
-/
import proofs.«105676_j64072322121836_2_alg».proof.Proof.Loss

noncomputable section

open scoped BigOperators

namespace Cert.RefClosed

open Cert.BilinearL1

/-- Pairs (row, column) and pixels correspond one to one. -/
def pixEquiv : Fin 64 × Fin 64 ≃ Fin 4096 where
  toFun x := pix x.1 x.2
  invFun ρ := (rowP ρ, colQ ρ)
  left_inv x := Prod.ext (rowP_pix x.1 x.2) (colQ_pix x.1 x.2)
  right_inv ρ := pix_rowP_colQ ρ

/-- The sum over the pixels, row by row. -/
theorem sum_pix {M : Type*} [AddCommMonoid M] (g : Fin 4096 → M) :
    ∑ ρ : Fin 4096, g ρ = ∑ p : Fin 64, ∑ q : Fin 64, g (pix p q) := by
  rw [← Equiv.sum_comp pixEquiv g, Fintype.sum_prod_type]
  rfl

end Cert.RefClosed

end
-- ==== Proof.RefSum.lean ====
/-
  The reference's result is the closed sum of the specification.

  The stacked gathered values at `(b, i, p, q)` are corner `i`'s sample of row `p · 64 + q`, the stacked weights are
  corner `i`'s weight, and the mask is broadcast along the corners; so the absolute difference at `(b, i, p, q)` is the
  specification's term for batch entry `b`, corner `i` and pixel `p · 64 + q`. The sum over all `(b, i, p, q)` from zero
  is then the specification's sum over `b`, `i` and the pixels, and both are divided by the same constant.
-/
import proofs.«105676_j64072322121836_2_alg».proof.Proof.RefReadP
import proofs.«105676_j64072322121836_2_alg».proof.Proof.RefCorner
import proofs.«105676_j64072322121836_2_alg».proof.Proof.RefPixSum

noncomputable section

open scoped BigOperators

namespace Cert.RefClosed

open Cert.ReferenceIdeal Cert.ReferenceIdeal.Gen Cert.ReferenceIdeal.ReadP Idealize.ShloMosaic Idealize.ShloMosaic.ValueIdx Cert.BilinearL1

/-- The stacked gathered values: corner `i`'s sample. -/
theorem v93_at (x0 : (⟨S16x4096x4096, .f32⟩ : BufTy).Contents (Elt Ideal)) (x1 : (⟨S16x2x64x64, .f32⟩ : BufTy).Contents (Elt Ideal)) (b : Fin 16) (i : Fin 4) (p q : Fin 64) :
    val_main_v93 (F := Ideal) x0 x1 (ix4 b i p q) = x0 (ix3 b (pix p q) (colOf (Ist x1 i (ix3 b p q)))) := by
  unfold val_main_v93
  refine (concat4_apply _ _ _ _ _ b i p q).trans ?_
  match i with
  | 0 => exact v56_at x0 x1 b p q
  | 1 => exact v68_at x0 x1 b p q
  | 2 => exact v80_at x0 x1 b p q
  | 3 => exact v92_at x0 x1 b p q

/-- A weight broadcast to `[16, 1, 64, 64]`, at `(b, 0, p, q)`. -/
theorem v38_at (x1 : (⟨S16x2x64x64, .f32⟩ : BufTy).Contents (Elt Ideal)) (b : Fin 16) (p q : Fin 64) :
    val_main_v38 (F := Ideal) x1 (ix4 b (0 : Fin 1) p q) = val_main_v24 (F := Ideal) x1 (ix3 b p q) := by
  rw [val_main_v38_apply]; refine congrArg _ ?_; funext a; match a with | ⟨0, _⟩ => rfl | ⟨1, _⟩ => rfl | ⟨2, _⟩ => rfl
theorem v39_at (x1 : (⟨S16x2x64x64, .f32⟩ : BufTy).Contents (Elt Ideal)) (b : Fin 16) (p q : Fin 64) :
    val_main_v39 (F := Ideal) x1 (ix4 b (0 : Fin 1) p q) = val_main_v29 (F := Ideal) x1 (ix3 b p q) := by
  rw [val_main_v39_apply]; refine congrArg _ ?_; funext a; match a with | ⟨0, _⟩ => rfl | ⟨1, _⟩ => rfl | ⟨2, _⟩ => rfl
theorem v40_at (x1 : (⟨S16x2x64x64, .f32⟩ : BufTy).Contents (Elt Ideal)) (b : Fin 16) (p q : Fin 64) :
    val_main_v40 (F := Ideal) x1 (ix4 b (0 : Fin 1) p q) = val_main_v34 (F := Ideal) x1 (ix3 b p q) := by
  rw [val_main_v40_apply]; refine congrArg _ ?_; funext a; match a with | ⟨0, _⟩ => rfl | ⟨1, _⟩ => rfl | ⟨2, _⟩ => rfl
theorem v41_at (x1 : (⟨S16x2x64x64, .f32⟩ : BufTy).Contents (Elt Ideal)) (b : Fin 16) (p q : Fin 64) :
    val_main_v41 (F := Ideal) x1 (ix4 b (0 : Fin 1) p q) = val_main_v37 (F := Ideal) x1 (ix3 b p q) := by
  rw [val_main_v41_apply]; refine congrArg _ ?_; funext a; match a with | ⟨0, _⟩ => rfl | ⟨1, _⟩ => rfl | ⟨2, _⟩ => rfl

/-- The stacked weights: corner `i`'s weight. -/
theorem v42_at (x1 : (⟨S16x2x64x64, .f32⟩ : BufTy).Contents (Elt Ideal)) (b : Fin 16) (i : Fin 4) (p q : Fin 64) :
    val_main_v42 (F := Ideal) x1 (ix4 b i p q) = Wst x1 i (ix3 b p q) := by
  unfold val_main_v42
  refine (concat4_apply _ _ _ _ _ b i p q).trans ?_
  match i with
  | 0 => exact v38_at x1 b p q
  | 1 => exact v39_at x1 b p q
  | 2 => exact v40_at x1 b p q
  | 3 => exact v41_at x1 b p q

/-- The mask broadcast along the corners. -/
theorem v94_at (x2 : (⟨S16x1x64x64, .f32⟩ : BufTy).Contents (Elt Ideal)) (b : Fin 16) (i : Fin 4) (p q : Fin 64) :
    val_main_v94 (F := Ideal) x2 (ix4 b i p q) = x2 (ix4 b (0 : Fin 1) p q) := by
  rw [val_main_v94_apply]; refine congrArg x2 ?_; funext a; match a with | ⟨0, _⟩ => rfl | ⟨1, _⟩ => rfl | ⟨2, _⟩ => rfl | ⟨3, _⟩ => rfl
theorem v96_at (x2 : (⟨S16x1x64x64, .f32⟩ : BufTy).Contents (Elt Ideal)) (b : Fin 16) (i : Fin 4) (p q : Fin 64) :
    val_main_v96 (F := Ideal) x2 (ix4 b i p q) = x2 (ix4 b (0 : Fin 1) p q) := by
  rw [val_main_v96_apply]; refine congrArg x2 ?_; funext a; match a with | ⟨0, _⟩ => rfl | ⟨1, _⟩ => rfl | ⟨2, _⟩ => rfl | ⟨3, _⟩ => rfl

/-- The absolute difference at `(b, i, p, q)` is the specification's term at pixel `p · 64 + q`. -/
theorem v99_at (x0 : (⟨S16x4096x4096, .f32⟩ : BufTy).Contents (Elt Ideal)) (x1 : (⟨S16x2x64x64, .f32⟩ : BufTy).Contents (Elt Ideal)) (x2 : (⟨S16x1x64x64, .f32⟩ : BufTy).Contents (Elt Ideal)) (b : Fin 16) (i : Fin 4) (p q : Fin 64) :
    val_main_v99 (F := Ideal) x0 x1 x2 (ix4 b i p q) = term x0 (Wst x1) (Ist x1) x2 b i (pix p q) := by
  rw [val_main_v99_apply, val_main_v98_apply, val_main_v95_apply, val_main_v97_apply, v93_at, v42_at, v94_at, v96_at]
  unfold term absE
  rw [rowP_pix, colQ_pix]
  rfl

/-- THE REFERENCE'S RESULT: the specification's loss of the volume, the reference's weights and index words, and the mask. -/
theorem result_eq (x0 : (⟨S16x4096x4096, .f32⟩ : BufTy).Contents (Elt Ideal)) (x1 : (⟨S16x2x64x64, .f32⟩ : BufTy).Contents (Elt Ideal)) (x2 : (⟨S16x1x64x64, .f32⟩ : BufTy).Contents (Elt Ideal)) :
    val_main_v101 (F := Ideal) x0 x1 x2 = fun _ => total x0 (Wst x1) (Ist x1) x2 := by
  funext i0
  rw [val_main_v101_apply, val_main_v100_apply, val_main_cst_38_apply, val_main_cst_37_apply]
  show Ideal.div (Ideal.ofBits .f32 0x00000000#32 + ∑ j : S16x4x64x64.Idx, val_main_v99 (F := Ideal) x0 x1 x2 j)
    (Ideal.ofBits .f32 0x48800000#32) = total x0 (Wst x1) (Ist x1) x2
  rw [Ideal.ofBits_zero_f32, zero_add, sum_idx4]
  unfold total
  refine congrArg (fun s => Ideal.div s (Ideal.ofBits .f32 0x48800000#32)) ?_
  refine Finset.sum_congr rfl fun b _ => Finset.sum_congr rfl fun i _ => ?_
  rw [sum_pix]
  refine Finset.sum_congr rfl fun p _ => Finset.sum_congr rfl fun q _ => ?_
  exact v99_at x0 x1 x2 b i p q

end Cert.RefClosed

end
-- ==== Proof.KIValue.lean ====
import proofs.«105676_j64072322121836_2_alg».proof.Proof.KIAccum
import proofs.«105676_j64072322121836_2_alg».proof.Proof.KIBlocks
import proofs.«105676_j64072322121836_2_alg».proof.Proof.TileTotal
import proofs.«105676_j64072322121836_2_alg».proof.Proof.RefSum
import Idealize.ShloMosaic.Lib.Pipeline.Value
import Idealize.ShloMosaic.Lib.StableHlo.Run

/-!
  The kernel's result, as the loss.

  Block `b` of the kernel's output array is everywhere the sum of batch entry `b`'s 16 tile sums, and the 16 blocks
  cover the array. The host operations after the region take entry `(b, 0, 0)` of each block, sum the 16 from zero and
  divide by 262144. A tile sum is the sum of the loss's terms over the four corners and the tile's 256 pixels, so a
  batch entry's 16 tiles give the sum over the corners and all its pixels, and the result is the loss.
-/

set_option maxRecDepth 16384

noncomputable section

namespace Cert.KernelIdeal.Hand

open Cert.KernelIdeal Cert.KernelIdeal.Gen Cert.KernelIdeal.TileLoss Cert.RunSum Cert.BilinearL1 Cert.SumLaws
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-! ## The output array -/

/-- What the output array ends holding: at `(b, ·, ·)` the running sum at batch entry `b`'s last tile. -/
def outArr (c : Dev nD) : S16x8x128.Idx → EReal := fun i => acc (tileN m c) ((i 0).val * 16 + 15)

/-- The output window's block index at point `t`: the batch entry, and the whole of the other two axes. -/
theorem idx_out : ∀ t : Fin cfg0.N, win0_4.index t (0 : Fin 3) = t.val / 16 ∧ win0_4.index t (1 : Fin 3) = 0 ∧ win0_4.index t (2 : Fin 3) = 0 :=
  (by decide +kernel : ∀ t : Fin grid0.N, win0_4.index t (0 : Fin 3) = t.val / 16 ∧ win0_4.index t (1 : Fin 3) = 0 ∧ win0_4.index t (2 : Fin 3) = 0)

/-- What a batch entry's last point writes back is its block of `outArr`. -/
theorem flushed_out (c : Dev nD) (t : Fin cfg0.N) (hf : (cfg0.win 4).flush t = true) :
    (dats m 0 c).flushed 4 t = ((cfg0.win 4).blk t).view.read (Elt Ideal) (outArr m c) := by
  have h15 : t.val % 16 = 15 := (flush0_4 t).mp hf
  obtain ⟨e0, e1, e2⟩ := idx_out t
  show (cfg0.win 4).cut (grid0.coords t) ((dats m 0 c).after 4 t) = _
  rw [after0_4]
  funext y
  show (outsAt0 m c t.val t.isLt).1 ((cfg0.win 4).xinj (grid0.coords t) y) = outArr m c (((cfg0.win 4).blk t).view.emb y)
  rw [out_eq m c t h15]
  unfold outArr
  congr 1
  show t.val = (win0_4.index t (0 : Fin 3) * 1 + 1 * (y 0).val) * 16 + 15
  have hy : (y 0).val < 1 := (y 0).isLt
  omega

/-- An index of the output array is in point `t`'s block iff each coordinate is in the block's range. -/
theorem mem_blk_out (t : Fin cfg0.N) (i : S16x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v92).slice (win0_4.rect t)).set ↔ _
  rw [View.set_slice_whole, Rect.mem_set_unit]
  exact Iff.rfl

/-- The output array after the run. -/
theorem final_out (c : Dev nD) : (dats m 0 c).arrAt 4 cfg0.N = outArr m c :=
  (dats m 0 c).arrAt_eq_of_cover 4 (outArr m c) (flushed_out m c) fun i => by
    have hN : cfg0.N = 256 := N_0
    have hi0 : (i 0).val < 16 := (i 0).isLt
    have hi1 : (i 1).val < 8 := (i 1).isLt
    have hi2 : (i 2).val < 128 := (i 2).isLt
    let t : Fin cfg0.N := ⟨(i 0).val * 16 + 15, by rw [hN]; omega⟩
    obtain ⟨e0, e1, e2⟩ := idx_out t
    have tv : t.val = (i 0).val * 16 + 15 := rfl
    refine ⟨t, (flush0_4 t).mpr (by rw [tv]; omega), ?_⟩
    rw [mem_blk_out]
    intro a
    match a with
    | ⟨0, _⟩ => show win0_4.index t (0 : Fin 3) * 1 ≤ (i 0).val ∧ (i 0).val < win0_4.index t (0 : Fin 3) * 1 + 1; rw [e0, tv]; omega
    | ⟨1, _⟩ => show win0_4.index t (1 : Fin 3) * 8 ≤ (i 1).val ∧ (i 1).val < win0_4.index t (1 : Fin 3) * 8 + 8; rw [e1]; omega
    | ⟨2, _⟩ => show win0_4.index t (2 : Fin 3) * 128 ≤ (i 2).val ∧ (i 2).val < win0_4.index t (2 : Fin 3) * 128 + 128; rw [e2]; omega

/-! ## The host operations after the region -/

variable [Facts]

/-- What the lines after the region compute from the output array. -/
def tail (out : S16x8x128.Idx → EReal) : (⟨S_, .f32⟩ : BufTy).Contents (Elt Ideal) :=
  Host.divf (F := Ideal)
    (Host.reduceAdd (F := Ideal)
      (shapeCast S16 (extractStridedSlice S16x1x1 ![0, 0, 0] out slices_S16x8x128_S16x1x1_0_0_0) shapeCasts_S16x1x1_S16)
      (constant (F := Ideal) S_ .f32 0x00000000#32) reducesTo_S16_S_d0 h_S_)
    (constant (F := Ideal) S_ .f32 0x48800000#32)

/-- The rank-1 index set of extent 16 is `Fin 16`. -/
def idx16 : S16.Idx ≃ Fin 16 where
  toFun j := j 0
  invFun b := ix1 b
  left_inv j := (eq_ix1 j).symm
  right_inv _ := rfl

/-- It is the sum of the 16 blocks' first entries over the divisor. -/
theorem tail_apply (out : S16x8x128.Idx → EReal) (i : S_.Idx) :
    tail out i = Ideal.div (∑ b : Fin 16, out (ix3 b (0 : Fin 8) (0 : Fin 128))) (Ideal.ofBits .f32 0x48800000#32) := by
  unfold tail
  show Ideal.div (Host.reduceAdd (F := Ideal) _ _ reducesTo_S16_S_d0 h_S_ i) (Ideal.ofBits .f32 0x48800000#32) = _
  congr 1
  simp only [Host.reduceAdd, Ideal.hostReduceAdd_def]
  rw [Ideal.hostReduceAdd_total reducesTo_S16_S_d0 (fun b => b.elim0) _ _ i]
  show Ideal.ofBits .f32 0x00000000#32 + _ = _
  rw [Ideal.ofBits_zero_f32, zero_add]
  refine Fintype.sum_equiv idx16 _ _ fun j => ?_
  obtain ⟨b, rfl⟩ : ∃ b : Fin 16, j = ix1 b := ⟨j 0, eq_ix1 j⟩
  show shapeCast S16 (extractStridedSlice S16x1x1 ![0, 0, 0] out slices_S16x8x128_S16x1x1_0_0_0) shapeCasts_S16x1x1_S16 (ix1 b) = out (ix3 b 0 0)
  refine (shapeCast_apply _ shapeCasts_S16x1x1_S16 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply ![0, 0, 0] out slices_S16x8x128_S16x1x1_0_0_0 _ (ix3 b (0 : Fin 8) (0 : Fin 128)) fun a => ?_
    match a with
    | ⟨0, _⟩ => show b.val = 0 + b.val; omega
    | ⟨1, _⟩ => rfl
    | ⟨2, _⟩ => rfl

end Cert.KernelIdeal.Hand

end
-- ==== Proof.KIResult.lean ====
import proofs.«105676_j64072322121836_2_alg».proof.Proof.KIValue

/-!
  The kernel's run, read: its result buffer ends at the loss of its three arguments.

  A grid point's tile sum is the sum of the loss's terms over the four corners and the tile's 256 pixels (the point's
  blocks are the arguments' rows of the tile, and the index words are below 4096); the 16 tiles of a batch entry give
  the sum over the corners and the entry's 4096 pixels; the lines after the region sum the 16 batch entries and divide.
-/

set_option maxRecDepth 16384

noncomputable section

namespace Cert.KernelIdeal.Hand

open Cert.KernelIdeal Cert.KernelIdeal.Gen Cert.KernelIdeal.TileLoss Cert.RunSum Cert.BilinearL1 Cert.SumLaws
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-- The tile sum of point `16 b + k` is the sum of the loss's terms over the corners and the tile's pixels. -/
theorem tileAt_eq (c : Dev nD) (b k : Fin 16) (t : Fin cfg0.N) (ht : t.val = b.val * 16 + k.val) :
    tileAt m c t = ∑ o : Fin 4, ∑ r : Fin 256,
      term (m ((c : Thread nD τ).loc main_arg0)) (Cert.RefClosed.Wst (m ((c : Thread nD τ).loc main_arg1))) (Cert.RefClosed.Ist (m ((c : Thread nD τ).loc main_arg1))) (m ((c : Thread nD τ).loc main_arg2)) b o (tileRow k r) :=
  tileSum_eq _ _ _ _ (Cert.RefClosed.idx_lt _) b k _ _ _ _
    (fun r cc => blk0 m c t b k ht r cc) (fun r o => blk1 m c t b k ht r o) (fun r o => blk2 m c t b k ht r o)
    (fun r => blk3 m c t b k ht r)

/-- Batch entry `b`'s block of the output array holds the sum of the loss's terms over the corners and the entry's pixels. -/
theorem outArr_eq (c : Dev nD) (b : Fin 16) :
    outArr m c (ix3 b (0 : Fin 8) (0 : Fin 128)) = ∑ o : Fin 4, ∑ ρ : Fin 4096, term (m ((c : Thread nD τ).loc main_arg0)) (Cert.RefClosed.Wst (m ((c : Thread nD τ).loc main_arg1))) (Cert.RefClosed.Ist (m ((c : Thread nD τ).loc main_arg1))) (m ((c : Thread nD τ).loc main_arg2)) b o ρ := by
  show acc (tileN m c) (b.val * 16 + 15) = _
  rw [acc_last]
  refine Eq.trans ?_ (batch_total (fun o ρ => term (m ((c : Thread nD τ).loc main_arg0)) (Cert.RefClosed.Wst (m ((c : Thread nD τ).loc main_arg1))) (Cert.RefClosed.Ist (m ((c : Thread nD τ).loc main_arg1))) (m ((c : Thread nD τ).loc main_arg2)) b o ρ))
  refine Finset.sum_congr rfl fun k _ => ?_
  have hlt : b.val * 16 + k.val < cfg0.N := by rw [show cfg0.N = 256 from N_0]; have := b.isLt; have := k.isLt; omega
  exact (tileN_eq m c ⟨b.val * 16 + k.val, hlt⟩).trans (tileAt_eq m c b k ⟨b.val * 16 + k.val, hlt⟩ rfl)

set_option maxHeartbeats 2000000 in
/-- What the lines after the region compute from the output array is the loss. -/
theorem tail_total (c : Dev nD) : tail (outArr m c) = fun _ => total (m ((c : Thread nD τ).loc main_arg0)) (Cert.RefClosed.Wst (m ((c : Thread nD τ).loc main_arg1))) (Cert.RefClosed.Ist (m ((c : Thread nD τ).loc main_arg1))) (m ((c : Thread nD τ).loc main_arg2)) := by
  funext i
  rw [tail_apply]
  unfold total
  exact congrArg (fun s => Ideal.div s (Ideal.ofBits .f32 0x48800000#32)) (Finset.sum_congr rfl fun b _ => outArr_eq m c b)

/-- The result buffer after the lines that follow the region: those lines applied to the output array. -/
theorem afterTail_eq (c : Dev nD) :
    Pipeline.afterTail₀ cfgs (dats m) 0 (V0 m) [hostOps1] c main_v96 = tail (outArr m c) := by
  unfold Pipeline.afterTail₀
  show StableHlo.after hostOps1 _ (Proc.devRef .tc main_v96) = _
  after_results
  rw [show Pipeline.withArrays (cfgs 0).spec c (V0 m c) (fun w => (dats m 0 c).arrAt w (cfgs 0).N) (Proc.devRef .tc main_v92)
      = outArr m c from (Pipeline.withArrays_arr spec0 launch0.win.arr_inj c _ _ 4).trans (final_out m c)]
  rfl

/-- The run, read: every weakly fair execution terminates with the result buffer at the loss of the arguments, and the
    arguments unchanged. -/
theorem value_run : θ_run defs (onTc (τ := τ) (main (F := Ideal))) ⟨m, fun _ => 0, ρ⟩ fun r => ∀ c : Dev nD,
      r.2.mem ((c.tc : Thread nD τ).loc main_v96) = (fun _ => total (m ((c : Thread nD τ).loc main_arg0)) (Cert.RefClosed.Wst (m ((c : Thread nD τ).loc main_arg1))) (Cert.RefClosed.Ist (m ((c : Thread nD τ).loc main_arg1))) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v96 (Pipeline.mem_restRefs_of main_v96 (by decide) (by decide))).trans ((afterTail_eq m c).trans (tail_total m c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.lean ====
/-
  The masked L1 loss between bilinear-corner samples of a correlation volume and the bilinear weights: a Pallas kernel
  against its jnp reference, equal on the extended reals.

  Both programs compute, from the flow field, four bilinear weights and four corner index words per pixel (the same
  host operations in the same order). The reference gathers, for each corner, the volume's entry at the pixel's row and
  the column its index word names (`take_along_axis`, whose fill-mode mask and negative-index wrap are the identity
  because the clipped coordinates put every word in 0 … 4095), multiplies by the mask, subtracts weight · mask, and
  averages the absolute values: the sum over 16 · 4 · 4096 terms from zero, divided by 262144.
  The kernel streams the volume through a 16 × 16 grid (batch entry, row tile of 256 rows): in every row it keeps the
  entries whose column number equals the index word and sums the row — a one-hot selection, so the same gather —, forms
  the same term, sums the tile's rows and the four corners and adds the tile's sum to an accumulator that is zeroed at
  a batch entry's first tile and copied to the output block at its last; the host then sums the 16 blocks' first
  entries from zero and divides by the same literal. Finite sums on the extended reals commute and regroup, and a sum
  over tiles and rows is a sum over pixels, so both results are `Cert.BilinearL1.total` of the three arguments.
  The three frames: the two kernel programs run to the end, fault nowhere and leave their arguments unchanged (three
  control cases of the body, the accumulator carried across grid points, the output block written back at the last
  row tile only); the reference's frame is its run with the result dropped. The ideal pass rewrote nothing.
-/
import proofs.«105676_j64072322121836_2_alg».proof.Defs
import proofs.«105676_j64072322121836_2_alg».proof.Proof.Gen.Kernel
import proofs.«105676_j64072322121836_2_alg».proof.Proof.Gen.KernelIdeal
import proofs.«105676_j64072322121836_2_alg».proof.Proof.Gen.ReferenceIdeal
import proofs.«105676_j64072322121836_2_alg».proof.Proof.Gen.Pre_finite_inputs
import proofs.«105676_j64072322121836_2_alg».proof.Proof.KFrame
import proofs.«105676_j64072322121836_2_alg».proof.Proof.KIResult
import proofs.«105676_j64072322121836_2_alg».proof.Proof.RefRunP
import proofs.«105676_j64072322121836_2_alg».proof.Proof.RefSum
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Hand.frame m ρ

/-- So does the kernel read at the ideal instance. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- The reference run's result term is the last of its stages. -/
theorem ref_stage (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v101 m c
      = Cert.ReferenceIdeal.ReadP.val_main_v101 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) := by
  unfold Cert.ReferenceIdeal.ValueP.res_main_v101; rfl

/-- From memories that agree on the three arguments both programs end with the loss of those arguments. -/
theorem algebraic : Cert.algebraic_KernelIdeal_ReferenceIdeal := by
  intro m ρ m' ρ' _ hagree
  refine ⟨fun c => fun _ => Cert.BilinearL1.total (m ((c.tc : Thread Cert.KernelIdeal.nD Cert.KernelIdeal.τ).loc Cert.KernelIdeal.main_arg0)) (Cert.RefClosed.Wst (m ((c.tc : Thread Cert.KernelIdeal.nD Cert.KernelIdeal.τ).loc Cert.KernelIdeal.main_arg1))) (Cert.RefClosed.Ist (m ((c.tc : Thread Cert.KernelIdeal.nD Cert.KernelIdeal.τ).loc Cert.KernelIdeal.main_arg1))) (m ((c.tc : Thread Cert.KernelIdeal.nD Cert.KernelIdeal.τ).loc Cert.KernelIdeal.main_arg2)),
    Cert.KernelIdeal.Hand.value_run m ρ, ?_⟩
  refine (θ_run Cert.ReferenceIdeal.defs _ _).mono (fun _ h c => ⟨(h c).1.trans ?_, (h c).2⟩)
    (Cert.ReferenceIdeal.ValueP.run (F := Ideal) m' ρ')
  rw [ref_stage, Cert.RefClosed.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
